-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S800000x50 : Shape := ⟨2, ![800000, 50]⟩
abbrev S50x64 : Shape := ⟨2, ![50, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S800000x50 : S_.BroadcastsInDim S800000x50 (![] : Fin 0 → Fin S800000x50.rank)
  reducesTo_S800000x50_S_d0_1 : S800000x50.ReducesTo [0, 1] S_
  bcast_S_S50x64 : S_.BroadcastsInDim S50x64 (![] : Fin 0 → Fin S50x64.rank)
  reducesTo_S50x64_S_d0_1 : S50x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg16 : FVec F S64x64 .f32) (main_arg17 : FVec F S64 .f32) (main_arg18 : FVec F S64x64 .f32) (main_arg19 : FVec F S64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_v83 main_v84 main_cst_32

def fn_part3 {F : FTy → Type} [FloatOps F] (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_arg18 main_arg19 main_v48 main_v49 main_v50

def fn_part1 {F : FTy → Type} [FloatOps F] (main_arg6 : FVec F S800000x50 .f32) (main_arg7 : FVec F S800000x50 .f32) (main_arg8 : FVec F S50x64 .f32) (main_arg9 : FVec F S64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S64 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S800000x50 .f32 := Host.absf main_arg6
  let main_cst_6 : FVec F S_ .f32 := constant S_ .f32 0x7F800000#32
  let main_v20 : FVec F S800000x50 .f32 := broadcastInDim S800000x50 ![] bcast_S_S800000x50 main_cst_6
  let main_v21 : IVec S800000x50 1 := cmpf .olt main_v19 main_v20
  let main_c_7 : IVec S_ 1 := constantI S_ 1 1#1
  let main_v22 : IVec S_ 1 := (fun x v => Host.reduce IntOp.andi x v reducesTo_S800000x50_S_d0_1 h_S_) main_v21 main_c_7
  let main_v23 : IVec S_ 1 := andi main_v18 main_v22
  let main_v24 : FVec F S800000x50 .f32 := Host.absf main_arg7
  let main_cst_8 : FVec F S_ .f32 := constant S_ .f32 0x7F800000#32
  let main_v25 : FVec F S800000x50 .f32 := broadcastInDim S800000x50 ![] bcast_S_S800000x50 main_cst_8
  let main_v26 : IVec S800000x50 1 := cmpf .olt main_v24 main_v25
  let main_c_9 : IVec S_ 1 := constantI S_ 1 1#1
  let main_v27 : IVec S_ 1 := (fun x v => Host.reduce IntOp.andi x v reducesTo_S800000x50_S_d0_1 h_S_) main_v26 main_c_9
  let main_v28 : IVec S_ 1 := andi main_v23 main_v27
  let main_v29 : FVec F S50x64 .f32 := Host.absf main_arg8
  let main_cst_10 : FVec F S_ .f32 := constant S_ .f32 0x7F800000#32
  let main_v30 : FVec F S50x64 .f32 := broadcastInDim S50x64 ![] bcast_S_S50x64 main_cst_10
  let main_v31 : IVec S50x64 1 := cmpf .olt main_v29 main_v30
  let main_c_11 : IVec S_ 1 := constantI S_ 1 1#1
  let main_v32 : IVec S_ 1 := (fun x v => Host.reduce IntOp.andi x v reducesTo_S50x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x64 .f32) (main_arg1 : FVec F S50000x64 .f32) (main_arg2 : IVec S2x800000 32) (main_arg3 : IVec S2x800000 32) (main_arg4 : FVec F S800000 .f32) (main_arg5 : FVec F S800000 .f32) (main_arg6 : FVec F S800000x50 .f32) (main_arg7 : FVec F S800000x50 .f32) (main_arg8 : FVec F S50x64 .f32) (main_arg9 : FVec F S64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S800000x50 : Shape := ⟨2, ![800000, 50]⟩
abbrev S50x64 : Shape := ⟨2, ![50, 64]⟩
abbrev S64 : Shape := ⟨1, ![64]⟩
abbrev S64x64 : Shape := ⟨2, ![64, 64]⟩
abbrev S5000x64 : Shape := ⟨2, ![5000, 64]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1600000x50 : Shape := ⟨2, ![1600000, 50]⟩
abbrev S1600000x64 : Shape := ⟨2, ![1600000, 64]⟩
abbrev S1600000 : Shape := ⟨1, ![1600000]⟩
abbrev S1600000x1 : Shape := ⟨2, ![1600000, 1]⟩
abbrev S1x64 : Shape := ⟨2, ![1, 64]⟩
abbrev S6400x50 : Shape := ⟨2, ![6400, 50]⟩
abbrev S6400x64 : Shape := ⟨2, ![6400, 64]⟩
abbrev S6400x1 : Shape := ⟨2, ![6400, 1]⟩

abbrev nBuf : Space → Nat
  | .hbm => 70
  | .vmem => 38
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S2x800000, .i32⟩
  | .hbm, ⟨3, _⟩ => ⟨S2x800000, .i32⟩
  | .hbm, ⟨4, _⟩ => ⟨S800000, .f32⟩
  | .hbm, ⟨5, _⟩ => ⟨S800000, .f32⟩
  | .hbm, ⟨6, _⟩ => ⟨S800000x50, .f32⟩
  | .hbm, ⟨7, _⟩ => ⟨S800000x50, .f32⟩
  | .hbm, ⟨8, _⟩ => ⟨S50x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S50000x64, .bf16⟩
  | .hbm, ⟨21, _⟩ => ⟨S50000x64, .bf16⟩
  | .hbm, ⟨22, _⟩ => ⟨S1x800000, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .bf16⟩
  | .hbm, ⟨33, _⟩ => ⟨S1x800000, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .bf16⟩
  | .hbm, ⟨44, _⟩ => ⟨S1600000x50, .f32⟩
  | .hbm, ⟨45, _⟩ => ⟨S1600000x64, .bf16⟩
  | .hbm, ⟨46, _⟩ => ⟨S1600000, .f32⟩
  | .hbm, ⟨47, _⟩ => ⟨S1600000x1, .f32⟩
  | .hbm, ⟨48, _⟩ => ⟨S1x64, .f32⟩
  | .hbm, ⟨49, _⟩ => ⟨S1x64, .f32⟩
  | .hbm, ⟨50, _⟩ => ⟨S1600000x64, .f32⟩
  | .hbm, ⟨51, _⟩ => ⟨S800000x64, .f32⟩
  | .hbm, ⟨52, _⟩ => ⟨S800000x64, .f32⟩
  | .hbm, ⟨53, _⟩ => ⟨S1x800000, .i32⟩
  | .hbm, ⟨54, _⟩ => ⟨S800000, .i32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S1x800000, .i32⟩
  | .hbm, ⟨60, _⟩ => ⟨S800000, .i32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S1x64, .f32⟩
  | .hbm, ⟨66, _⟩ => ⟨S1x64, .f32⟩
  | .hbm, ⟨67, _⟩ => ⟨S50000x64, .f32⟩
  | .hbm, ⟨68, _⟩ => ⟨S1x64, .f32⟩
  | .hbm, ⟨69, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .bf16⟩
  | .local _ .vmem, ⟨4, _⟩ => ⟨S5000x64, .bf16⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .bf16⟩
  | .local _ .vmem, ⟨9, _⟩ => ⟨S5000x64, .bf16⟩
  | .local _ .vmem, ⟨10, _⟩ => ⟨S6400x50, .f32⟩
  | .local _ .vmem, ⟨11, _⟩ => ⟨S6400x50, .f32⟩
  | .local _ .vmem, ⟨12, _⟩ => ⟨S6400x64, .bf16⟩
  | .local _ .vmem, ⟨13, _⟩ => ⟨S6400x64, .bf16⟩
  | .local _ .vmem, ⟨14, _⟩ => ⟨S6400x1, .f32⟩
  | .local _ .vmem, ⟨15, _⟩ => ⟨S6400x1, .f32⟩
  | .local _ .vmem, ⟨16, _⟩ => ⟨S50x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S6400x64, .f32⟩
  | .local _ .vmem, ⟨21, _⟩ => ⟨S6400x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x50 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S50x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S6400x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S5000x64_S5000x64_0_0 : (Rect.unit (s := S5000x64) ![0, 0] S5000x64.size inb_S5000x64_S5000x64_0_0).PackedRows (EltTy.packing .bf16)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x50_S800000x50_S1600000x50_d0 : Shape.Concatenates [S800000x50, S800000x50] S1600000x50 0
  concatenates_S800000x64_S800000x64_S1600000x64_d0 : Shape.Concatenates [S800000x64, S800000x64] S1600000x64 0
  concatenates_S800000_S800000_S1600000_d0 : Shape.Concatenates [S800000, S800000] S1600000 0
  shapeCasts_S1600000_S1600000x1 : S1600000.ShapeCasts S1600000x1
  shapeCasts_S64_S1x64 : S64.ShapeCasts S1x64
  inb_S6400x50_S6400x50_0_0 : ∀ a, (![0, 0] : Fin 2 → Nat) a + S6400x50.size a ≤ S6400x50.size a
  h_S6400x50 : 0 < S6400x50.numel
  shapeCasts_S6400x50_S6400x50 : S6400x50.ShapeCasts S6400x50
  inb_S50x64_S50x64_0_0 : ∀ a, (![0, 0] : Fin 2 → Nat) a + S50x64.size a ≤ S50x64.size a
  h_S50x64 : 0 < S50x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  broadcasts_S6400x1_S6400x64 : S6400x1.Broadcasts S6400x64
  slices_S1600000x64_S800000x64_0_0 : S1600000x64.Slices ![0, 0] S800000x64
  slices_S1600000x64_S800000x64_800000_0 : S1600000x64.Slices ![800000, 0] S800000x64
  slices_S2x800000_S1x800000_1_0 : S2x800000.Slices ![1, 0] S1x800000
  bcast_S_S50000x64 : S_.BroadcastsInDim S50000x64 (![] : Fin 0 → Fin S50000x64.rank)
  shapeCasts_S5000x64_S5000x64 : S5000x64.ShapeCasts S5000x64
  broadcasts_S1x64_S5000x64 : S1x64.Broadcasts S5000x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  dot_S6400x50_S50x64_S6400x64_1_0_0_1_n_n_wf : DotDims.WF S6400x50 S50x64 S6400x64 [1] [0] [0] [1] [] []
  dot_S6400x64_S64x64_S6400x64_1_0_0_1_n_n_wf : DotDims.WF S6400x64 S64x64 S6400x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .bf16 = 32 ∨ (Rect.block (s := S50000x64) S5000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .bf16 = 32 ∨ (Rect.block (s := S50000x64) S5000x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x50.size a ≤ S1600000x50.size a
  hwx2_0 : ∀ i : grid2.Coords, EltTy.bits .f32 = 32 ∨ (Rect.block (s := S1600000x50) S6400x50.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x64.size a ≤ S1600000x64.size a
  hwx2_1 : ∀ i : grid2.Coords, EltTy.bits .bf16 = 32 ∨ (Rect.block (s := S1600000x64) S6400x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x1.size a ≤ S1600000x1.size a
  hwx2_2 : ∀ i : grid2.Coords, EltTy.bits .f32 = 32 ∨ (Rect.block (s := S1600000x1) S6400x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S50x64.size a ≤ S50x64.size a
  hwx2_3 : ∀ i : grid2.Coords, EltTy.bits .f32 = 32 ∨ (Rect.block (s := S50x64) S50x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6400x64.size a ≤ S1600000x64.size a
  hwx2_7 : ∀ i : grid2.Coords, EltTy.bits .f32 = 32 ∨ (Rect.block (s := S1600000x64) S6400x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x50_S50x64_S6400x64_1_0_0_1_n_n : DotDims S6400x50 S50x64 S6400x64 where
  lhsContracting := [1]
  rhsContracting := [0]
  lhsNonContracting := [0]
  rhsNonContracting := [1]
  lhsBatch := []
  rhsBatch := []
  wf := dot_S6400x50_S50x64_S6400x64_1_0_0_1_n_n_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg15) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S6400x50.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S6400x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S6400x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S50x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v26) S6400x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v33) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg18) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v38) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v39) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v43) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S800000x50 : Shape := ⟨2, ![800000, 50]⟩
abbrev S50x64 : Shape := ⟨2, ![50, 64]⟩
abbrev S64 : Shape := ⟨1, ![64]⟩
abbrev S64x64 : Shape := ⟨2, ![64, 64]⟩
abbrev S_ : Shape := ⟨0, ![]⟩
abbrev S800000x64 : Shape := ⟨2, ![800000, 64]⟩
abbrev S1x64 : Shape := ⟨2, ![1, 64]⟩
abbrev S800000x1 : Shape := ⟨2, ![800000, 1]⟩
abbrev S1x800000 : Shape := ⟨2, ![1, 800000]⟩

abbrev nBuf : Space → Nat
  | .hbm => 184
  | .vmem => 0
  | .smem => 0
  | _ => 0

abbrev hbmTy0_0 (i : Nat) : BufTy := match i % 128 with
  | 0 => ⟨S50000x64, .f32⟩
  | 1 => ⟨S50000x64, .f32⟩
  | 2 => ⟨S2x800000, .i32⟩
  | 3 => ⟨S2x800000, .i32⟩
  | 4 => ⟨S800000, .f32⟩
  | 5 => ⟨S800000, .f32⟩
  | 6 => ⟨S800000x50, .f32⟩
  | 7 => ⟨S800000x50, .f32⟩
  | 8 => ⟨S50x64, .f32⟩
  | 9 => ⟨S64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S64x64, .f32⟩
  | 17 => ⟨S64, .f32⟩
  | 18 => ⟨S64x64, .f32⟩
  | 19 => ⟨S64, .f32⟩
  | 20 => ⟨S_, .f32⟩
  | 21 => ⟨S800000, .f32⟩
  | 22 => ⟨S800000, .f32⟩
  | 23 => ⟨S800000, .f32⟩
  | 24 => ⟨S_, .f32⟩
  | 25 => ⟨S800000, .f32⟩
  | 26 => ⟨S800000, .f32⟩
  | 27 => ⟨S_, .f32⟩
  | 28 => ⟨S800000, .f32⟩
  | 29 => ⟨S800000, .f32⟩
  | 30 => ⟨S800000x64, .f32⟩
  | 31 => ⟨S1x64, .f32⟩
  | 32 => ⟨S800000x64, .f32⟩
  | 33 => ⟨S800000x64, .f32⟩
  | 34 => ⟨S_, .f32⟩
  | 35 => ⟨S800000x64, .f32⟩
  | 36 => ⟨S800000x64, .f32⟩
  | 37 => ⟨S800000x64, .f32⟩
  | 38 => ⟨S800000x64, .f32⟩
  | 39 => ⟨S800000x64, .i1⟩
  | 40 => ⟨S800000x64, .f32⟩
  | 41 => ⟨S800000x64, .f32⟩
  | 42 => ⟨S800000x64, .f32⟩
  | 43 => ⟨S800000x64, .f32⟩
  | 44 => ⟨S800000x64, .f32⟩
  | 45 => ⟨S800000x64, .f32⟩
  | 46 => ⟨S800000x64, .f32⟩
  | 47 => ⟨S800000x64, .f32⟩
  | 48 => ⟨S_, .f32⟩
  | 49 => ⟨S800000x64, .f32⟩
  | 50 => ⟨S800000x64, .f32⟩
  | 51 => ⟨S800000x64, .f32⟩
  | 52 => ⟨S1x64, .f32⟩
  | 53 => ⟨S800000x64, .f32⟩
  | 54 => ⟨S800000x64, .f32⟩
  | 55 => ⟨S800000x1, .f32⟩
  | 56 => ⟨S800000x64, .f32⟩
  | 57 => ⟨S800000x64, .f32⟩
  | 58 => ⟨S50000x64, .f32⟩
  | 59 => ⟨S1x800000, .i32⟩
  | 60 => ⟨S800000, .i32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S800000x64, .f32⟩
  | 71 => ⟨S1x800000, .i32⟩
  | 72 => ⟨S800000, .i32⟩
  | 73 => ⟨S_, .f32⟩
  | 74 => ⟨S50000x64, .f32⟩
  | 75 => ⟨S800000x1, .i32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S_, .f32⟩
  | 82 => ⟨S800000, .f32⟩
  | 83 => ⟨S800000, .f32⟩
  | 84 => ⟨S800000, .f32⟩
  | 85 => ⟨S_, .f32⟩
  | 86 => ⟨S800000, .f32⟩
  | 87 => ⟨S800000, .f32⟩
  | 88 => ⟨S_, .f32⟩
  | 89 => ⟨S800000, .f32⟩
  | 90 => ⟨S800000, .f32⟩
  | 91 => ⟨S800000x64, .f32⟩
  | 92 => ⟨S1x64, .f32⟩
  | 93 => ⟨S800000x64, .f32⟩
  | 94 => ⟨S800000x64, .f32⟩
  | 95 => ⟨S_, .f32⟩
  | 96 => ⟨S800000x64, .f32⟩
  | 97 => ⟨S800000x64, .f32⟩
  | 98 => ⟨S800000x64, .f32⟩
  | 99 => ⟨S800000x64, .f32⟩
  | 100 => ⟨S800000x64, .i1⟩
  | 101 => ⟨S800000x64, .f32⟩
  | 102 => ⟨S800000x64, .f32⟩
  | 103 => ⟨S800000x64, .f32⟩
  | 104 => ⟨S800000x64, .f32⟩
  | 105 => ⟨S800000x64, .f32⟩
  | 106 => ⟨S800000x64, .f32⟩
  | 107 => ⟨S800000x64, .f32⟩
  | 108 => ⟨S800000x64, .f32⟩
  | 109 => ⟨S_, .f32⟩
  | 110 => ⟨S800000x64, .f32⟩
  | 111 => ⟨S800000x64, .f32⟩
  | 112 => ⟨S800000x64, .f32⟩
  | 113 => ⟨S1x64, .f32⟩
  | 114 => ⟨S800000x64, .f32⟩
  | 115 => ⟨S800000x64, .f32⟩
  | 116 => ⟨S800000x1, .f32⟩
  | 117 => ⟨S800000x64, .f32⟩
  | 118 => ⟨S800000x64, .f32⟩
  | 119 => ⟨S50000x64, .f32⟩
  | 120 => ⟨S1x800000, .i32⟩
  | 121 => ⟨S800000, .i32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x64, .f32⟩

abbrev hbmTy0_1 (i : Nat) : BufTy := match i % 128 with
  | 0 => ⟨S800000, .i32⟩
  | 1 => ⟨S800000x1, .i32⟩
  | 2 => ⟨S800000x64, .f32⟩
  | 3 => ⟨S800000x64, .f32⟩
  | 4 => ⟨S1x800000, .i32⟩
  | 5 => ⟨S800000, .i32⟩
  | 6 => ⟨S_, .f32⟩
  | 7 => ⟨S50000x64, .f32⟩
  | 8 => ⟨S800000x1, .i32⟩
  | 9 => ⟨S50000x64, .f32⟩
  | 10 => ⟨S50000x64, .f32⟩
  | 11 => ⟨S1x64, .f32⟩
  | 12 => ⟨S50000x64, .f32⟩
  | 13 => ⟨S50000x64, .f32⟩
  | 14 => ⟨S_, .f32⟩
  | 15 => ⟨S50000x64, .f32⟩
  | 16 => ⟨S50000x64, .f32⟩
  | 17 => ⟨S50000x64, .f32⟩
  | 18 => ⟨S50000x64, .f32⟩
  | 19 => ⟨S50000x64, .i1⟩
  | 20 => ⟨S50000x64, .f32⟩
  | 21 => ⟨S50000x64, .f32⟩
  | 22 => ⟨S50000x64, .f32⟩
  | 23 => ⟨S50000x64, .f32⟩
  | 24 => ⟨S50000x64, .f32⟩
  | 25 => ⟨S50000x64, .f32⟩
  | 26 => ⟨S50000x64, .f32⟩
  | 27 => ⟨S50000x64, .f32⟩
  | 28 => ⟨S_, .f32⟩
  | 29 => ⟨S50000x64, .f32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S50000x64, .f32⟩
  | 39 => ⟨S50000x64, .f32⟩
  | 40 => ⟨S50000x64, .i1⟩
  | 41 => ⟨S50000x64, .f32⟩
  | 42 => ⟨S50000x64, .f32⟩
  | 43 => ⟨S50000x64, .f32⟩
  | 44 => ⟨S50000x64, .f32⟩
  | 45 => ⟨S50000x64, .f32⟩
  | 46 => ⟨S50000x64, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_v11 : Ref sig .tc := ⟨.hbm, 47, rfl⟩
abbrev main_cst_2 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c : Ref sig .tc := ⟨.hbm, 61, rfl⟩
abbrev main_v24 : Ref sig .tc := ⟨.hbm, 62, rfl⟩
abbrev main_v25 : Ref sig .tc := ⟨.hbm, 63, rfl⟩
abbrev main_c_3 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_4 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_5 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_6 : Ref sig .tc := ⟨.hbm, 85, rfl⟩
abbrev main_v44 : Ref sig .tc := ⟨.hbm, 86, rfl⟩
abbrev main_v45 : Ref sig .tc := ⟨.hbm, 87, rfl⟩
abbrev main_cst_7 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_v8 : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_v52 : Ref sig .tc := ⟨.hbm, 108, rfl⟩
abbrev main_cst_8 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_c_9 : Ref sig .tc := ⟨.hbm, 122, rfl⟩
abbrev main_v65 : Ref sig .tc := ⟨.hbm, 123, rfl⟩
abbrev main_v66 : Ref sig .tc := ⟨.hbm, 124, rfl⟩
abbrev main_c_10 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_cst_11 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_call2_cst : Ref sig .tc := ⟨.hbm, 142, rfl⟩
abbrev main_call2_v0 : Ref sig .tc := ⟨.hbm, 143, rfl⟩
abbrev main_call2_v1 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_v5 : Ref sig .tc := ⟨.hbm, 148, rfl⟩
abbrev main_call2_v6 : Ref sig .tc := ⟨.hbm, 149, rfl⟩
abbrev main_call2_v7 : Ref sig .tc := ⟨.hbm, 150, rfl⟩
abbrev main_call2_v8 : Ref sig .tc := ⟨.hbm, 151, rfl⟩
abbrev main_call2_v9 : Ref sig .tc := ⟨.hbm, 152, rfl⟩
abbrev main_call2_v10 : Ref sig .tc := ⟨.hbm, 153, rfl⟩
abbrev main_call2_v11 : Ref sig .tc := ⟨.hbm, 154, rfl⟩
abbrev main_v82 : Ref sig .tc := ⟨.hbm, 155, rfl⟩
abbrev main_cst_12 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_call3_cst : Ref sig .tc := ⟨.hbm, 163, rfl⟩
abbrev main_call3_v0 : Ref sig .tc := ⟨.hbm, 164, rfl⟩
abbrev main_call3_v1 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_call3_v5 : Ref sig .tc := ⟨.hbm, 169, rfl⟩
abbrev main_call3_v6 : Ref sig .tc := ⟨.hbm, 170, rfl⟩
abbrev main_call3_v7 : Ref sig .tc := ⟨.hbm, 171, rfl⟩
abbrev main_call3_v8 : Ref sig .tc := ⟨.hbm, 172, rfl⟩
abbrev main_call3_v9 : Ref sig .tc := ⟨.hbm, 173, rfl⟩
abbrev main_call3_v10 : Ref sig .tc := ⟨.hbm, 174, rfl⟩
abbrev main_call3_v11 : Ref sig .tc := ⟨.hbm, 175, rfl⟩
abbrev main_v89 : Ref sig .tc := ⟨.hbm, 176, rfl⟩
abbrev main_cst_13 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  dot_S800000x50_S50x64_S800000x64_1_0_0_1_n_n_wf : DotDims.WF S800000x50 S50x64 S800000x64 [1] [0] [0] [1] [] []
  dot_S800000x64_S64x64_S800000x64_1_0_0_1_n_n_wf : DotDims.WF S800000x64 S64x64 S800000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S800000x50_S50x64_S800000x64_1_0_0_1_n_n : DotDims S800000x50 S50x64 S800000x64 where
  lhsContracting := [1]
  rhsContracting := [0]
  lhsNonContracting := [0]
  rhsNonContracting := [1]
  lhsBatch := []
  rhsBatch := []
  wf := dot_S800000x50_S50x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The kernel's run with its two results named.

  The program's @main is five pipelined regions among three stretches of host operations. Its frame certificate folds
  the buffer contents through those eight segments, from the launch memory `W0` to the last boundary's contents `W8`,
  and reads the final state against `W8` at every unscoped buffer. Reading it at the two result buffers as well
  as at the twenty arguments gives: every weakly fair execution terminates, nothing faults, the arguments end as
  launched, and the two results end at `W8`'s contents of their buffers.
-/
import proofs.«116981_j2877628088816_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main from any memory with zero counters: it terminates without a fault, each result buffer ends at
    the last boundary's contents, and every argument array ends as launched. -/
theorem run_named : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c)⟩)

end Cert.KernelIdeal.KRun

end
-- ==== Proof.KHost.lean ====
/-
  The host operations between the regions, read at the buffers the regions take.

  Between the two linear-map regions and the filter region the program builds, for each edge type, the column of
  source-node numbers (a negative number counted from the end), gathers the source rows, and lays the two edge
  types' arrays one after the other; between the filter region and the two node regions it cuts the messages back
  into the two edge types' halves and adds each half's rows into their destination nodes. Here each buffer a later
  region reads is written as those operations applied to the contents `W` the stretch starts from, for ANY `W`.
-/
import proofs.«116981_j2877628088816_2_alg».proof.Proof.Gen.KernelIdeal.Launch
import Idealize.ShloMosaic.Lib.StableHlo.Run
import Idealize.ShloMosaic.Lib.Pipeline.Frame

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]

/-! ## The pieces, as functions of the argument arrays -/

/-- Row `0` of an edge-index array as a flat vector of node numbers. -/
def srcRow (x : (⟨S2x800000, .i32⟩ : BufTy).Contents (Elt F)) : (⟨S800000, .i32⟩ : BufTy).Contents (Elt F) :=
  fun i => shapeCast S800000 (extractStridedSlice S1x800000 ![0, 0] x slices_S2x800000_S1x800000_0_0) shapeCasts_S1x800000_S800000 i
/-- Row `1` of an edge-index array as a flat vector of node numbers. -/
def dstRow (x : (⟨S2x800000, .i32⟩ : BufTy).Contents (Elt F)) : (⟨S800000, .i32⟩ : BufTy).Contents (Elt F) :=
  fun i => shapeCast S800000 (extractStridedSlice S1x800000 ![1, 0] x slices_S2x800000_S1x800000_1_0) shapeCasts_S1x800000_S800000 i
/-- The source numbers with a negative one counted from the end (`s < 0 ↦ s + 50000`), as a one-column table. -/
def srcCol (x : (⟨S2x800000, .i32⟩ : BufTy).Contents (Elt F)) : (⟨S800000x1, .i32⟩ : BufTy).Contents (Elt F) :=
  broadcastInDim S800000x1 ![0] bcast_S800000_S800000x1_0
    (select (cmpi .slt (srcRow x) (broadcastInDim S800000 ![] bcast_S_S800000 (constantI S_ 32 0#32)))
      (addi (srcRow x) (broadcastInDim S800000 ![] bcast_S_S800000 (constantI S_ 32 50000#32))) (srcRow x))
/-- The destination numbers as a one-column table. -/
def dstCol (x : (⟨S2x800000, .i32⟩ : BufTy).Contents (Elt F)) : (⟨S800000x1, .i32⟩ : BufTy).Contents (Elt F) :=
  broadcastInDim S800000x1 ![0] bcast_S800000_S800000x1_0 (dstRow x)
/-- The rows of a node table at the edges' source nodes. -/
def gathered (xs : (⟨S50000x64, .bf16⟩ : BufTy).Contents (Elt F)) (x : (⟨S2x800000, .i32⟩ : BufTy).Contents (Elt F)) : (⟨S800000x64, .bf16⟩ : BufTy).Contents (Elt F) :=
  Host.gather gather_S50000x64_S800000x1_S800000x64_1_0_n_n_0_1_164 xs (srcCol x)
/-- A length-64 vector laid as a one-row table. -/
def rowTab (x : (⟨S64, .f32⟩ : BufTy).Contents (Elt F)) : (⟨S1x64, .f32⟩ : BufTy).Contents (Elt F) :=
  fun i => shapeCast S1x64 x shapeCasts_S64_S1x64 i
/-- A flat vector of 1,600,000 lengths laid as a one-column table. -/
def colTab (x : (⟨S1600000, .f32⟩ : BufTy).Contents (Elt F)) : (⟨S1600000x1, .f32⟩ : BufTy).Contents (Elt F) :=
  fun i => shapeCast S1600000x1 x shapeCasts_S1600000_S1600000x1 i
/-- The sum of message rows into their destination nodes, from zero. -/
def scattered (x : (⟨S2x800000, .i32⟩ : BufTy).Contents (Elt F)) (u : (⟨S800000x64, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (dstCol x) u

/-! ## The stretch before the filter region, in two parts -/

/-- Its first 22 operations: the two source columns and the two gathers. -/
abbrev opsA : List (HloOp τ sig (Elt F)) :=
  [ StableHlo.unary main_arg2 main_v2 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v3 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v3 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_v0 main_v9 main_v10 ((fun x i => Host.gather gather_S50000x64_S800000x1_S800000x64_1_0_n_n_0_1_164 x i) : (⟨S50000x64, .bf16⟩ : BufTy).Contents (Elt F) → (⟨S800000x1, .i32⟩ : BufTy).Contents (Elt F) → (⟨S800000x64, .bf16⟩ : BufTy).Contents (Elt F)),
    StableHlo.unary main_arg3 main_v11 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v11 main_v12 rfl shapeCasts_S1x800000_S800000,
    StableHlo.nullary main_c_1 (constantI S_ 32 0#32),
    StableHlo.unary main_c_1 main_v13 (broadcastInDim S800000 ![] bcast_S_S800000 : (⟨S_, .i32⟩ : BufTy).Contents (Elt F) → (⟨S800000, .i32⟩ : BufTy).Contents (Elt F)),
    StableHlo.binary main_v12 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v15 (broadcastInDim S800000 ![] bcast_S_S800000 : (⟨S_, .i32⟩ : BufTy).Contents (Elt F) → (⟨S800000, .i32⟩ : BufTy).Contents (Elt F)),
    StableHlo.binary main_v12 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_v12 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_v1 main_v18 main_v19 ((fun x i => Host.gather gather_S50000x64_S800000x1_S800000x64_1_0_n_n_0_1_164 x i) : (⟨S50000x64, .bf16⟩ : BufTy).Contents (Elt F) → (⟨S800000x1, .i32⟩ : BufTy).Contents (Elt F) → (⟨S800000x64, .bf16⟩ : BufTy).Contents (Elt F)) ]
/-- Its last 6 operations: the three concatenations and the three reshapes. -/
abbrev opsB : List (HloOp τ sig (Elt F)) :=
  [ StableHlo.binary main_arg6 main_arg7 main_v20 ((fun a b => concatenate S1600000x50 0 [⟨S800000x50, a⟩, ⟨S800000x50, b⟩] concatenates_S800000x50_S800000x50_S1600000x50_d0) : (⟨S800000x50, .f32⟩ : BufTy).Contents (Elt F) → (⟨S800000x50, .f32⟩ : BufTy).Contents (Elt F) → (⟨S1600000x50, .f32⟩ : BufTy).Contents (Elt F)),
    StableHlo.binary main_v10 main_v19 main_v21 ((fun a b => concatenate S1600000x64 0 [⟨S800000x64, a⟩, ⟨S800000x64, b⟩] concatenates_S800000x64_S800000x64_S1600000x64_d0) : (⟨S800000x64, .bf16⟩ : BufTy).Contents (Elt F) → (⟨S800000x64, .bf16⟩ : BufTy).Contents (Elt F) → (⟨S1600000x64, .bf16⟩ : BufTy).Contents (Elt F)),
    StableHlo.binary main_arg4 main_arg5 main_v22 ((fun a b => concatenate S1600000 0 [⟨S800000, a⟩, ⟨S800000, b⟩] concatenates_S800000_S800000_S1600000_d0) : (⟨S800000, .f32⟩ : BufTy).Contents (Elt F) → (⟨S800000, .f32⟩ : BufTy).Contents (Elt F) → (⟨S1600000, .f32⟩ : BufTy).Contents (Elt F)),
    StableHlo.reshape main_v22 main_v23 rfl shapeCasts_S1600000_S1600000x1,
    StableHlo.reshape main_arg9 main_v24 rfl shapeCasts_S64_S1x64,
    StableHlo.reshape main_arg11 main_v25 rfl shapeCasts_S64_S1x64 ]

theorem hostOps2_split : (hostOps2 : List (HloOp τ sig (Elt F))) = opsA ++ opsB := rfl

theorem after2 (W : Valuation τ sig (Elt F)) : StableHlo.after hostOps2 W = StableHlo.after opsB (StableHlo.after opsA W) := by
  rw [hostOps2_split, StableHlo.after_append]

variable (W : Valuation τ sig (Elt F))

theorem A_v10 : StableHlo.after opsA W (Proc.devRef .tc main_v10) = gathered (W (Proc.devRef .tc main_v0)) (W (Proc.devRef .tc main_arg2)) := by
  after_results_simp; rfl
theorem A_v19 : StableHlo.after opsA W (Proc.devRef .tc main_v19) = gathered (W (Proc.devRef .tc main_v1)) (W (Proc.devRef .tc main_arg3)) := by
  after_results_simp; rfl

theorem A_arg0 : StableHlo.after opsA W (Proc.devRef .tc main_arg0) = W (Proc.devRef .tc main_arg0) := by
  after_results_simp
theorem A_arg1 : StableHlo.after opsA W (Proc.devRef .tc main_arg1) = W (Proc.devRef .tc main_arg1) := by
  after_results_simp
theorem A_arg2 : StableHlo.after opsA W (Proc.devRef .tc main_arg2) = W (Proc.devRef .tc main_arg2) := by
  after_results_simp
theorem A_arg3 : StableHlo.after opsA W (Proc.devRef .tc main_arg3) = W (Proc.devRef .tc main_arg3) := by
  after_results_simp
theorem A_arg4 : StableHlo.after opsA W (Proc.devRef .tc main_arg4) = W (Proc.devRef .tc main_arg4) := by
  after_results_simp
theorem A_arg5 : StableHlo.after opsA W (Proc.devRef .tc main_arg5) = W (Proc.devRef .tc main_arg5) := by
  after_results_simp
theorem A_arg6 : StableHlo.after opsA W (Proc.devRef .tc main_arg6) = W (Proc.devRef .tc main_arg6) := by
  after_results_simp
theorem A_arg7 : StableHlo.after opsA W (Proc.devRef .tc main_arg7) = W (Proc.devRef .tc main_arg7) := by
  after_results_simp
theorem A_arg8 : StableHlo.after opsA W (Proc.devRef .tc main_arg8) = W (Proc.devRef .tc main_arg8) := by
  after_results_simp
theorem A_arg9 : StableHlo.after opsA W (Proc.devRef .tc main_arg9) = W (Proc.devRef .tc main_arg9) := by
  after_results_simp
theorem A_arg10 : StableHlo.after opsA W (Proc.devRef .tc main_arg10) = W (Proc.devRef .tc main_arg10) := by
  after_results_simp
theorem A_arg11 : StableHlo.after opsA W (Proc.devRef .tc main_arg11) = W (Proc.devRef .tc main_arg11) := by
  after_results_simp
theorem A_arg12 : StableHlo.after opsA W (Proc.devRef .tc main_arg12) = W (Proc.devRef .tc main_arg12) := by
  after_results_simp
theorem A_arg13 : StableHlo.after opsA W (Proc.devRef .tc main_arg13) = W (Proc.devRef .tc main_arg13) := by
  after_results_simp
theorem A_arg14 : StableHlo.after opsA W (Proc.devRef .tc main_arg14) = W (Proc.devRef .tc main_arg14) := by
  after_results_simp
theorem A_arg15 : StableHlo.after opsA W (Proc.devRef .tc main_arg15) = W (Proc.devRef .tc main_arg15) := by
  after_results_simp
theorem A_arg16 : StableHlo.after opsA W (Proc.devRef .tc main_arg16) = W (Proc.devRef .tc main_arg16) := by
  after_results_simp
theorem A_arg17 : StableHlo.after opsA W (Proc.devRef .tc main_arg17) = W (Proc.devRef .tc main_arg17) := by
  after_results_simp
theorem A_arg18 : StableHlo.after opsA W (Proc.devRef .tc main_arg18) = W (Proc.devRef .tc main_arg18) := by
  after_results_simp
theorem A_arg19 : StableHlo.after opsA W (Proc.devRef .tc main_arg19) = W (Proc.devRef .tc main_arg19) := by
  after_results_simp

theorem B_v20 : StableHlo.after opsB W (Proc.devRef .tc main_v20)
    = concatenate S1600000x50 0 [⟨S800000x50, W (Proc.devRef .tc main_arg6)⟩, ⟨S800000x50, W (Proc.devRef .tc main_arg7)⟩] concatenates_S800000x50_S800000x50_S1600000x50_d0 := by
  after_results <;> rfl
theorem B_v21 : StableHlo.after opsB W (Proc.devRef .tc main_v21)
    = concatenate S1600000x64 0 [⟨S800000x64, W (Proc.devRef .tc main_v10)⟩, ⟨S800000x64, W (Proc.devRef .tc main_v19)⟩] concatenates_S800000x64_S800000x64_S1600000x64_d0 := by
  after_results <;> rfl
theorem B_v23 : StableHlo.after opsB W (Proc.devRef .tc main_v23)
    = colTab (concatenate S1600000 0 [⟨S800000, W (Proc.devRef .tc main_arg4)⟩, ⟨S800000, W (Proc.devRef .tc main_arg5)⟩] concatenates_S800000_S800000_S1600000_d0) := by
  after_results <;> rfl
theorem B_v24 : StableHlo.after opsB W (Proc.devRef .tc main_v24) = rowTab (W (Proc.devRef .tc main_arg9)) := by
  after_results <;> rfl
theorem B_v25 : StableHlo.after opsB W (Proc.devRef .tc main_v25) = rowTab (W (Proc.devRef .tc main_arg11)) := by
  after_results <;> rfl

theorem B_arg0 : StableHlo.after opsB W (Proc.devRef .tc main_arg0) = W (Proc.devRef .tc main_arg0) := by
  after_results_simp
theorem B_arg1 : StableHlo.after opsB W (Proc.devRef .tc main_arg1) = W (Proc.devRef .tc main_arg1) := by
  after_results_simp
theorem B_arg2 : StableHlo.after opsB W (Proc.devRef .tc main_arg2) = W (Proc.devRef .tc main_arg2) := by
  after_results_simp
theorem B_arg3 : StableHlo.after opsB W (Proc.devRef .tc main_arg3) = W (Proc.devRef .tc main_arg3) := by
  after_results_simp
theorem B_arg4 : StableHlo.after opsB W (Proc.devRef .tc main_arg4) = W (Proc.devRef .tc main_arg4) := by
  after_results_simp
theorem B_arg5 : StableHlo.after opsB W (Proc.devRef .tc main_arg5) = W (Proc.devRef .tc main_arg5) := by
  after_results_simp
theorem B_arg6 : StableHlo.after opsB W (Proc.devRef .tc main_arg6) = W (Proc.devRef .tc main_arg6) := by
  after_results_simp
theorem B_arg7 : StableHlo.after opsB W (Proc.devRef .tc main_arg7) = W (Proc.devRef .tc main_arg7) := by
  after_results_simp
theorem B_arg8 : StableHlo.after opsB W (Proc.devRef .tc main_arg8) = W (Proc.devRef .tc main_arg8) := by
  after_results_simp
theorem B_arg9 : StableHlo.after opsB W (Proc.devRef .tc main_arg9) = W (Proc.devRef .tc main_arg9) := by
  after_results_simp
theorem B_arg10 : StableHlo.after opsB W (Proc.devRef .tc main_arg10) = W (Proc.devRef .tc main_arg10) := by
  after_results_simp
theorem B_arg11 : StableHlo.after opsB W (Proc.devRef .tc main_arg11) = W (Proc.devRef .tc main_arg11) := by
  after_results_simp
theorem B_arg12 : StableHlo.after opsB W (Proc.devRef .tc main_arg12) = W (Proc.devRef .tc main_arg12) := by
  after_results_simp
theorem B_arg13 : StableHlo.after opsB W (Proc.devRef .tc main_arg13) = W (Proc.devRef .tc main_arg13) := by
  after_results_simp
theorem B_arg14 : StableHlo.after opsB W (Proc.devRef .tc main_arg14) = W (Proc.devRef .tc main_arg14) := by
  after_results_simp
theorem B_arg15 : StableHlo.after opsB W (Proc.devRef .tc main_arg15) = W (Proc.devRef .tc main_arg15) := by
  after_results_simp
theorem B_arg16 : StableHlo.after opsB W (Proc.devRef .tc main_arg16) = W (Proc.devRef .tc main_arg16) := by
  after_results_simp
theorem B_arg17 : StableHlo.after opsB W (Proc.devRef .tc main_arg17) = W (Proc.devRef .tc main_arg17) := by
  after_results_simp
theorem B_arg18 : StableHlo.after opsB W (Proc.devRef .tc main_arg18) = W (Proc.devRef .tc main_arg18) := by
  after_results_simp
theorem B_arg19 : StableHlo.after opsB W (Proc.devRef .tc main_arg19) = W (Proc.devRef .tc main_arg19) := by
  after_results_simp

/-! ## The stretch between the filter region and the first node region -/

theorem H3_v33 : StableHlo.after hostOps3 W (Proc.devRef .tc main_v33)
    = scattered (W (Proc.devRef .tc main_arg2)) (extractStridedSlice S800000x64 ![0, 0] (W (Proc.devRef .tc main_v26)) slices_S1600000x64_S800000x64_0_0) := by
  after_results_simp; rfl
theorem H3_v38 : StableHlo.after hostOps3 W (Proc.devRef .tc main_v38)
    = scattered (W (Proc.devRef .tc main_arg3)) (extractStridedSlice S800000x64 ![800000, 0] (W (Proc.devRef .tc main_v26)) slices_S1600000x64_S800000x64_800000_0) := by
  after_results_simp; rfl
theorem H3_v39 : StableHlo.after hostOps3 W (Proc.devRef .tc main_v39) = rowTab (W (Proc.devRef .tc main_arg19)) := by
  after_results_simp; rfl
theorem H3_v40 : StableHlo.after hostOps3 W (Proc.devRef .tc main_v40) = rowTab (W (Proc.devRef .tc main_arg14)) := by
  after_results_simp; rfl

theorem H3_arg0 : StableHlo.after hostOps3 W (Proc.devRef .tc main_arg0) = W (Proc.devRef .tc main_arg0) := by
  after_results_simp
theorem H3_arg1 : StableHlo.after hostOps3 W (Proc.devRef .tc main_arg1) = W (Proc.devRef .tc main_arg1) := by
  after_results_simp
theorem H3_arg2 : StableHlo.after hostOps3 W (Proc.devRef .tc main_arg2) = W (Proc.devRef .tc main_arg2) := by
  after_results_simp
theorem H3_arg3 : StableHlo.after hostOps3 W (Proc.devRef .tc main_arg3) = W (Proc.devRef .tc main_arg3) := by
  after_results_simp
theorem H3_arg4 : StableHlo.after hostOps3 W (Proc.devRef .tc main_arg4) = W (Proc.devRef .tc main_arg4) := by
  after_results_simp
theorem H3_arg5 : StableHlo.after hostOps3 W (Proc.devRef .tc main_arg5) = W (Proc.devRef .tc main_arg5) := by
  after_results_simp
theorem H3_arg6 : StableHlo.after hostOps3 W (Proc.devRef .tc main_arg6) = W (Proc.devRef .tc main_arg6) := by
  after_results_simp
theorem H3_arg7 : StableHlo.after hostOps3 W (Proc.devRef .tc main_arg7) = W (Proc.devRef .tc main_arg7) := by
  after_results_simp
theorem H3_arg8 : StableHlo.after hostOps3 W (Proc.devRef .tc main_arg8) = W (Proc.devRef .tc main_arg8) := by
  after_results_simp
theorem H3_arg9 : StableHlo.after hostOps3 W (Proc.devRef .tc main_arg9) = W (Proc.devRef .tc main_arg9) := by
  after_results_simp
theorem H3_arg10 : StableHlo.after hostOps3 W (Proc.devRef .tc main_arg10) = W (Proc.devRef .tc main_arg10) := by
  after_results_simp
theorem H3_arg11 : StableHlo.after hostOps3 W (Proc.devRef .tc main_arg11) = W (Proc.devRef .tc main_arg11) := by
  after_results_simp
theorem H3_arg12 : StableHlo.after hostOps3 W (Proc.devRef .tc main_arg12) = W (Proc.devRef .tc main_arg12) := by
  after_results_simp
theorem H3_arg13 : StableHlo.after hostOps3 W (Proc.devRef .tc main_arg13) = W (Proc.devRef .tc main_arg13) := by
  after_results_simp
theorem H3_arg14 : StableHlo.after hostOps3 W (Proc.devRef .tc main_arg14) = W (Proc.devRef .tc main_arg14) := by
  after_results_simp
theorem H3_arg15 : StableHlo.after hostOps3 W (Proc.devRef .tc main_arg15) = W (Proc.devRef .tc main_arg15) := by
  after_results_simp
theorem H3_arg16 : StableHlo.after hostOps3 W (Proc.devRef .tc main_arg16) = W (Proc.devRef .tc main_arg16) := by
  after_results_simp
theorem H3_arg17 : StableHlo.after hostOps3 W (Proc.devRef .tc main_arg17) = W (Proc.devRef .tc main_arg17) := by
  after_results_simp
theorem H3_arg18 : StableHlo.after hostOps3 W (Proc.devRef .tc main_arg18) = W (Proc.devRef .tc main_arg18) := by
  after_results_simp
theorem H3_arg19 : StableHlo.after hostOps3 W (Proc.devRef .tc main_arg19) = W (Proc.devRef .tc main_arg19) := by
  after_results_simp

/-! ## The one reshape between the two node regions -/

theorem H4_v42 : StableHlo.after hostOps4 W (Proc.devRef .tc main_v42) = rowTab (W (Proc.devRef .tc main_arg17)) := by
  after_results_simp; rfl
theorem H4_v38 : StableHlo.after hostOps4 W (Proc.devRef .tc main_v38) = W (Proc.devRef .tc main_v38) := by
  after_results_simp
theorem H4_v39 : StableHlo.after hostOps4 W (Proc.devRef .tc main_v39) = W (Proc.devRef .tc main_v39) := by
  after_results_simp
theorem H4_v41 : StableHlo.after hostOps4 W (Proc.devRef .tc main_v41) = W (Proc.devRef .tc main_v41) := by
  after_results_simp
theorem H4_arg0 : StableHlo.after hostOps4 W (Proc.devRef .tc main_arg0) = W (Proc.devRef .tc main_arg0) := by
  after_results_simp
theorem H4_arg1 : StableHlo.after hostOps4 W (Proc.devRef .tc main_arg1) = W (Proc.devRef .tc main_arg1) := by
  after_results_simp
theorem H4_arg2 : StableHlo.after hostOps4 W (Proc.devRef .tc main_arg2) = W (Proc.devRef .tc main_arg2) := by
  after_results_simp
theorem H4_arg3 : StableHlo.after hostOps4 W (Proc.devRef .tc main_arg3) = W (Proc.devRef .tc main_arg3) := by
  after_results_simp
theorem H4_arg4 : StableHlo.after hostOps4 W (Proc.devRef .tc main_arg4) = W (Proc.devRef .tc main_arg4) := by
  after_results_simp
theorem H4_arg5 : StableHlo.after hostOps4 W (Proc.devRef .tc main_arg5) = W (Proc.devRef .tc main_arg5) := by
  after_results_simp
theorem H4_arg6 : StableHlo.after hostOps4 W (Proc.devRef .tc main_arg6) = W (Proc.devRef .tc main_arg6) := by
  after_results_simp
theorem H4_arg7 : StableHlo.after hostOps4 W (Proc.devRef .tc main_arg7) = W (Proc.devRef .tc main_arg7) := by
  after_results_simp
theorem H4_arg8 : StableHlo.after hostOps4 W (Proc.devRef .tc main_arg8) = W (Proc.devRef .tc main_arg8) := by
  after_results_simp
theorem H4_arg9 : StableHlo.after hostOps4 W (Proc.devRef .tc main_arg9) = W (Proc.devRef .tc main_arg9) := by
  after_results_simp
theorem H4_arg10 : StableHlo.after hostOps4 W (Proc.devRef .tc main_arg10) = W (Proc.devRef .tc main_arg10) := by
  after_results_simp
theorem H4_arg11 : StableHlo.after hostOps4 W (Proc.devRef .tc main_arg11) = W (Proc.devRef .tc main_arg11) := by
  after_results_simp
theorem H4_arg12 : StableHlo.after hostOps4 W (Proc.devRef .tc main_arg12) = W (Proc.devRef .tc main_arg12) := by
  after_results_simp
theorem H4_arg13 : StableHlo.after hostOps4 W (Proc.devRef .tc main_arg13) = W (Proc.devRef .tc main_arg13) := by
  after_results_simp
theorem H4_arg14 : StableHlo.after hostOps4 W (Proc.devRef .tc main_arg14) = W (Proc.devRef .tc main_arg14) := by
  after_results_simp
theorem H4_arg15 : StableHlo.after hostOps4 W (Proc.devRef .tc main_arg15) = W (Proc.devRef .tc main_arg15) := by
  after_results_simp
theorem H4_arg16 : StableHlo.after hostOps4 W (Proc.devRef .tc main_arg16) = W (Proc.devRef .tc main_arg16) := by
  after_results_simp
theorem H4_arg17 : StableHlo.after hostOps4 W (Proc.devRef .tc main_arg17) = W (Proc.devRef .tc main_arg17) := by
  after_results_simp
theorem H4_arg18 : StableHlo.after hostOps4 W (Proc.devRef .tc main_arg18) = W (Proc.devRef .tc main_arg18) := by
  after_results_simp
theorem H4_arg19 : StableHlo.after hostOps4 W (Proc.devRef .tc main_arg19) = W (Proc.devRef .tc main_arg19) := by
  after_results_simp

end Cert.KernelIdeal.KHost

end
-- ==== Proof.Spec.lean ====
/-
  The interaction block of a continuous-filter convolution, as plain functions on the extended reals.

  One edge type of the block: node features `x` go through a linear map (`lin`); for every edge the source node's
  row is multiplied, feature by feature, by a filter computed from the edge's radial-basis attributes by a two-layer
  perceptron with a shifted-softplus in between (`filt`) and by a cosine cutoff of the edge's length (`cut`): the
  message `msg`; messages are summed into their destination nodes; each node's sum goes through a linear map, the
  shifted softplus and a second linear map (`post`).

  Everything here is stated row by row, over `Fin`-indexed families, with the float literals kept as the words the
  programs print. The arrays of a program enter through `rowOf` / `matOf` / `vecOf`.
-/
import Idealize.ShloMosaic.PureOps.Ideal.Laws
import Idealize.ShloMosaic.Lib.ValueIdx

noncomputable section

open scoped BigOperators

namespace Cert.CFConv

open Idealize.ShloMosaic Idealize.ShloMosaic.ValueIdx

/-- The word of `0.0`. -/
def wZero : EReal := Ideal.ofBits .f32 0x00000000#32
/-- The word of `log 2` rounded to f32. -/
def wLog2 : EReal := Ideal.ofBits .f32 0x3F317218#32
/-- The word of `π / 10` rounded to f32. -/
def wPi10 : EReal := Ideal.ofBits .f32 0x3EA0D97C#32
/-- The word of `1.0`. -/
def wOne : EReal := Ideal.ofBits .f32 0x3F800000#32
/-- The word of `0.5`. -/
def wHalf : EReal := Ideal.ofBits .f32 0x3F000000#32

/-- The shifted softplus `log (1 + eˣ) - log 2`, in the stable form `max x 0 + log1p (exp (0 - |x - 0|)) - log 2`
    (`|y|` is `max y (-y)`). -/
def ssp (x : EReal) : EReal :=
  (max x wZero + Ideal.log1p (Ideal.exp (wZero - max (x - wZero) (-(x - wZero))))) - wLog2

/-- The cosine cutoff `½ (cos (d · π/10) + 1)` of an edge of length `d`. -/
def cut (d : EReal) : EReal := wHalf * (Ideal.cos (d * wPi10) + wOne)

/-- A row `xr` through the linear map `w` (no bias): entry `f` is `∑ k, xr k * w k f`. -/
def lin {K N : Nat} (xr : Fin K → EReal) (w : Fin K → Fin N → EReal) (f : Fin N) : EReal :=
  ∑ k : Fin K, xr k * w k f

/-- A row through a linear map with bias. -/
def aff {K N : Nat} (xr : Fin K → EReal) (w : Fin K → Fin N → EReal) (b : Fin N → EReal) (f : Fin N) : EReal :=
  lin xr w f + b f

/-- The filter of an edge with attributes `ear`: `ssp (ear · W₁ + b₁) · W₂ + b₂`. -/
def filt (ear : Fin 50 → EReal) (w1 : Fin 50 → Fin 64 → EReal) (b1 : Fin 64 → EReal)
    (w2 : Fin 64 → Fin 64 → EReal) (b2 : Fin 64 → EReal) (f : Fin 64) : EReal :=
  aff (fun j => ssp (aff ear w1 b1 j)) w2 b2 f

/-- The message of an edge: the source row `xs`, times the filter, times the cutoff of its length `d`, associated
    as `(xs · filter) · cutoff`. -/
def msg (xs : Fin 64 → EReal) (ear : Fin 50 → EReal) (d : EReal) (w1 : Fin 50 → Fin 64 → EReal) (b1 : Fin 64 → EReal)
    (w2 : Fin 64 → Fin 64 → EReal) (b2 : Fin 64 → EReal) (f : Fin 64) : EReal :=
  (xs f * filt ear w1 b1 w2 b2 f) * cut d

/-- The same message associated as `xs · (filter · cutoff)`. -/
theorem msg_assoc (xs : Fin 64 → EReal) (ear : Fin 50 → EReal) (d : EReal) (w1 : Fin 50 → Fin 64 → EReal)
    (b1 : Fin 64 → EReal) (w2 : Fin 64 → Fin 64 → EReal) (b2 : Fin 64 → EReal) (f : Fin 64) :
    xs f * (filt ear w1 b1 w2 b2 f * cut d) = msg xs ear d w1 b1 w2 b2 f := by
  unfold msg; rw [mul_assoc]

/-- A node's aggregated row `ar` through `ssp (ar · W + b) · W' + b'`. -/
def post (ar : Fin 64 → EReal) (w : Fin 64 → Fin 64 → EReal) (b : Fin 64 → EReal)
    (w' : Fin 64 → Fin 64 → EReal) (b' : Fin 64 → EReal) (f : Fin 64) : EReal :=
  aff (fun j => ssp (aff ar w b j)) w' b' f

/-! ## Arrays as rows -/

/-- Row `r` of a two-axis array. -/
def rowOf {R C : Nat} (A : (⟨2, ![R, C]⟩ : Shape).Idx → EReal) (r : Fin R) : Fin C → EReal := fun k => A (ix2 r k)
/-- A two-axis array as a family over its two coordinates. -/
def matOf {R C : Nat} (A : (⟨2, ![R, C]⟩ : Shape).Idx → EReal) : Fin R → Fin C → EReal := fun a b => A (ix2 a b)
/-- A one-axis array as a family. -/
def vecOf {C : Nat} (A : (⟨1, ![C]⟩ : Shape).Idx → EReal) : Fin C → EReal := fun k => A (ix1 k)
/-- A one-row table [1, C] as a family. -/
def row0Of {C : Nat} (A : (⟨2, ![1, C]⟩ : Shape).Idx → EReal) : Fin C → EReal := fun k => A (ix2 0 k)

/-- The whole array of `lin`: `x · w` for an [R, 64] array of rows. -/
def linArr {R : Nat} (X : (⟨2, ![R, 64]⟩ : Shape).Idx → EReal) (W : (⟨2, ![64, 64]⟩ : Shape).Idx → EReal) :
    (⟨2, ![R, 64]⟩ : Shape).Idx → EReal :=
  fun i => lin (rowOf X (i 0)) (matOf W) (i 1)

/-- The whole array of messages of `R` edges: row `e` from row `e` of the gathered sources `XS`, of the attributes
    `EA` and of the one-column table of lengths `D`; the biases as one-row tables. -/
def msgArr {R : Nat} (EA : (⟨2, ![R, 50]⟩ : Shape).Idx → EReal) (XS : (⟨2, ![R, 64]⟩ : Shape).Idx → EReal)
    (D : (⟨2, ![R, 1]⟩ : Shape).Idx → EReal) (W1 : (⟨2, ![50, 64]⟩ : Shape).Idx → EReal)
    (B1 : (⟨2, ![1, 64]⟩ : Shape).Idx → EReal) (W2 : (⟨2, ![64, 64]⟩ : Shape).Idx → EReal)
    (B2 : (⟨2, ![1, 64]⟩ : Shape).Idx → EReal) : (⟨2, ![R, 64]⟩ : Shape).Idx → EReal :=
  fun i => msg (rowOf XS (i 0)) (rowOf EA (i 0)) (D (ix2 (i 0) 0)) (matOf W1) (row0Of B1) (matOf W2) (row0Of B2) (i 1)

/-- The whole array of `post` for an [R, 64] array of aggregated rows; the biases as one-row tables. -/
def postArr {R : Nat} (A : (⟨2, ![R, 64]⟩ : Shape).Idx → EReal) (W : (⟨2, ![64, 64]⟩ : Shape).Idx → EReal)
    (B : (⟨2, ![1, 64]⟩ : Shape).Idx → EReal) (W' : (⟨2, ![64, 64]⟩ : Shape).Idx → EReal)
    (B' : (⟨2, ![1, 64]⟩ : Shape).Idx → EReal) : (⟨2, ![R, 64]⟩ : Shape).Idx → EReal :=
  fun i => post (rowOf A (i 0)) (matOf W) (row0Of B) (matOf W') (row0Of B') (i 1)

end Cert.CFConv

end
-- ==== Proof.KClosed.lean ====
/-
  The kernel's two results as closed functions of the argument arrays.

  Both edge types' edge arrays are laid one after the other; the filter region's whole-array function `msgArr` runs over
  the 1,600,000 concatenated edges, the gathered sources being rows of the two linear maps' outputs `linArr`; each
  half of the messages is summed into its destination nodes and goes through the node map `postArr`.
-/
import proofs.«116981_j2877628088816_2_alg».proof.Proof.KHost
import proofs.«116981_j2877628088816_2_alg».proof.Proof.Spec

noncomputable section

namespace Cert.KernelIdeal.KClosed

open Cert.KernelIdeal Cert.KernelIdeal.KHost Cert.CFConv
open Idealize.ShloMosaic Idealize.ShloMosaic.TcCoe
open Cert.KernelIdeal.Facts₀ Cert.KernelIdeal.Facts

/-! ## Equal arrays give equal whole-array functions -/

theorem msgArr_congr {R : Nat} {x0 y0 : (⟨2, ![R, 50]⟩ : Shape).Idx → EReal} {x1 y1 : (⟨2, ![R, 64]⟩ : Shape).Idx → EReal} {x2 y2 : (⟨2, ![R, 1]⟩ : Shape).Idx → EReal}
    {x3 y3 : (⟨2, ![50, 64]⟩ : Shape).Idx → EReal} {x4 y4 : (⟨2, ![1, 64]⟩ : Shape).Idx → EReal} {x5 y5 : (⟨2, ![64, 64]⟩ : Shape).Idx → EReal} {x6 y6 : (⟨2, ![1, 64]⟩ : Shape).Idx → EReal}
    (e0 : x0 = y0) (e1 : x1 = y1) (e2 : x2 = y2) (e3 : x3 = y3) (e4 : x4 = y4) (e5 : x5 = y5) (e6 : x6 = y6) :
    msgArr x0 x1 x2 x3 x4 x5 x6 = msgArr y0 y1 y2 y3 y4 y5 y6 := by rw [e0, e1, e2, e3, e4, e5, e6]

theorem postArr_congr {R : Nat} {x0 y0 : (⟨2, ![R, 64]⟩ : Shape).Idx → EReal} {x1 y1 : (⟨2, ![64, 64]⟩ : Shape).Idx → EReal} {x2 y2 : (⟨2, ![1, 64]⟩ : Shape).Idx → EReal}
    {x3 y3 : (⟨2, ![64, 64]⟩ : Shape).Idx → EReal} {x4 y4 : (⟨2, ![1, 64]⟩ : Shape).Idx → EReal}
    (e0 : x0 = y0) (e1 : x1 = y1) (e2 : x2 = y2) (e3 : x3 = y3) (e4 : x4 = y4) :
    postArr x0 x1 x2 x3 x4 = postArr y0 y1 y2 y3 y4 := by rw [e0, e1, e2, e3, e4]

theorem linArr_congr {R : Nat} {x0 y0 : (⟨2, ![R, 64]⟩ : Shape).Idx → EReal} {x1 y1 : (⟨2, ![64, 64]⟩ : Shape).Idx → EReal} (e0 : x0 = y0) (e1 : x1 = y1) :
    linArr x0 x1 = linArr y0 y1 := by rw [e0, e1]

/-! ## The closed forms -/

/-- The messages of both edge types, one after the other. -/
abbrev msgCat (a0 a1 : (⟨S50000x64, .f32⟩ : BufTy).Contents (Elt Ideal)) (a2 a3 : (⟨S2x800000, .i32⟩ : BufTy).Contents (Elt Ideal)) (a4 a5 : (⟨S800000, .f32⟩ : BufTy).Contents (Elt Ideal))
    (a6 a7 : (⟨S800000x50, .f32⟩ : BufTy).Contents (Elt Ideal)) (a8 : (⟨S50x64, .f32⟩ : BufTy).Contents (Elt Ideal)) (a9 : (⟨S64, .f32⟩ : BufTy).Contents (Elt Ideal))
    (a10 : (⟨S64x64, .f32⟩ : BufTy).Contents (Elt Ideal)) (a11 : (⟨S64, .f32⟩ : BufTy).Contents (Elt Ideal)) (a12 a15 : (⟨S64x64, .f32⟩ : BufTy).Contents (Elt Ideal)) :
    (⟨S1600000x64, .f32⟩ : BufTy).Contents (Elt Ideal) :=
  msgArr (concatenate S1600000x50 0 [⟨S800000x50, a6⟩, ⟨S800000x50, a7⟩] concatenates_S800000x50_S800000x50_S1600000x50_d0)
    (concatenate S1600000x64 0 [⟨S800000x64, gathered (F := Ideal) (linArr a0 a12) a2⟩, ⟨S800000x64, gathered (F := Ideal) (linArr a1 a15) a3⟩]
      concatenates_S800000x64_S800000x64_S1600000x64_d0)
    (colTab (F := Ideal) (concatenate S1600000 0 [⟨S800000, a4⟩, ⟨S800000, a5⟩] concatenates_S800000_S800000_S1600000_d0))
    a8 (rowTab (F := Ideal) a9) a10 (rowTab (F := Ideal) a11)

/-- Edge type 0's result: its half of the messages summed into nodes, through the node map. -/
abbrev out0K (a0 a1 : (⟨S50000x64, .f32⟩ : BufTy).Contents (Elt Ideal)) (a2 a3 : (⟨S2x800000, .i32⟩ : BufTy).Contents (Elt Ideal)) (a4 a5 : (⟨S800000, .f32⟩ : BufTy).Contents (Elt Ideal))
    (a6 a7 : (⟨S800000x50, .f32⟩ : BufTy).Contents (Elt Ideal)) (a8 : (⟨S50x64, .f32⟩ : BufTy).Contents (Elt Ideal)) (a9 : (⟨S64, .f32⟩ : BufTy).Contents (Elt Ideal))
    (a10 : (⟨S64x64, .f32⟩ : BufTy).Contents (Elt Ideal)) (a11 : (⟨S64, .f32⟩ : BufTy).Contents (Elt Ideal)) (a12 a15 : (⟨S64x64, .f32⟩ : BufTy).Contents (Elt Ideal))
    (a13 : (⟨S64x64, .f32⟩ : BufTy).Contents (Elt Ideal)) (a14 : (⟨S64, .f32⟩ : BufTy).Contents (Elt Ideal)) (a18 : (⟨S64x64, .f32⟩ : BufTy).Contents (Elt Ideal)) (a19 : (⟨S64, .f32⟩ : BufTy).Contents (Elt Ideal)) :
    (⟨S50000x64, .f32⟩ : BufTy).Contents (Elt Ideal) :=
  postArr (scattered (F := Ideal) a2 (extractStridedSlice S800000x64 ![0, 0] (msgCat a0 a1 a2 a3 a4 a5 a6 a7 a8 a9 a10 a11 a12 a15) slices_S1600000x64_S800000x64_0_0))
    a13 (rowTab (F := Ideal) a14) a18 (rowTab (F := Ideal) a19)

/-- Edge type 1's result. -/
abbrev out1K (a0 a1 : (⟨S50000x64, .f32⟩ : BufTy).Contents (Elt Ideal)) (a2 a3 : (⟨S2x800000, .i32⟩ : BufTy).Contents (Elt Ideal)) (a4 a5 : (⟨S800000, .f32⟩ : BufTy).Contents (Elt Ideal))
    (a6 a7 : (⟨S800000x50, .f32⟩ : BufTy).Contents (Elt Ideal)) (a8 : (⟨S50x64, .f32⟩ : BufTy).Contents (Elt Ideal)) (a9 : (⟨S64, .f32⟩ : BufTy).Contents (Elt Ideal))
    (a10 : (⟨S64x64, .f32⟩ : BufTy).Contents (Elt Ideal)) (a11 : (⟨S64, .f32⟩ : BufTy).Contents (Elt Ideal)) (a12 a15 : (⟨S64x64, .f32⟩ : BufTy).Contents (Elt Ideal))
    (a16 : (⟨S64x64, .f32⟩ : BufTy).Contents (Elt Ideal)) (a17 : (⟨S64, .f32⟩ : BufTy).Contents (Elt Ideal)) (a18 : (⟨S64x64, .f32⟩ : BufTy).Contents (Elt Ideal)) (a19 : (⟨S64, .f32⟩ : BufTy).Contents (Elt Ideal)) :
    (⟨S50000x64, .f32⟩ : BufTy).Contents (Elt Ideal) :=
  postArr (scattered (F := Ideal) a3 (extractStridedSlice S800000x64 ![800000, 0] (msgCat a0 a1 a2 a3 a4 a5 a6 a7 a8 a9 a10 a11 a12 a15) slices_S1600000x64_S800000x64_800000_0))
    a16 (rowTab (F := Ideal) a17) a18 (rowTab (F := Ideal) a19)

end Cert.KernelIdeal.KClosed

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.KLinPay.lean ====
/-
  The linear map's tile at an index.

  One grid point of the linear map reads a tile of 5000 rows of the node features and the whole 64 × 64 weight, and
  stores the tile's product with the weight. At the extended reals a change of float format is the identity and the
  product into the zero accumulator is the plain finite sum, so entry (p, q) of what is stored is row p of the tile
  through the linear map, read at feature q.
-/
import proofs.«116981_j2877628088816_2_alg».proof.Proof.Gen.KernelIdeal.Skeleton
import proofs.«116981_j2877628088816_2_alg».proof.Proof.Spec
import proofs.«116981_j2877628088816_2_alg».proof.Proof.LibTileMatmul

noncomputable section

open scoped BigOperators

namespace Cert.KernelIdeal.KVal

open Cert.KernelIdeal Cert.KernelIdeal.Gen Idealize.ShloMosaic Idealize.ShloMosaic.ValueIdx

/-- Entry (p, q) of the first edge type's stored tile: row `p` of the tile `x0` through the weight `x1`. -/
theorem lin0_tile (x0 : Vec Ideal S5000x64 .f32) (x1 : Vec Ideal S64x64 .f32) (p : Fin 5000) (q : Fin 64) :
    (k0_pay1 (F := Ideal) x0 x1 (ix2 p q) : EReal)
      = Cert.CFConv.lin (fun k => x0 (ix2 p k)) (fun k f => x1 (ix2 k f)) q := by
  unfold k0_pay1
  exact TileMatmul.matmul_zero_apply _ none _ _ p q

/-- Entry (p, q) of the second edge type's stored tile: the same map. -/
theorem lin1_tile (x0 : Vec Ideal S5000x64 .f32) (x1 : Vec Ideal S64x64 .f32) (p : Fin 5000) (q : Fin 64) :
    (k1_pay1 (F := Ideal) x0 x1 (ix2 p q) : EReal)
      = Cert.CFConv.lin (fun k => x0 (ix2 p k)) (fun k f => x1 (ix2 k f)) q := by
  unfold k1_pay1
  exact TileMatmul.matmul_zero_apply _ none _ _ p q

end Cert.KernelIdeal.KVal

end
-- ==== Proof.KLinArr.lean ====
/-
  The linear map's output array.

  The region sweeps ten grid points; point t reads rows 5000 t … 5000 t + 4999 of the node features and the whole
  weight, and writes back a tile to the same rows of the output. What it writes back is that row block of the linear
  map of the WHOLE array of node features (a row of the product depends only on the same row of the features), and the
  ten row blocks cover the output. So after the region the output array is the linear map of the array of node
  features, for any contents of the region's buffers at entry.
-/
import proofs.«116981_j2877628088816_2_alg».proof.Proof.Gen.KernelIdeal.Frame
import proofs.«116981_j2877628088816_2_alg».proof.Proof.KLinPay
import Idealize.ShloMosaic.Lib.Pipeline.Value

set_option maxRecDepth 16384

noncomputable section

open scoped BigOperators

namespace Cert.KernelIdeal.KVal

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The origin of a two-axis buffer, as the constant function. -/
theorem origin2 : (![0, 0] : Fin 2 → Nat) = fun _ => 0 := funext fun a => by fin_cases a <;> rfl

/-! ## The first edge type's linear map -/

/-- What the body leaves in the output's staging buffer is the stored tile of its two loaded blocks: one store through
    the whole buffer, of the payload of two loads through whole buffers. -/
theorem out0_eq (x0 : Vec Ideal S5000x64 .f32) (x1 : Vec Ideal S64x64 .f32) :
    out0_2 (F := Ideal) x0 x1 = k0_pay1 x0 x1 := by
  unfold out0_2
  rw [View.canon_unit_zero origin2]
  simp only [View.ld_unit_zero (S := S5000x64) origin2, View.ld_unit_zero (S := S64x64) origin2]

/-- The printed index maps, decided over the ten grid points: at point `t` the node features' and the output's block
    is row block `t`, column block 0; the weight's block is always block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the node features' tile at point `t` is entry (5000 t + p, k) of the array. -/
theorem x_tile0 (c : Dev nD) (t : Fin cfg0.N) (p : Fin 5000) (k : Fin 64) (r : Fin 50000)
    (hr : r.val = 5000 * t.val + p.val) :
    (iblk0 V c 0 t : Vec Ideal S5000x64 .f32) (ix2 p k)
      = (V c (Pipeline.arrRef spec0 0) : S50000x64.Idx → EReal) (ix2 r k) := by
  obtain ⟨e0, e1, -⟩ := idx0 t
  unfold iblk0
  rw [View.read_apply]
  show V c (Pipeline.arrRef spec0 0) _ = V c (Pipeline.arrRef spec0 0) _
  congr 1
  funext a; apply Fin.ext
  match a with
  | ⟨0, _⟩ => show win0_0.index t 0 * 5000 + 1 * p.val = r.val; rw [e0, hr]; omega
  | ⟨1, _⟩ => show win0_0.index t 1 * 64 + 1 * k.val = k.val; rw [e1]; omega

/-- The weight's tile at every point is the whole weight. -/
theorem w_tile0 (c : Dev nD) (t : Fin cfg0.N) (k f : Fin 64) :
    (iblk0 V c 1 t : Vec Ideal S64x64 .f32) (ix2 k f)
      = (V c (Pipeline.arrRef spec0 1) : S64x64.Idx → EReal) (ix2 k f) := by
  obtain ⟨-, -, e2, e3, -⟩ := idx0 t
  unfold iblk0
  rw [View.read_apply]
  show V c (Pipeline.arrRef spec0 1) _ = V c (Pipeline.arrRef spec0 1) _
  congr 1
  funext a; apply Fin.ext
  match a with
  | ⟨0, _⟩ => show win0_1.index t 0 * 64 + 1 * k.val = k.val; rw [e2]; omega
  | ⟨1, _⟩ => show win0_1.index t 1 * 64 + 1 * f.val = f.val; rw [e3]; omega

/-- WHAT POINT `t` WRITES BACK is row block `t` of the linear map of the whole array of node features: entry (p, q)
    of the stored tile is row `p` of the tile — row 5000 t + p of the array — through the weight, and the block's
    entry (p, q) sits in the array at (5000 t + p, q). -/
theorem flushed0 (c : Dev nD) (t : Fin cfg0.N) :
    (dat0 (F := Ideal) V c).flushed 2 t
      = ((cfg0.win 2).blk t).view.read (Elt Ideal)
          (Cert.CFConv.linArr (R := 50000) (V c (Pipeline.arrRef spec0 0)) (V c (Pipeline.arrRef spec0 1))) := by
  show (cfg0.win 2).cut (grid0.coords t) ((dat0 V c).after 2 t) = _
  rw [after0_2, out0_eq]
  obtain ⟨-, -, -, -, e4, e5⟩ := idx0 t
  refine funext fun (j : S5000x64.Idx) => ?_
  obtain ⟨p, q, rfl⟩ : ∃ (p : Fin 5000) (q : Fin 64), j = ix2 p q := ⟨j 0, j 1, eq_ix2 j⟩
  have hN : t.val < 10 := by have h := t.isLt; have e : cfg0.N = 10 := N_0; omega
  have hr : 5000 * t.val + p.val < 50000 := by have := p.isLt; omega
  refine (lin0_tile _ _ p q).trans ?_
  rw [View.read_apply]
  have he : ((cfg0.win 2).blk t).view.emb (ix2 p q) = ix2 (⟨5000 * t.val + p.val, hr⟩ : Fin 50000) q := by
    funext a; apply Fin.ext
    match a with
    | ⟨0, _⟩ => show win0_2.index t 0 * 5000 + 1 * p.val = 5000 * t.val + p.val; rw [e4]; omega
    | ⟨1, _⟩ => show win0_2.index t 1 * 64 + 1 * q.val = q.val; rw [e5]; omega
  show _ = Cert.CFConv.linArr (R := 50000) _ _ (((cfg0.win 2).blk t).view.emb (ix2 p q))
  rw [he]
  show Cert.CFConv.lin _ _ q = Cert.CFConv.lin _ _ q
  congr 1
  · funext k; exact x_tile0 V c t p k _ rfl
  · funext k f; exact w_tile0 V c t k f

/-- Row `r` of the output is in the block of point `r / 5000`: the ten blocks cover the array. -/
theorem cover0 (i : S50000x64.Idx) :
    ∃ t : Fin cfg0.N, (cfg0.win 2).flush t = true ∧ i ∈ ((cfg0.win 2).blk t).view.set := by
  have h0 : (i 0).val < 50000 := (i 0).isLt
  have h1 : (i 1).val < 64 := (i 1).isLt
  have ht : (i 0).val / 5000 < cfg0.N := by rw [show cfg0.N = 10 from N_0]; omega
  obtain ⟨-, -, -, -, e4, e5⟩ := idx0 ⟨(i 0).val / 5000, ht⟩
  refine ⟨⟨(i 0).val / 5000, ht⟩, flush0_2 _, ?_⟩
  show i ∈ ((View.whole main_v0).slice (win0_2.rect ⟨(i 0).val / 5000, ht⟩)).set
  rw [View.set_slice_whole, Rect.mem_set_unit]
  intro a
  match a with
  | ⟨0, _⟩ =>
    show win0_2.index ⟨(i 0).val / 5000, ht⟩ 0 * 5000 ≤ (i 0).val
      ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 64 ≤ (i 1).val
      ∧ (i 1).val < win0_2.index ⟨(i 0).val / 5000, ht⟩ 1 * 64 + 64
    rw [e5]; omega

/-- THE OUTPUT ARRAY after the region: the linear map of the whole array of node features, whatever the region found
    in its buffers. -/
theorem arr0 (c : Dev nD) :
    (dat0 (F := Ideal) V c).arrAt 2 cfg0.N
      = Cert.CFConv.linArr (R := 50000) (V c (Pipeline.arrRef spec0 0)) (V c (Pipeline.arrRef spec0 1)) :=
  (dat0 V c).arrAt_eq_of_cover 2 _ (fun t _ => flushed0 V c t) (cover0)

/-! ## The second edge type's linear map -/

/-- What the body leaves in the output's staging buffer is the stored tile of its two loaded blocks: one store through
    the whole buffer, of the payload of two loads through whole buffers. -/
theorem out1_eq (x0 : Vec Ideal S5000x64 .f32) (x1 : Vec Ideal S64x64 .f32) :
    out1_2 (F := Ideal) x0 x1 = k1_pay1 x0 x1 := by
  unfold out1_2
  rw [View.canon_unit_zero origin2]
  simp only [View.ld_unit_zero (S := S5000x64) origin2, View.ld_unit_zero (S := S64x64) origin2]

/-- The printed index maps, decided over the ten grid points: at point `t` the node features' and the output's block
    is row block `t`, column block 0; the weight's block is always block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the node features' tile at point `t` is entry (5000 t + p, k) of the array. -/
theorem x_tile1 (c : Dev nD) (t : Fin cfg1.N) (p : Fin 5000) (k : Fin 64) (r : Fin 50000)
    (hr : r.val = 5000 * t.val + p.val) :
    (iblk1 V c 0 t : Vec Ideal S5000x64 .f32) (ix2 p k)
      = (V c (Pipeline.arrRef spec1 0) : S50000x64.Idx → EReal) (ix2 r k) := by
  obtain ⟨e0, e1, -⟩ := idx1 t
  unfold iblk1
  rw [View.read_apply]
  show V c (Pipeline.arrRef spec1 0) _ = V c (Pipeline.arrRef spec1 0) _
  congr 1
  funext a; apply Fin.ext
  match a with
  | ⟨0, _⟩ => show win1_0.index t 0 * 5000 + 1 * p.val = r.val; rw [e0, hr]; omega
  | ⟨1, _⟩ => show win1_0.index t 1 * 64 + 1 * k.val = k.val; rw [e1]; omega

/-- The weight's tile at every point is the whole weight. -/
theorem w_tile1 (c : Dev nD) (t : Fin cfg1.N) (k f : Fin 64) :
    (iblk1 V c 1 t : Vec Ideal S64x64 .f32) (ix2 k f)
      = (V c (Pipeline.arrRef spec1 1) : S64x64.Idx → EReal) (ix2 k f) := by
  obtain ⟨-, -, e2, e3, -⟩ := idx1 t
  unfold iblk1
  rw [View.read_apply]
  show V c (Pipeline.arrRef spec1 1) _ = V c (Pipeline.arrRef spec1 1) _
  congr 1
  funext a; apply Fin.ext
  match a with
  | ⟨0, _⟩ => show win1_1.index t 0 * 64 + 1 * k.val = k.val; rw [e2]; omega
  | ⟨1, _⟩ => show win1_1.index t 1 * 64 + 1 * f.val = f.val; rw [e3]; omega

/-- WHAT POINT `t` WRITES BACK is row block `t` of the linear map of the whole array of node features: entry (p, q)
    of the stored tile is row `p` of the tile — row 5000 t + p of the array — through the weight, and the block's
    entry (p, q) sits in the array at (5000 t + p, q). -/
theorem flushed1 (c : Dev nD) (t : Fin cfg1.N) :
    (dat1 (F := Ideal) V c).flushed 2 t
      = ((cfg1.win 2).blk t).view.read (Elt Ideal)
          (Cert.CFConv.linArr (R := 50000) (V c (Pipeline.arrRef spec1 0)) (V c (Pipeline.arrRef spec1 1))) := by
  show (cfg1.win 2).cut (grid1.coords t) ((dat1 V c).after 2 t) = _
  rw [after1_2, out1_eq]
  obtain ⟨-, -, -, -, e4, e5⟩ := idx1 t
  refine funext fun (j : S5000x64.Idx) => ?_
  obtain ⟨p, q, rfl⟩ : ∃ (p : Fin 5000) (q : Fin 64), j = ix2 p q := ⟨j 0, j 1, eq_ix2 j⟩
  have hN : t.val < 10 := by have h := t.isLt; have e : cfg1.N = 10 := N_1; omega
  have hr : 5000 * t.val + p.val < 50000 := by have := p.isLt; omega
  refine (lin1_tile _ _ p q).trans ?_
  rw [View.read_apply]
  have he : ((cfg1.win 2).blk t).view.emb (ix2 p q) = ix2 (⟨5000 * t.val + p.val, hr⟩ : Fin 50000) q := by
    funext a; apply Fin.ext
    match a with
    | ⟨0, _⟩ => show win1_2.index t 0 * 5000 + 1 * p.val = 5000 * t.val + p.val; rw [e4]; omega
    | ⟨1, _⟩ => show win1_2.index t 1 * 64 + 1 * q.val = q.val; rw [e5]; omega
  show _ = Cert.CFConv.linArr (R := 50000) _ _ (((cfg1.win 2).blk t).view.emb (ix2 p q))
  rw [he]
  show Cert.CFConv.lin _ _ q = Cert.CFConv.lin _ _ q
  congr 1
  · funext k; exact x_tile1 V c t p k _ rfl
  · funext k f; exact w_tile1 V c t k f

/-- Row `r` of the output is in the block of point `r / 5000`: the ten blocks cover the array. -/
theorem cover1 (i : S50000x64.Idx) :
    ∃ t : Fin cfg1.N, (cfg1.win 2).flush t = true ∧ i ∈ ((cfg1.win 2).blk t).view.set := by
  have h0 : (i 0).val < 50000 := (i 0).isLt
  have h1 : (i 1).val < 64 := (i 1).isLt
  have ht : (i 0).val / 5000 < cfg1.N := by rw [show cfg1.N = 10 from N_1]; omega
  obtain ⟨-, -, -, -, e4, e5⟩ := idx1 ⟨(i 0).val / 5000, ht⟩
  refine ⟨⟨(i 0).val / 5000, ht⟩, flush1_2 _, ?_⟩
  show i ∈ ((View.whole main_v1).slice (win1_2.rect ⟨(i 0).val / 5000, ht⟩)).set
  rw [View.set_slice_whole, Rect.mem_set_unit]
  intro a
  match a with
  | ⟨0, _⟩ =>
    show win1_2.index ⟨(i 0).val / 5000, ht⟩ 0 * 5000 ≤ (i 0).val
      ∧ (i 0).val < win1_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ 1 * 64 ≤ (i 1).val
      ∧ (i 1).val < win1_2.index ⟨(i 0).val / 5000, ht⟩ 1 * 64 + 64
    rw [e5]; omega

/-- THE OUTPUT ARRAY after the region: the linear map of the whole array of node features, whatever the region found
    in its buffers. -/
theorem arr1 (c : Dev nD) :
    (dat1 (F := Ideal) V c).arrAt 2 cfg1.N
      = Cert.CFConv.linArr (R := 50000) (V c (Pipeline.arrRef spec1 0)) (V c (Pipeline.arrRef spec1 1)) :=
  (dat1 V c).arrAt_eq_of_cover 2 _ (fun t _ => flushed1 V c t) (cover1)

end Cert.KernelIdeal.KVal

end
-- ==== Proof.KFilterPay.lean ====
/-
  The filter region's block computation read at an index.

  One grid point of the region holds a tile of 6400 edges: their radial-basis attributes (6400 × 50), the gathered
  source rows (6400 × 64), their lengths (6400 × 1), and the two layers' weights and biases whole. The tile's result
  at edge `p` and feature `q` is the message of the specification: the source entry times the filter (the second
  layer applied to the shifted softplus of the first) times the cosine cutoff of the edge's length. Nothing in one
  row of the result depends on another row of the tile.

  At the extended reals a change of float format is the identity and a product into the zero accumulator is the
  plain finite sum, so each piece of the block computation is literally the specification's term: the first layer
  before its nonlinearity (`pre1`), the shifted softplus entry by entry (`sspV`; the guard "the argument is not
  comparable with itself" is never taken, because an extended real equals itself), the second layer (`filter_apply`),
  the cutoff's cosine and its `+ 1` (`cosPart_apply`, `onePart_apply`), and the final two products (`last_apply`).
-/
import proofs.«116981_j2877628088816_2_alg».proof.Proof.Gen.KernelIdeal.Skeleton
import proofs.«116981_j2877628088816_2_alg».proof.Proof.Spec
import proofs.«116981_j2877628088816_2_alg».proof.Proof.LibTileMatmul
import Idealize.ShloMosaic.Lib.ValueLayout

noncomputable section

open scoped BigOperators

namespace Cert.KernelIdeal.KVal2

open Cert.KernelIdeal Cert.KernelIdeal.Gen Idealize.ShloMosaic Idealize.ShloMosaic.ValueIdx
open Cert.CFConv

/-! ## Two small facts the library does not carry -/

/-- "Ordered and different" of an extended real with itself answers no. -/
theorem cmp_one_self (a : EReal) : Ideal.cmp .one a a = 0#1 := by
  simp [Ideal.cmp]

/-- A one-column table [a, 1] broadcast to [a, b] reads, at (p, c), the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products -/

/-- The first layer's product, 6400 × 50 by 50 × 64 into zero, at (p, j): the sum over the 50 attributes. -/
theorem matmul1_apply (A : FVec Ideal S6400x50 .bf16) (B : FVec Ideal S50x64 .bf16) (p : Fin 6400) (j : Fin 64) :
    matmul (F := Ideal) dot_S6400x50_S50x64_S6400x64_1_0_0_1_n_n none A B
        (constant (F := Ideal) S6400x64 .f32 0x00000000#32) (ix2 p j)
      = ∑ c : Fin 50, A (ix2 p c) * B (ix2 c j) :=
  TileMatmul.matmul_zero_apply (m := 6400) (k := 50) (n := 64)
    dot_S6400x50_S50x64_S6400x64_1_0_0_1_n_n.wf none A B p j

/-- The second layer's product, 6400 × 64 by 64 × 64 into zero, at (p, q): the sum over the 64 hidden features. -/
theorem matmul2_apply (A : FVec Ideal S6400x64 .bf16) (B : FVec Ideal S64x64 .bf16) (p : Fin 6400) (q : Fin 64) :
    matmul (F := Ideal) dot_S6400x64_S64x64_S6400x64_1_0_0_1_n_n none A B
        (constant (F := Ideal) S6400x64 .f32 0x00000000#32) (ix2 p q)
      = ∑ c : Fin 64, A (ix2 p c) * B (ix2 c q) :=
  TileMatmul.matmul_zero_apply (m := 6400) (k := 64) (n := 64)
    dot_S6400x64_S64x64_S6400x64_1_0_0_1_n_n.wf none A B p q

/-! ## The first layer before its nonlinearity -/

/-- The tile of attributes times W₁ plus b₁ on every row. -/
def pre1 (x0 : Vec Ideal S6400x50 .f32) (x3 : Vec Ideal S50x64 .f32) (x4 : Vec Ideal S1x64 .f32) :
    FVec Ideal S6400x64 .f32 :=
  addf
    (matmul dot_S6400x50_S50x64_S6400x64_1_0_0_1_n_n none
      (truncf .bf16 (shapeCast S6400x50 x0 shapeCasts_S6400x50_S6400x50) bitsLt_bf16_f32)
      (truncf .bf16 x3 bitsLt_bf16_f32) (constant S6400x64 .f32 0x00000000#32))
    (broadcastTo S6400x64 (shapeCast S1x64 x4 shapeCasts_S1x64_S1x64) broadcasts_S1x64_S6400x64)

/-- At edge `p` and hidden feature `j` it is the affine map of the edge's attribute row. -/
theorem pre1_apply (x0 : Vec Ideal S6400x50 .f32) (x3 : Vec Ideal S50x64 .f32) (x4 : Vec Ideal S1x64 .f32)
    (p : Fin 6400) (j : Fin 64) :
    pre1 x0 x3 x4 (ix2 p j) = aff (fun g => x0 (ix2 p g)) (matOf x3) (row0Of x4) j := by
  unfold pre1
  simp only [shapeCast_self]
  refine (addf_apply _ _ _).trans ?_
  rw [matmul1_apply, broadcastTo_1b_ab_apply]
  rfl

/-! ## The shifted softplus, entry by entry -/

/-- The shifted softplus of every entry of a 6400 × 64 tile, in the stable form the program spells. -/
def sspV (v9 : FVec Ideal S6400x64 .f32) : FVec Ideal S6400x64 .f32 :=
  have cst_5 : Ideal .f32 := Scalar.ofBits .f32 0x00000000#32
  have v10 : FVec Ideal S6400x64 .f32 := broadcast S6400x64 cst_5
  have v11 : FVec Ideal S6400x64 .f32 := maximumf v9 v10
  have v12 : FVec Ideal S6400x64 .f32 := broadcast S6400x64 cst_5
  have v13 : FVec Ideal S6400x64 .f32 := subf v9 v12
  have v14 : IVec S6400x64 1 := cmpf .one v13 v13
  have v15 : FVec Ideal S6400x64 .f32 := broadcast S6400x64 cst_5
  have v16 : FVec Ideal S6400x64 .f32 := addf v9 v15
  have v17 : FVec Ideal S6400x64 .f32 := absf v13
  have cst_6 : Ideal .f32 := Scalar.ofBits .f32 0x00000000#32
  have v18 : FVec Ideal S6400x64 .f32 := broadcast S6400x64 cst_6
  have v19 : FVec Ideal S6400x64 .f32 := subf v18 v17
  have v20 : FVec Ideal S6400x64 .f32 := exp v19
  have v21 : FVec Ideal S6400x64 .f32 := log1p v20
  have v22 : FVec Ideal S6400x64 .f32 := addf v11 v21
  have v23 : FVec Ideal S6400x64 .f32 := select v14 v16 v22
  have cst_7 : Ideal .f32 := Scalar.ofBits .f32 0x3F317218#32
  have v24 : FVec Ideal S6400x64 .f32 := broadcast S6400x64 cst_7
  subf v23 v24

/-- Every entry is the specification's shifted softplus of the entry: the guarded branch is never taken. -/
theorem sspV_apply (v9 : FVec Ideal S6400x64 .f32) (i : S6400x64.Idx) : sspV v9 i = ssp (v9 i) := by
  show Scalar.select (Ideal.cmp .one (v9 i - wZero) (v9 i - wZero)) (v9 i + wZero)
      (max (v9 i) wZero + Ideal.log1p (Ideal.exp (wZero - max (v9 i - wZero) (-(v9 i - wZero))))) - wLog2 = _
  rw [cmp_one_self, select_zero]
  rfl

/-! ## The filter: the second layer on the softplus of the first -/

/-- The block's filter is the second product of the softplus of the first layer, plus b₂ on every row. -/
theorem filter_eq (x0 : Vec Ideal S6400x50 .f32) (x3 : Vec Ideal S50x64 .f32) (x4 : Vec Ideal S1x64 .f32)
    (x5 : Vec Ideal S64x64 .f32) (x6 : Vec Ideal S1x64 .f32) :
    k2_pay2 x0 x3 x4 x5 x6
      = addf
        (matmul dot_S6400x64_S64x64_S6400x64_1_0_0_1_n_n none
          (truncf .bf16 (sspV (pre1 x0 x3 x4)) bitsLt_bf16_f32)
          (truncf .bf16 x5 bitsLt_bf16_f32) (constant S6400x64 .f32 0x00000000#32))
        (broadcastTo S6400x64 (shapeCast S1x64 x6 shapeCasts_S1x64_S1x64) broadcasts_S1x64_S6400x64) := rfl

/-- At edge `p` and feature `q` the block's filter is the specification's filter of the edge's attribute row. -/
theorem filter_apply (x0 : Vec Ideal S6400x50 .f32) (x3 : Vec Ideal S50x64 .f32) (x4 : Vec Ideal S1x64 .f32)
    (x5 : Vec Ideal S64x64 .f32) (x6 : Vec Ideal S1x64 .f32) (p : Fin 6400) (q : Fin 64) :
    k2_pay2 x0 x3 x4 x5 x6 (ix2 p q)
      = filt (fun g => x0 (ix2 p g)) (matOf x3) (row0Of x4) (matOf x5) (row0Of x6) q := by
  rw [filter_eq]
  simp only [shapeCast_self]
  refine (addf_apply _ _ _).trans ?_
  rw [matmul2_apply, broadcastTo_1b_ab_apply]
  unfold filt aff lin
  refine congrArg₂ (· + ·) (Finset.sum_congr rfl fun c _ => ?_) rfl
  refine congrArg₂ (· * ·) ?_ rfl
  exact (sspV_apply _ _).trans (congrArg ssp (pre1_apply x0 x3 x4 p c))

/-! ## The cutoff's two halves -/

/-- The cosine of every length times π/10. -/
theorem cosPart_apply (x2 : Vec Ideal S6400x1 .f32) (i : S6400x1.Idx) :
    k2_pay3 x2 i = Ideal.cos (x2 i * wPi10) := by
  unfold k2_pay3
  simp only [shapeCast_self]
  rfl

/-- The constant one beside it. -/
theorem onePart_apply (i : S6400x1.Idx) : k2_pay4 (F := Ideal) i = wOne := rfl

/-! ## The last two products -/

/-- The stored tile at (p, q): the source entry times the filter entry, times half the sum of the two cutoff halves of
    row `p`. -/
theorem last_apply (v33 : FVec Ideal S6400x64 .f32) (v38 v39 : FVec Ideal S6400x1 .f32) (x1 : Vec Ideal S6400x64 .bf16)
    (p : Fin 6400) (q : Fin 64) :
    k2_pay1 v33 v38 v39 x1 (ix2 p q)
      = (x1 (ix2 p q) * v33 (ix2 p q)) * (wHalf * (v38 (ix2 p 0) + v39 (ix2 p 0))) := by
  unfold k2_pay1
  simp only [shapeCast_self]
  refine (mulf_apply _ _ _).trans ?_
  rw [broadcastTo_a1_ab_apply]
  rfl

/-! ## The block computation at an index -/

/-- THE TILE'S RESULT at edge `p` and feature `q` is the specification's message of the edge: its source row, its
    attribute row, its length, and the weights. -/
theorem tile_apply (x0 : Vec Ideal S6400x50 .f32) (x1 : Vec Ideal S6400x64 .bf16) (x2 : Vec Ideal S6400x1 .f32)
    (x3 : Vec Ideal S50x64 .f32) (x4 : Vec Ideal S1x64 .f32) (x5 : Vec Ideal S64x64 .f32) (x6 : Vec Ideal S1x64 .f32)
    (p : Fin 6400) (q : Fin 64) :
    k2_pay1 (k2_pay2 x0 x3 x4 x5 x6) (k2_pay3 x2) (k2_pay4 (F := Ideal)) x1 (ix2 p q)
      = msg (fun f => x1 (ix2 p f)) (fun g => x0 (ix2 p g)) (x2 (ix2 p 0)) (matOf x3) (row0Of x4) (matOf x5)
          (row0Of x6) q := by
  rw [last_apply, filter_apply, cosPart_apply, onePart_apply]
  rfl

end Cert.KernelIdeal.KVal2

end
-- ==== Proof.KFilterArr.lean ====
/-
  From the filter region's tiles to its result array.

  The region walks 250 grid points. At point `t` its three row-tiled inputs (the edge attributes, the gathered source
  rows, the lengths) and its result are the 6400 rows `6400 t … 6400 t + 6399` of their arrays; the two layers'
  weights and biases are read whole at every point. A tile's result at its row `p` depends only on row `p` of the
  three row tiles and on the weights, so what point `t` writes back is rows `6400 t …` of ONE function of the seven
  argument arrays: the specification's array of messages. The 250 tiles cover the 1 600 000 rows (row `r` is in
  tile `r / 6400`), so after the walk the result array IS that function.
-/
import proofs.«116981_j2877628088816_2_alg».proof.Proof.Gen.KernelIdeal.Frame
import proofs.«116981_j2877628088816_2_alg».proof.Proof.KFilterPay
import Idealize.ShloMosaic.Lib.Pipeline.Value

set_option maxRecDepth 16384

noncomputable section

namespace Cert.KernelIdeal.KVal2

open Cert.KernelIdeal Cert.KernelIdeal.Gen Idealize.ShloMosaic Idealize.ShloMosaic.TcCoe Idealize.SL.Sem
open Idealize.ShloMosaic.ValueIdx
open Idealize.ShloMosaic.Pipeline (Dat)
open Cert.CFConv

/-! ## The body's one store -/

theorem hz : (![0, 0] : Fin 2 → Nat) = fun _ => 0 := funext fun a => by fin_cases a <;> rfl

/-- What the body leaves in the result's staging buffer is the tile computation of the seven staged tiles: its one
    store fills the buffer, and every load reads a whole buffer. -/
theorem out_eq (x0 : Vec Ideal S6400x50 .f32) (x1 : Vec Ideal S6400x64 .bf16) (x2 : Vec Ideal S6400x1 .f32)
    (x3 : Vec Ideal S50x64 .f32) (x4 : Vec Ideal S1x64 .f32) (x5 : Vec Ideal S64x64 .f32) (x6 : Vec Ideal S1x64 .f32) :
    out2_7 (F := Ideal) x0 x1 x2 x3 x4 x5 x6
      = k2_pay1 (k2_pay2 x0 x3 x4 x5 x6) (k2_pay3 x2) (k2_pay4 (F := Ideal)) x1 := by
  unfold out2_7
  rw [View.canon_unit_zero hz]
  simp only [View.ld_unit_zero (S := S6400x50) hz, View.ld_unit_zero (S := S6400x64) hz,
    View.ld_unit_zero (S := S6400x1) hz, View.ld_unit_zero (S := S50x64) hz, View.ld_unit_zero (S := S1x64) hz,
    View.ld_unit_zero (S := S64x64) hz]

/-! ## A tile's result from rows of whole arrays -/

/-- If row `p` of the three row tiles is row `r` of three arrays, and the weight tiles are four arrays, the tile's
    result at (p, q) is the array of messages at (r, q). -/
theorem tile_msgArr (x0 : Vec Ideal S6400x50 .f32) (x1 : Vec Ideal S6400x64 .bf16) (x2 : Vec Ideal S6400x1 .f32)
    (x3 : Vec Ideal S50x64 .f32) (x4 : Vec Ideal S1x64 .f32) (x5 : Vec Ideal S64x64 .f32) (x6 : Vec Ideal S1x64 .f32)
    (A0 : S1600000x50.Idx → EReal) (A1 : S1600000x64.Idx → EReal) (A2 : S1600000x1.Idx → EReal)
    (A3 : S50x64.Idx → EReal) (A4 : S1x64.Idx → EReal) (A5 : S64x64.Idx → EReal) (A6 : S1x64.Idx → EReal)
    (p : Fin 6400) (q : Fin 64) (r : Fin 1600000)
    (h0 : ∀ g : Fin 50, x0 (ix2 p g) = A0 (ix2 r g)) (h1 : ∀ f : Fin 64, x1 (ix2 p f) = A1 (ix2 r f))
    (h2 : x2 (ix2 p (0 : Fin 1)) = A2 (ix2 r (0 : Fin 1)))
    (h3 : ∀ (a : Fin 50) (b : Fin 64), x3 (ix2 a b) = A3 (ix2 a b))
    (h4 : ∀ b : Fin 64, x4 (ix2 (0 : Fin 1) b) = A4 (ix2 (0 : Fin 1) b))
    (h5 : ∀ (a : Fin 64) (b : Fin 64), x5 (ix2 a b) = A5 (ix2 a b))
    (h6 : ∀ b : Fin 64, x6 (ix2 (0 : Fin 1) b) = A6 (ix2 (0 : Fin 1) b)) :
    k2_pay1 (k2_pay2 x0 x3 x4 x5 x6) (k2_pay3 x2) (k2_pay4 (F := Ideal)) x1 (ix2 p q)
      = msgArr A0 A1 A2 A3 A4 A5 A6 (ix2 r q) := by
  rw [tile_apply]
  show msg _ _ _ _ _ _ _ q
    = msg (rowOf A1 r) (rowOf A0 r) (A2 (ix2 r (0 : Fin 1))) (matOf A3) (row0Of A4) (matOf A5) (row0Of A6) q
  rw [show (fun f : Fin 64 => (x1 (ix2 p f) : EReal)) = rowOf A1 r from funext h1,
    show (fun g : Fin 50 => (x0 (ix2 p g) : EReal)) = rowOf A0 r from funext h0, h2,
    show matOf x3 = matOf A3 from funext fun a => funext fun b => h3 a b,
    show row0Of x4 = row0Of A4 from funext h4,
    show matOf x5 = matOf A5 from funext fun a => funext fun b => h5 a b,
    show row0Of x6 = row0Of A6 from funext h6]

/-! ## Where each window's tile sits in its array -/

/-- The printed index maps over the grid: the row-tiled windows are at block row `t`, the weights at block (0, 0). -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_7.index t (0 : Fin 2) = t.val ∧ win2_7.index t (1 : Fin 2) = 0 :=
  (by decide +kernel : ∀ t : Fin grid2.N, _)

theorem idx_weights : ∀ t : Fin cfg2.N,
    win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Row `p` of the attribute tile at point `t` is row `6400 t + p` of the attribute array. -/
theorem blk0_apply (t : Fin cfg2.N) (A : S1600000x50.Idx → EReal) (p : Fin 6400) (g : Fin 50) (r : Fin 1600000)
    (hr : r.val = t.val * 6400 + p.val) :
    ((cfg2.win 0).blk t).view.read (Elt Ideal) A (ix2 p g) = A (ix2 r g) := by
  obtain ⟨e0, e1, -⟩ := idx_rows t
  show A _ = A _
  refine congrArg A (funext fun a => Fin.ext ?_)
  match a with
  | ⟨0, _⟩ => show win2_0.index t (0 : Fin 2) * 6400 + 1 * p.val = r.val; rw [e0, hr]; omega
  | ⟨1, _⟩ => show win2_0.index t (1 : Fin 2) * 50 + 1 * g.val = g.val; rw [e1]; omega

/-- Row `p` of the source tile at point `t` is row `6400 t + p` of the gathered sources. -/
theorem blk1_apply (t : Fin cfg2.N) (A : S1600000x64.Idx → EReal) (p : Fin 6400) (f : Fin 64) (r : Fin 1600000)
    (hr : r.val = t.val * 6400 + p.val) :
    ((cfg2.win 1).blk t).view.read (Elt Ideal) A (ix2 p f) = A (ix2 r f) := by
  obtain ⟨-, -, e0, e1, -⟩ := idx_rows t
  show A _ = A _
  refine congrArg A (funext fun a => Fin.ext ?_)
  match a with
  | ⟨0, _⟩ => show win2_1.index t (0 : Fin 2) * 6400 + 1 * p.val = r.val; rw [e0, hr]; omega
  | ⟨1, _⟩ => show win2_1.index t (1 : Fin 2) * 64 + 1 * f.val = f.val; rw [e1]; omega

/-- Row `p` of the length tile at point `t` is row `6400 t + p` of the lengths. -/
theorem blk2_apply (t : Fin cfg2.N) (A : S1600000x1.Idx → EReal) (p : Fin 6400) (z : Fin 1) (r : Fin 1600000)
    (hr : r.val = t.val * 6400 + p.val) :
    ((cfg2.win 2).blk t).view.read (Elt Ideal) A (ix2 p z) = A (ix2 r z) := by
  obtain ⟨-, -, -, -, e0, e1, -⟩ := idx_rows t
  show A _ = A _
  refine congrArg A (funext fun a => Fin.ext ?_)
  match a with
  | ⟨0, _⟩ => show win2_2.index t (0 : Fin 2) * 6400 + 1 * p.val = r.val; rw [e0, hr]; omega
  | ⟨1, _⟩ => show win2_2.index t (1 : Fin 2) * 1 + 1 * z.val = z.val; rw [e1]; omega

/-- The W₁ tile at any point is W₁. -/
theorem blk3_apply (t : Fin cfg2.N) (A : S50x64.Idx → EReal) (a : Fin 50) (b : Fin 64) :
    ((cfg2.win 3).blk t).view.read (Elt Ideal) A (ix2 a b) = A (ix2 a b) := by
  obtain ⟨e0, e1, -⟩ := idx_weights t
  show A _ = A _
  refine congrArg A (funext fun ax => Fin.ext ?_)
  match ax with
  | ⟨0, _⟩ => show win2_3.index t (0 : Fin 2) * 50 + 1 * a.val = a.val; rw [e0]; omega
  | ⟨1, _⟩ => show win2_3.index t (1 : Fin 2) * 64 + 1 * b.val = b.val; rw [e1]; omega

/-- The b₁ tile at any point is b₁. -/
theorem blk4_apply (t : Fin cfg2.N) (A : S1x64.Idx → EReal) (a : Fin 1) (b : Fin 64) :
    ((cfg2.win 4).blk t).view.read (Elt Ideal) A (ix2 a b) = A (ix2 a b) := by
  obtain ⟨-, -, e0, e1, -⟩ := idx_weights t
  show A _ = A _
  refine congrArg A (funext fun ax => Fin.ext ?_)
  match ax with
  | ⟨0, _⟩ => show win2_4.index t (0 : Fin 2) * 1 + 1 * a.val = a.val; rw [e0]; omega
  | ⟨1, _⟩ => show win2_4.index t (1 : Fin 2) * 64 + 1 * b.val = b.val; rw [e1]; omega

/-- The W₂ tile at any point is W₂. -/
theorem blk5_apply (t : Fin cfg2.N) (A : S64x64.Idx → EReal) (a : Fin 64) (b : Fin 64) :
    ((cfg2.win 5).blk t).view.read (Elt Ideal) A (ix2 a b) = A (ix2 a b) := by
  obtain ⟨-, -, -, -, e0, e1, -⟩ := idx_weights t
  show A _ = A _
  refine congrArg A (funext fun ax => Fin.ext ?_)
  match ax with
  | ⟨0, _⟩ => show win2_5.index t (0 : Fin 2) * 64 + 1 * a.val = a.val; rw [e0]; omega
  | ⟨1, _⟩ => show win2_5.index t (1 : Fin 2) * 64 + 1 * b.val = b.val; rw [e1]; omega

/-- The b₂ tile at any point is b₂. -/
theorem blk6_apply (t : Fin cfg2.N) (A : S1x64.Idx → EReal) (a : Fin 1) (b : Fin 64) :
    ((cfg2.win 6).blk t).view.read (Elt Ideal) A (ix2 a b) = A (ix2 a b) := by
  obtain ⟨-, -, -, -, -, -, e0, e1⟩ := idx_weights t
  show A _ = A _
  refine congrArg A (funext fun ax => Fin.ext ?_)
  match ax with
  | ⟨0, _⟩ => show win2_6.index t (0 : Fin 2) * 1 + 1 * a.val = a.val; rw [e0]; omega
  | ⟨1, _⟩ => show win2_6.index t (1 : Fin 2) * 64 + 1 * b.val = b.val; rw [e1]; omega

/-- A result tile `X` whose row `p` is row `6400 t + p` of an array `G` is, written back at point `t`, the block of
    `G` at `t`. -/
theorem flush_tile (t : Fin cfg2.N) (X : Vec Ideal S6400x64 .f32) (G : S1600000x64.Idx → EReal)
    (h : ∀ (p : Fin 6400) (q : Fin 64) (r : Fin 1600000), r.val = t.val * 6400 + p.val → X (ix2 p q) = G (ix2 r q)) :
    (cfg2.win 7).cut (grid2.coords t) X = ((cfg2.win 7).blk t).view.read (Elt Ideal) G := by
  obtain ⟨-, -, -, -, -, -, e0, e1⟩ := idx_rows t
  have ht : t.val < 250 := lt_of_lt_of_eq t.isLt N_2
  funext j
  have hp : (j (0 : Fin 2)).val < 6400 := (j (0 : Fin 2)).isLt
  have hq : (j (1 : Fin 2)).val < 64 := (j (1 : Fin 2)).isLt
  have hj := h ⟨(j (0 : Fin 2)).val, hp⟩ ⟨(j (1 : Fin 2)).val, hq⟩ ⟨t.val * 6400 + (j (0 : Fin 2)).val, by omega⟩ rfl
  refine Eq.trans ?_ (hj.trans ?_)
  · show X _ = X _
    exact congrArg X (funext fun a => by match a with | ⟨0, _⟩ => rfl | ⟨1, _⟩ => rfl)
  · show G _ = G _
    refine congrArg G (funext fun a => Fin.ext ?_)
    match a with
    | ⟨0, _⟩ =>
      show t.val * 6400 + (j (0 : Fin 2)).val = win2_7.index t (0 : Fin 2) * 6400 + 1 * (j (0 : Fin 2)).val
      rw [e0]; omega
    | ⟨1, _⟩ =>
      show (j (1 : Fin 2)).val = win2_7.index t (1 : Fin 2) * 64 + 1 * (j (1 : Fin 2)).val
      rw [e1]; omega

/-! ## What a point writes back, the cover, the array -/

variable (V : (c : Dev nD) → (b : Ref sig .tc) → Buf (Elt Ideal) ((c : Thread nD τ).loc b))

/-- WHAT POINT `t` WRITES BACK is block `t` of the array of messages of the seven argument arrays as the region
    finds them. -/
theorem flushed_eq (c : Dev nD) (t : Fin cfg2.N) :
    (dat2 (F := Ideal) V c).flushed 7 t = ((cfg2.win 7).blk t).view.read (Elt Ideal)
      (msgArr (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6))) := by
  show (cfg2.win 7).cut (grid2.coords t) ((dat2 V c).after 7 t) = _
  rw [after2_7, out_eq]
  refine flush_tile t _ _ fun p q r hr => ?_
  exact tile_msgArr (iblk2 V c 0 t) (iblk2 V c 1 t) (iblk2 V c 2 t) (iblk2 V c 3 t) (iblk2 V c 4 t) (iblk2 V c 5 t)
    (iblk2 V c 6 t) (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) p q r
    (fun g => blk0_apply t _ p g r hr) (fun f => blk1_apply t _ p f r hr) (blk2_apply t _ p 0 r hr)
    (fun a b => blk3_apply t _ a b) (fun b => blk4_apply t _ 0 b) (fun a b => blk5_apply t _ a b)
    (fun b => blk6_apply t _ 0 b)

/-- An index of the result array is in point `t`'s block iff each coordinate is in the block's range on its axis. -/
theorem mem_blk (t : Fin cfg2.N) (i : S1600000x64.Idx) :
    i ∈ ((cfg2.win 7).blk t).view.set ↔ ∀ a : Fin 2, win2_7.index t a * S6400x64.size a ≤ (i a).val
      ∧ (i a).val < win2_7.index t a * S6400x64.size a + S6400x64.size a := by
  show i ∈ ((View.whole main_v26).slice (win2_7.rect t)).set ↔ _
  rw [View.set_slice_whole, Rect.mem_set_unit]
  exact Iff.rfl

/-- Every index of the result array is in some point's block: row `r` is in the block of point `r / 6400`. -/
theorem cover (i : S1600000x64.Idx) :
    ∃ t : Fin cfg2.N, (cfg2.win 7).flush t = true ∧ i ∈ ((cfg2.win 7).blk t).view.set := by
  have hi0 : (i (0 : Fin 2)).val < 1600000 := (i (0 : Fin 2)).isLt
  have hi1 : (i (1 : Fin 2)).val < 64 := (i (1 : Fin 2)).isLt
  have hN : cfg2.N = 250 := N_2
  have hlt : (i (0 : Fin 2)).val / 6400 < cfg2.N := by rw [hN]; omega
  obtain ⟨-, -, -, -, -, -, e0, e1⟩ := idx_rows ⟨(i (0 : Fin 2)).val / 6400, hlt⟩
  refine ⟨⟨(i (0 : Fin 2)).val / 6400, hlt⟩, flush2_7 _, ?_⟩
  rw [mem_blk]
  intro a
  match a with
  | ⟨0, _⟩ =>
    show win2_7.index ⟨(i (0 : Fin 2)).val / 6400, hlt⟩ (0 : Fin 2) * 6400 ≤ (i (0 : Fin 2)).val
      ∧ (i (0 : Fin 2)).val < win2_7.index ⟨(i (0 : Fin 2)).val / 6400, hlt⟩ (0 : Fin 2) * 6400 + 6400
    rw [e0]
    show (i (0 : Fin 2)).val / 6400 * 6400 ≤ (i (0 : Fin 2)).val
      ∧ (i (0 : Fin 2)).val < (i (0 : Fin 2)).val / 6400 * 6400 + 6400
    omega
  | ⟨1, _⟩ =>
    show win2_7.index ⟨(i (0 : Fin 2)).val / 6400, hlt⟩ (1 : Fin 2) * 64 ≤ (i (1 : Fin 2)).val
      ∧ (i (1 : Fin 2)).val < win2_7.index ⟨(i (0 : Fin 2)).val / 6400, hlt⟩ (1 : Fin 2) * 64 + 64
    rw [e1]; omega

/-- THE RESULT ARRAY after the region, for any contents at its entry: the array of messages of the seven argument
    arrays as the region finds them. -/
theorem arr2 (c : Dev nD) :
    (dat2 (F := Ideal) V c).arrAt 7 cfg2.N
      = msgArr (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6)) :=
  (dat2 V c).arrAt_eq_of_cover 7 _ (fun t _ => flushed_eq V c t) cover

end Cert.KernelIdeal.KVal2

end
-- ==== Proof.KPostPay.lean ====
/-
  The node update's tile at an index.

  One grid point of a node-update region reads a tile of 5000 rows of aggregated messages, two 64 × 64 weights and two
  bias rows, and stores: the tile times the first weight plus the first bias, through the shifted softplus, times the
  second weight plus the second bias. At the extended reals the changes of float format are the identity, each product
  into the zero accumulator is the plain finite sum, a bias row broadcast down the tile is read at its column, and the
  softplus's guard for an unordered argument is never taken. So entry (p, q) of what is stored is row p of the tile
  through the node update, read at feature q.
-/
import proofs.«116981_j2877628088816_2_alg».proof.Proof.Gen.KernelIdeal.Skeleton
import proofs.«116981_j2877628088816_2_alg».proof.Proof.Spec
import proofs.«116981_j2877628088816_2_alg».proof.Proof.LibTileMatmul
import Idealize.ShloMosaic.Lib.Pipeline.Value

noncomputable section

open scoped BigOperators

namespace Cert.KernelIdeal.KVal

open Cert.KernelIdeal Cert.KernelIdeal.Gen Idealize.ShloMosaic Idealize.ShloMosaic.ValueIdx

/-- "Ordered and different" never holds of a value and itself. -/
theorem cmp_one_self (a : EReal) : Ideal.cmp .one a a = 0#1 := by simp [Ideal.cmp]

/-- A one-row table broadcast down the 5000 rows of a tile reads, at (p, q), the table's entry q. -/
theorem bias_row (b : Vec Ideal S1x64 .f32) (p : Fin 5000) (q : Fin 64) :
    broadcastTo S5000x64 b broadcasts_S1x64_S5000x64 (ix2 p q) = b (ix2 0 q) :=
  broadcastTo_apply b _ (ix2 p q) (ix2 0 q) (fun a => by match a with | ⟨0, _⟩ => rfl | ⟨1, _⟩ => rfl)

/-- A tile times a 64 × 64 weight into the zero accumulator, plus a broadcast bias row: at (p, j) it is row `p` of the
    tile through the affine map. The tile and the weight may carry any float format. -/
theorem aff_tile {φ₁ φ₂ : FTy} (A : FVec Ideal S5000x64 φ₁) (W : FVec Ideal S64x64 φ₂) (b : Vec Ideal S1x64 .f32)
    (p : Fin 5000) (j : Fin 64) :
    (addf (matmul dot_S5000x64_S64x64_S5000x64_1_0_0_1_n_n none A W (constant (F := Ideal) S5000x64 .f32 0x00000000#32))
        (broadcastTo S5000x64 b broadcasts_S1x64_S5000x64) (ix2 p j) : EReal)
      = Cert.CFConv.aff (fun k => A (ix2 p k)) (fun k f => W (ix2 k f)) (fun f => b (ix2 0 f)) j :=
  congrArg₂ (· + ·) (TileMatmul.matmul_zero_apply _ none A W p j) (bias_row b p j)

/-- The kernel's stable softplus of a tile `y`, minus log 2, entry by entry: the guard "y - 0 is ordered and differs
    from itself" is never taken, and what is left is the shifted softplus of the entry. -/
theorem ssp_tile (y : FVec Ideal S5000x64 .f32) (i : S5000x64.Idx) :
    (truncf .bf16
        (subf
          (select
            (cmpf .one (subf y (broadcast S5000x64 (FloatOps.ofBits .f32 0x00000000#32)))
              (subf y (broadcast S5000x64 (FloatOps.ofBits .f32 0x00000000#32))))
            (addf y (broadcast S5000x64 (FloatOps.ofBits .f32 0x00000000#32)))
            (addf (maximumf y (broadcast S5000x64 (FloatOps.ofBits .f32 0x00000000#32)))
              (log1p (exp (subf (broadcast S5000x64 (FloatOps.ofBits .f32 0x00000000#32))
                (absf (subf y (broadcast S5000x64 (FloatOps.ofBits .f32 0x00000000#32)))))))))
          (broadcast S5000x64 (FloatOps.ofBits .f32 0x3F317218#32)))
        bitsLt_bf16_f32 i : EReal)
      = Cert.CFConv.ssp (y i) := by
  show Scalar.select (Ideal.cmp .one (y i - Cert.CFConv.wZero) (y i - Cert.CFConv.wZero)) _ _ - Cert.CFConv.wLog2 = _
  rw [cmp_one_self, select_zero]
  rfl

/-- Entry (p, q) of the stored tile of one node-update region: row `p` of the aggregated tile `x0` through the first
    linear map, the shifted softplus, and the second linear map. -/
theorem post3_tile (x0 : Vec Ideal S5000x64 .f32) (x1 : Vec Ideal S64x64 .f32) (x2 : Vec Ideal S1x64 .f32)
    (x3 : Vec Ideal S64x64 .f32) (x4 : Vec Ideal S1x64 .f32) (p : Fin 5000) (q : Fin 64) :
    (k3_pay1 (F := Ideal) x0 x1 x2 x3 x4 (ix2 p q) : EReal)
      = Cert.CFConv.post (fun k => x0 (ix2 p k)) (Cert.CFConv.matOf x1) (Cert.CFConv.row0Of x2)
          (Cert.CFConv.matOf x3) (Cert.CFConv.row0Of x4) q := by
  unfold k3_pay1
  simp only [shapeCast_self]
  refine (aff_tile _ _ x4 p q).trans ?_
  show Cert.CFConv.aff _ (Cert.CFConv.matOf x3) (Cert.CFConv.row0Of x4) q
    = Cert.CFConv.aff (fun j => Cert.CFConv.ssp (Cert.CFConv.aff (fun k => x0 (ix2 p k)) (Cert.CFConv.matOf x1)
        (Cert.CFConv.row0Of x2) j)) (Cert.CFConv.matOf x3) (Cert.CFConv.row0Of x4) q
  refine congrArg (fun r => Cert.CFConv.aff r (Cert.CFConv.matOf x3) (Cert.CFConv.row0Of x4) q) (funext fun j => ?_)
  refine (ssp_tile _ (ix2 p j)).trans ?_
  exact congrArg Cert.CFConv.ssp (aff_tile _ _ x2 p j)

/-- Entry (p, q) of the stored tile of one node-update region: row `p` of the aggregated tile `x0` through the first
    linear map, the shifted softplus, and the second linear map. -/
theorem post4_tile (x0 : Vec Ideal S5000x64 .f32) (x1 : Vec Ideal S64x64 .f32) (x2 : Vec Ideal S1x64 .f32)
    (x3 : Vec Ideal S64x64 .f32) (x4 : Vec Ideal S1x64 .f32) (p : Fin 5000) (q : Fin 64) :
    (k4_pay1 (F := Ideal) x0 x1 x2 x3 x4 (ix2 p q) : EReal)
      = Cert.CFConv.post (fun k => x0 (ix2 p k)) (Cert.CFConv.matOf x1) (Cert.CFConv.row0Of x2)
          (Cert.CFConv.matOf x3) (Cert.CFConv.row0Of x4) q := by
  unfold k4_pay1
  simp only [shapeCast_self]
  refine (aff_tile _ _ x4 p q).trans ?_
  show Cert.CFConv.aff _ (Cert.CFConv.matOf x3) (Cert.CFConv.row0Of x4) q
    = Cert.CFConv.aff (fun j => Cert.CFConv.ssp (Cert.CFConv.aff (fun k => x0 (ix2 p k)) (Cert.CFConv.matOf x1)
        (Cert.CFConv.row0Of x2) j)) (Cert.CFConv.matOf x3) (Cert.CFConv.row0Of x4) q
  refine congrArg (fun r => Cert.CFConv.aff r (Cert.CFConv.matOf x3) (Cert.CFConv.row0Of x4) q) (funext fun j => ?_)
  refine (ssp_tile _ (ix2 p j)).trans ?_
  exact congrArg Cert.CFConv.ssp (aff_tile _ _ x2 p j)

end Cert.KernelIdeal.KVal

end
-- ==== Proof.KPostArr.lean ====
/-
  The node update's output array.

  The region sweeps ten grid points; point t reads rows 5000 t … 5000 t + 4999 of the aggregated messages, the two
  weights and the two bias rows whole, and writes back a tile to the same rows of the output. What it writes back is
  that row block of the node update of the WHOLE array of aggregated rows (a row of the result depends only on the same
  row of the input), and the ten row blocks cover the output. So after the region the output array is the node update of
  the array of aggregated rows, for any contents of the region's buffers at entry.
-/
import proofs.«116981_j2877628088816_2_alg».proof.Proof.Gen.KernelIdeal.Frame
import proofs.«116981_j2877628088816_2_alg».proof.Proof.KPostPay
import Idealize.ShloMosaic.Lib.Pipeline.Value

set_option maxRecDepth 16384

noncomputable section

open scoped BigOperators

namespace Cert.KernelIdeal.KVal

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The origin of a two-axis buffer, as the constant function. -/
theorem origin2p : (![0, 0] : Fin 2 → Nat) = fun _ => 0 := funext fun a => by fin_cases a <;> rfl

/-! ## The first edge type's node update -/

/-- What the body leaves in the output's staging buffer is the stored tile of its five loaded blocks: one store through
    the whole buffer, of the payload of five loads through whole buffers. -/
theorem out3_eq (x0 : Vec Ideal S5000x64 .f32) (x1 : Vec Ideal S64x64 .f32) (x2 : Vec Ideal S1x64 .f32)
    (x3 : Vec Ideal S64x64 .f32) (x4 : Vec Ideal S1x64 .f32) :
    out3_5 (F := Ideal) x0 x1 x2 x3 x4 = k3_pay1 x0 x1 x2 x3 x4 := by
  unfold out3_5
  rw [View.canon_unit_zero origin2p]
  simp only [View.ld_unit_zero (S := S5000x64) origin2p, View.ld_unit_zero (S := S64x64) origin2p,
    View.ld_unit_zero (S := S1x64) origin2p]

/-- The printed index maps, decided over the ten grid points: at point `t` the aggregated rows' and the output's block
    is row block `t`, column block 0; the two weights' and the two bias rows' block is always block (0, 0). -/
theorem idx3 : ∀ t : Fin cfg3.N, (win3_0.index t (0 : Fin 2) = t.val ∧ win3_0.index t (1 : Fin 2) = 0)
    ∧ (win3_5.index t (0 : Fin 2) = t.val ∧ win3_5.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0) :=
  (by decide +kernel : ∀ t : Fin grid3.N, _)

/-- Entry (p, k) of the aggregated rows' tile at point `t` is entry (5000 t + p, k) of the array. -/
theorem a_tile3 (c : Dev nD) (t : Fin cfg3.N) (p : Fin 5000) (k : Fin 64) (r : Fin 50000)
    (hr : r.val = 5000 * t.val + p.val) :
    (iblk3 V c 0 t : Vec Ideal S5000x64 .f32) (ix2 p k)
      = (V c (Pipeline.arrRef spec3 0) : S50000x64.Idx → EReal) (ix2 r k) := by
  obtain ⟨⟨e0, e1⟩, -⟩ := idx3 t
  unfold iblk3
  rw [View.read_apply]
  show V c (Pipeline.arrRef spec3 0) _ = V c (Pipeline.arrRef spec3 0) _
  congr 1
  funext a; apply Fin.ext
  match a with
  | ⟨0, _⟩ => show win3_0.index t 0 * 5000 + 1 * p.val = r.val; rw [e0, hr]; omega
  | ⟨1, _⟩ => show win3_0.index t 1 * 64 + 1 * k.val = k.val; rw [e1]; omega

/-- The first weight's tile at every point is the whole weight. -/
theorem whole3_1 (c : Dev nD) (t : Fin cfg3.N) :
    (iblk3 V c 1 t : Vec Ideal S64x64 .f32) = (V c (Pipeline.arrRef spec3 1) : S64x64.Idx → EReal) := by
  have e := idx3 t
  refine funext fun (j : S64x64.Idx) => ?_
  obtain ⟨k, f, rfl⟩ : ∃ (k : Fin 64) (f : Fin 64), j = ix2 k f := ⟨j 0, j 1, eq_ix2 j⟩
  unfold iblk3
  rw [View.read_apply]
  show V c (Pipeline.arrRef spec3 1) _ = V c (Pipeline.arrRef spec3 1) _
  congr 1
  funext a; apply Fin.ext
  match a with
  | ⟨0, _⟩ => show win3_1.index t 0 * 64 + 1 * k.val = k.val; rw [e.2.2.1.1]; omega
  | ⟨1, _⟩ => show win3_1.index t 1 * 64 + 1 * f.val = f.val; rw [e.2.2.1.2]; omega

/-- The first bias row's tile at every point is the whole row. -/
theorem whole3_2 (c : Dev nD) (t : Fin cfg3.N) :
    (iblk3 V c 2 t : Vec Ideal S1x64 .f32) = (V c (Pipeline.arrRef spec3 2) : S1x64.Idx → EReal) := by
  have e := idx3 t
  refine funext fun (j : S1x64.Idx) => ?_
  obtain ⟨k, f, rfl⟩ : ∃ (k : Fin 1) (f : Fin 64), j = ix2 k f := ⟨j 0, j 1, eq_ix2 j⟩
  unfold iblk3
  rw [View.read_apply]
  show V c (Pipeline.arrRef spec3 2) _ = V c (Pipeline.arrRef spec3 2) _
  congr 1
  funext a; apply Fin.ext
  match a with
  | ⟨0, _⟩ => show win3_2.index t 0 * 1 + 1 * k.val = k.val; rw [e.2.2.2.1.1]; omega
  | ⟨1, _⟩ => show win3_2.index t 1 * 64 + 1 * f.val = f.val; rw [e.2.2.2.1.2]; omega

/-- The second weight's tile at every point is the whole weight. -/
theorem whole3_3 (c : Dev nD) (t : Fin cfg3.N) :
    (iblk3 V c 3 t : Vec Ideal S64x64 .f32) = (V c (Pipeline.arrRef spec3 3) : S64x64.Idx → EReal) := by
  have e := idx3 t
  refine funext fun (j : S64x64.Idx) => ?_
  obtain ⟨k, f, rfl⟩ : ∃ (k : Fin 64) (f : Fin 64), j = ix2 k f := ⟨j 0, j 1, eq_ix2 j⟩
  unfold iblk3
  rw [View.read_apply]
  show V c (Pipeline.arrRef spec3 3) _ = V c (Pipeline.arrRef spec3 3) _
  congr 1
  funext a; apply Fin.ext
  match a with
  | ⟨0, _⟩ => show win3_3.index t 0 * 64 + 1 * k.val = k.val; rw [e.2.2.2.2.1.1]; omega
  | ⟨1, _⟩ => show win3_3.index t 1 * 64 + 1 * f.val = f.val; rw [e.2.2.2.2.1.2]; omega

/-- The second bias row's tile at every point is the whole row. -/
theorem whole3_4 (c : Dev nD) (t : Fin cfg3.N) :
    (iblk3 V c 4 t : Vec Ideal S1x64 .f32) = (V c (Pipeline.arrRef spec3 4) : S1x64.Idx → EReal) := by
  have e := idx3 t
  refine funext fun (j : S1x64.Idx) => ?_
  obtain ⟨k, f, rfl⟩ : ∃ (k : Fin 1) (f : Fin 64), j = ix2 k f := ⟨j 0, j 1, eq_ix2 j⟩
  unfold iblk3
  rw [View.read_apply]
  show V c (Pipeline.arrRef spec3 4) _ = V c (Pipeline.arrRef spec3 4) _
  congr 1
  funext a; apply Fin.ext
  match a with
  | ⟨0, _⟩ => show win3_4.index t 0 * 1 + 1 * k.val = k.val; rw [e.2.2.2.2.2.1]; omega
  | ⟨1, _⟩ => show win3_4.index t 1 * 64 + 1 * f.val = f.val; rw [e.2.2.2.2.2.2]; omega

/-- WHAT POINT `t` WRITES BACK is row block `t` of the node update of the whole array of aggregated rows: entry
    (p, q) of the stored tile is row `p` of the tile — row 5000 t + p of the array — through the node update, and the
    block's entry (p, q) sits in the array at (5000 t + p, q). -/
theorem flushed3 (c : Dev nD) (t : Fin cfg3.N) :
    (dat3 (F := Ideal) V c).flushed 5 t
      = ((cfg3.win 5).blk t).view.read (Elt Ideal)
          (Cert.CFConv.postArr (R := 50000) (V c (Pipeline.arrRef spec3 0)) (V c (Pipeline.arrRef spec3 1))
            (V c (Pipeline.arrRef spec3 2)) (V c (Pipeline.arrRef spec3 3)) (V c (Pipeline.arrRef spec3 4))) := by
  show (cfg3.win 5).cut (grid3.coords t) ((dat3 V c).after 5 t) = _
  rw [after3_5, out3_eq]
  obtain ⟨-, ⟨e4, e5⟩, -⟩ := idx3 t
  refine funext fun (j : S5000x64.Idx) => ?_
  obtain ⟨p, q, rfl⟩ : ∃ (p : Fin 5000) (q : Fin 64), j = ix2 p q := ⟨j 0, j 1, eq_ix2 j⟩
  have hN : t.val < 10 := by have h := t.isLt; have e : cfg3.N = 10 := N_3; omega
  have hr : 5000 * t.val + p.val < 50000 := by have := p.isLt; omega
  refine (post3_tile _ _ _ _ _ p q).trans ?_
  rw [View.read_apply]
  have he : ((cfg3.win 5).blk t).view.emb (ix2 p q) = ix2 (⟨5000 * t.val + p.val, hr⟩ : Fin 50000) q := by
    funext a; apply Fin.ext
    match a with
    | ⟨0, _⟩ => show win3_5.index t 0 * 5000 + 1 * p.val = 5000 * t.val + p.val; rw [e4]; omega
    | ⟨1, _⟩ => show win3_5.index t 1 * 64 + 1 * q.val = q.val; rw [e5]; omega
  show _ = Cert.CFConv.postArr (R := 50000) _ _ _ _ _ (((cfg3.win 5).blk t).view.emb (ix2 p q))
  rw [he]
  show Cert.CFConv.post _ _ _ _ _ q = Cert.CFConv.post _ _ _ _ _ q
  congr 1
  · funext k; exact a_tile3 V c t p k _ rfl
  · exact congrArg Cert.CFConv.matOf (whole3_1 V c t)
  · exact congrArg Cert.CFConv.row0Of (whole3_2 V c t)
  · exact congrArg Cert.CFConv.matOf (whole3_3 V c t)
  · exact congrArg Cert.CFConv.row0Of (whole3_4 V c t)

/-- Row `r` of the output is in the block of point `r / 5000`: the ten blocks cover the array. -/
theorem cover3 (i : S50000x64.Idx) :
    ∃ t : Fin cfg3.N, (cfg3.win 5).flush t = true ∧ i ∈ ((cfg3.win 5).blk t).view.set := by
  have h0 : (i 0).val < 50000 := (i 0).isLt
  have h1 : (i 1).val < 64 := (i 1).isLt
  have ht : (i 0).val / 5000 < cfg3.N := by rw [show cfg3.N = 10 from N_3]; omega
  obtain ⟨-, ⟨e4, e5⟩, -⟩ := idx3 ⟨(i 0).val / 5000, ht⟩
  refine ⟨⟨(i 0).val / 5000, ht⟩, flush3_5 _, ?_⟩
  show i ∈ ((View.whole main_v41).slice (win3_5.rect ⟨(i 0).val / 5000, ht⟩)).set
  rw [View.set_slice_whole, Rect.mem_set_unit]
  intro a
  match a with
  | ⟨0, _⟩ =>
    show win3_5.index ⟨(i 0).val / 5000, ht⟩ 0 * 5000 ≤ (i 0).val
      ∧ (i 0).val < win3_5.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win3_5.index ⟨(i 0).val / 5000, ht⟩ 1 * 64 ≤ (i 1).val
      ∧ (i 1).val < win3_5.index ⟨(i 0).val / 5000, ht⟩ 1 * 64 + 64
    rw [e5]; omega

/-- THE OUTPUT ARRAY after the region: the node update of the whole array of aggregated rows, whatever the region found
    in its buffers. -/
theorem arr3 (c : Dev nD) :
    (dat3 (F := Ideal) V c).arrAt 5 cfg3.N
      = Cert.CFConv.postArr (R := 50000) (V c (Pipeline.arrRef spec3 0)) (V c (Pipeline.arrRef spec3 1))
          (V c (Pipeline.arrRef spec3 2)) (V c (Pipeline.arrRef spec3 3)) (V c (Pipeline.arrRef spec3 4)) :=
  (dat3 V c).arrAt_eq_of_cover 5 _ (fun t _ => flushed3 V c t) (cover3)

/-! ## The second edge type's node update -/

/-- What the body leaves in the output's staging buffer is the stored tile of its five loaded blocks: one store through
    the whole buffer, of the payload of five loads through whole buffers. -/
theorem out4_eq (x0 : Vec Ideal S5000x64 .f32) (x1 : Vec Ideal S64x64 .f32) (x2 : Vec Ideal S1x64 .f32)
    (x3 : Vec Ideal S64x64 .f32) (x4 : Vec Ideal S1x64 .f32) :
    out4_5 (F := Ideal) x0 x1 x2 x3 x4 = k4_pay1 x0 x1 x2 x3 x4 := by
  unfold out4_5
  rw [View.canon_unit_zero origin2p]
  simp only [View.ld_unit_zero (S := S5000x64) origin2p, View.ld_unit_zero (S := S64x64) origin2p,
    View.ld_unit_zero (S := S1x64) origin2p]

/-- The printed index maps, decided over the ten grid points: at point `t` the aggregated rows' and the output's block
    is row block `t`, column block 0; the two weights' and the two bias rows' block is always block (0, 0). -/
theorem idx4 : ∀ t : Fin cfg4.N, (win4_0.index t (0 : Fin 2) = t.val ∧ win4_0.index t (1 : Fin 2) = 0)
    ∧ (win4_5.index t (0 : Fin 2) = t.val ∧ win4_5.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0) :=
  (by decide +kernel : ∀ t : Fin grid4.N, _)

/-- Entry (p, k) of the aggregated rows' tile at point `t` is entry (5000 t + p, k) of the array. -/
theorem a_tile4 (c : Dev nD) (t : Fin cfg4.N) (p : Fin 5000) (k : Fin 64) (r : Fin 50000)
    (hr : r.val = 5000 * t.val + p.val) :
    (iblk4 V c 0 t : Vec Ideal S5000x64 .f32) (ix2 p k)
      = (V c (Pipeline.arrRef spec4 0) : S50000x64.Idx → EReal) (ix2 r k) := by
  obtain ⟨⟨e0, e1⟩, -⟩ := idx4 t
  unfold iblk4
  rw [View.read_apply]
  show V c (Pipeline.arrRef spec4 0) _ = V c (Pipeline.arrRef spec4 0) _
  congr 1
  funext a; apply Fin.ext
  match a with
  | ⟨0, _⟩ => show win4_0.index t 0 * 5000 + 1 * p.val = r.val; rw [e0, hr]; omega
  | ⟨1, _⟩ => show win4_0.index t 1 * 64 + 1 * k.val = k.val; rw [e1]; omega

/-- The first weight's tile at every point is the whole weight. -/
theorem whole4_1 (c : Dev nD) (t : Fin cfg4.N) :
    (iblk4 V c 1 t : Vec Ideal S64x64 .f32) = (V c (Pipeline.arrRef spec4 1) : S64x64.Idx → EReal) := by
  have e := idx4 t
  refine funext fun (j : S64x64.Idx) => ?_
  obtain ⟨k, f, rfl⟩ : ∃ (k : Fin 64) (f : Fin 64), j = ix2 k f := ⟨j 0, j 1, eq_ix2 j⟩
  unfold iblk4
  rw [View.read_apply]
  show V c (Pipeline.arrRef spec4 1) _ = V c (Pipeline.arrRef spec4 1) _
  congr 1
  funext a; apply Fin.ext
  match a with
  | ⟨0, _⟩ => show win4_1.index t 0 * 64 + 1 * k.val = k.val; rw [e.2.2.1.1]; omega
  | ⟨1, _⟩ => show win4_1.index t 1 * 64 + 1 * f.val = f.val; rw [e.2.2.1.2]; omega

/-- The first bias row's tile at every point is the whole row. -/
theorem whole4_2 (c : Dev nD) (t : Fin cfg4.N) :
    (iblk4 V c 2 t : Vec Ideal S1x64 .f32) = (V c (Pipeline.arrRef spec4 2) : S1x64.Idx → EReal) := by
  have e := idx4 t
  refine funext fun (j : S1x64.Idx) => ?_
  obtain ⟨k, f, rfl⟩ : ∃ (k : Fin 1) (f : Fin 64), j = ix2 k f := ⟨j 0, j 1, eq_ix2 j⟩
  unfold iblk4
  rw [View.read_apply]
  show V c (Pipeline.arrRef spec4 2) _ = V c (Pipeline.arrRef spec4 2) _
  congr 1
  funext a; apply Fin.ext
  match a with
  | ⟨0, _⟩ => show win4_2.index t 0 * 1 + 1 * k.val = k.val; rw [e.2.2.2.1.1]; omega
  | ⟨1, _⟩ => show win4_2.index t 1 * 64 + 1 * f.val = f.val; rw [e.2.2.2.1.2]; omega

/-- The second weight's tile at every point is the whole weight. -/
theorem whole4_3 (c : Dev nD) (t : Fin cfg4.N) :
    (iblk4 V c 3 t : Vec Ideal S64x64 .f32) = (V c (Pipeline.arrRef spec4 3) : S64x64.Idx → EReal) := by
  have e := idx4 t
  refine funext fun (j : S64x64.Idx) => ?_
  obtain ⟨k, f, rfl⟩ : ∃ (k : Fin 64) (f : Fin 64), j = ix2 k f := ⟨j 0, j 1, eq_ix2 j⟩
  unfold iblk4
  rw [View.read_apply]
  show V c (Pipeline.arrRef spec4 3) _ = V c (Pipeline.arrRef spec4 3) _
  congr 1
  funext a; apply Fin.ext
  match a with
  | ⟨0, _⟩ => show win4_3.index t 0 * 64 + 1 * k.val = k.val; rw [e.2.2.2.2.1.1]; omega
  | ⟨1, _⟩ => show win4_3.index t 1 * 64 + 1 * f.val = f.val; rw [e.2.2.2.2.1.2]; omega

/-- The second bias row's tile at every point is the whole row. -/
theorem whole4_4 (c : Dev nD) (t : Fin cfg4.N) :
    (iblk4 V c 4 t : Vec Ideal S1x64 .f32) = (V c (Pipeline.arrRef spec4 4) : S1x64.Idx → EReal) := by
  have e := idx4 t
  refine funext fun (j : S1x64.Idx) => ?_
  obtain ⟨k, f, rfl⟩ : ∃ (k : Fin 1) (f : Fin 64), j = ix2 k f := ⟨j 0, j 1, eq_ix2 j⟩
  unfold iblk4
  rw [View.read_apply]
  show V c (Pipeline.arrRef spec4 4) _ = V c (Pipeline.arrRef spec4 4) _
  congr 1
  funext a; apply Fin.ext
  match a with
  | ⟨0, _⟩ => show win4_4.index t 0 * 1 + 1 * k.val = k.val; rw [e.2.2.2.2.2.1]; omega
  | ⟨1, _⟩ => show win4_4.index t 1 * 64 + 1 * f.val = f.val; rw [e.2.2.2.2.2.2]; omega

/-- WHAT POINT `t` WRITES BACK is row block `t` of the node update of the whole array of aggregated rows: entry
    (p, q) of the stored tile is row `p` of the tile — row 5000 t + p of the array — through the node update, and the
    block's entry (p, q) sits in the array at (5000 t + p, q). -/
theorem flushed4 (c : Dev nD) (t : Fin cfg4.N) :
    (dat4 (F := Ideal) V c).flushed 5 t
      = ((cfg4.win 5).blk t).view.read (Elt Ideal)
          (Cert.CFConv.postArr (R := 50000) (V c (Pipeline.arrRef spec4 0)) (V c (Pipeline.arrRef spec4 1))
            (V c (Pipeline.arrRef spec4 2)) (V c (Pipeline.arrRef spec4 3)) (V c (Pipeline.arrRef spec4 4))) := by
  show (cfg4.win 5).cut (grid4.coords t) ((dat4 V c).after 5 t) = _
  rw [after4_5, out4_eq]
  obtain ⟨-, ⟨e4, e5⟩, -⟩ := idx4 t
  refine funext fun (j : S5000x64.Idx) => ?_
  obtain ⟨p, q, rfl⟩ : ∃ (p : Fin 5000) (q : Fin 64), j = ix2 p q := ⟨j 0, j 1, eq_ix2 j⟩
  have hN : t.val < 10 := by have h := t.isLt; have e : cfg4.N = 10 := N_4; omega
  have hr : 5000 * t.val + p.val < 50000 := by have := p.isLt; omega
  refine (post4_tile _ _ _ _ _ p q).trans ?_
  rw [View.read_apply]
  have he : ((cfg4.win 5).blk t).view.emb (ix2 p q) = ix2 (⟨5000 * t.val + p.val, hr⟩ : Fin 50000) q := by
    funext a; apply Fin.ext
    match a with
    | ⟨0, _⟩ => show win4_5.index t 0 * 5000 + 1 * p.val = 5000 * t.val + p.val; rw [e4]; omega
    | ⟨1, _⟩ => show win4_5.index t 1 * 64 + 1 * q.val = q.val; rw [e5]; omega
  show _ = Cert.CFConv.postArr (R := 50000) _ _ _ _ _ (((cfg4.win 5).blk t).view.emb (ix2 p q))
  rw [he]
  show Cert.CFConv.post _ _ _ _ _ q = Cert.CFConv.post _ _ _ _ _ q
  congr 1
  · funext k; exact a_tile4 V c t p k _ rfl
  · exact congrArg Cert.CFConv.matOf (whole4_1 V c t)
  · exact congrArg Cert.CFConv.row0Of (whole4_2 V c t)
  · exact congrArg Cert.CFConv.matOf (whole4_3 V c t)
  · exact congrArg Cert.CFConv.row0Of (whole4_4 V c t)

/-- Row `r` of the output is in the block of point `r / 5000`: the ten blocks cover the array. -/
theorem cover4 (i : S50000x64.Idx) :
    ∃ t : Fin cfg4.N, (cfg4.win 5).flush t = true ∧ i ∈ ((cfg4.win 5).blk t).view.set := by
  have h0 : (i 0).val < 50000 := (i 0).isLt
  have h1 : (i 1).val < 64 := (i 1).isLt
  have ht : (i 0).val / 5000 < cfg4.N := by rw [show cfg4.N = 10 from N_4]; omega
  obtain ⟨-, ⟨e4, e5⟩, -⟩ := idx4 ⟨(i 0).val / 5000, ht⟩
  refine ⟨⟨(i 0).val / 5000, ht⟩, flush4_5 _, ?_⟩
  show i ∈ ((View.whole main_v43).slice (win4_5.rect ⟨(i 0).val / 5000, ht⟩)).set
  rw [View.set_slice_whole, Rect.mem_set_unit]
  intro a
  match a with
  | ⟨0, _⟩ =>
    show win4_5.index ⟨(i 0).val / 5000, ht⟩ 0 * 5000 ≤ (i 0).val
      ∧ (i 0).val < win4_5.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win4_5.index ⟨(i 0).val / 5000, ht⟩ 1 * 64 ≤ (i 1).val
      ∧ (i 1).val < win4_5.index ⟨(i 0).val / 5000, ht⟩ 1 * 64 + 64
    rw [e5]; omega

/-- THE OUTPUT ARRAY after the region: the node update of the whole array of aggregated rows, whatever the region found
    in its buffers. -/
theorem arr4 (c : Dev nD) :
    (dat4 (F := Ideal) V c).arrAt 5 cfg4.N
      = Cert.CFConv.postArr (R := 50000) (V c (Pipeline.arrRef spec4 0)) (V c (Pipeline.arrRef spec4 1))
          (V c (Pipeline.arrRef spec4 2)) (V c (Pipeline.arrRef spec4 3)) (V c (Pipeline.arrRef spec4 4)) :=
  (dat4 V c).arrAt_eq_of_cover 5 _ (fun t _ => flushed4 V c t) (cover4)

end Cert.KernelIdeal.KVal

end
-- ==== Proof.KChain.lean ====
/-
  The two results of the kernel's run as functions of the argument arrays.

  The buffer contents are folded through @main's eight segments: a region leaves its output array at what its blocks
  wrote and every other buffer as it found it; a host stretch applies its operations. Walking each result buffer back
  through the boundaries gives it as a closed term of the launch memory: the node regions' function `postArr` of the
  scattered half of the filter region's `msgArr`, whose gathered operand is the linear regions' `linArr`.
-/
import proofs.«116981_j2877628088816_2_alg».proof.Proof.Gen.KernelIdeal.Frame
import proofs.«116981_j2877628088816_2_alg».proof.Proof.KHost
import proofs.«116981_j2877628088816_2_alg».proof.Proof.Spec
import proofs.«116981_j2877628088816_2_alg».proof.Proof.KClosed
import proofs.«116981_j2877628088816_2_alg».proof.Proof.KLinArr
import proofs.«116981_j2877628088816_2_alg».proof.Proof.KFilterArr
import proofs.«116981_j2877628088816_2_alg».proof.Proof.KPostArr

set_option maxRecDepth 16384

noncomputable section

namespace Cert.KernelIdeal.KChain

open Cert.KernelIdeal Cert.KernelIdeal.Gen Cert.KernelIdeal.KHost Cert.KernelIdeal.KClosed Cert.CFConv
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The messages at the launch memory's arguments. -/
abbrev msgAt : (⟨S1600000x64, .f32⟩ : BufTy).Contents (Elt Ideal) := msgCat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15))
/-- The first result at the launch memory's arguments. -/
abbrev out0At : (⟨S50000x64, .f32⟩ : BufTy).Contents (Elt Ideal) := out0K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg13)) (m ((c : Thread nD τ).loc main_arg14)) (m ((c : Thread nD τ).loc main_arg18)) (m ((c : Thread nD τ).loc main_arg19))
/-- The second result at the launch memory's arguments. -/
abbrev out1At : (⟨S50000x64, .f32⟩ : BufTy).Contents (Elt Ideal) := out1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) (m ((c : Thread nD τ).loc main_arg17)) (m ((c : Thread nD τ).loc main_arg18)) (m ((c : Thread nD τ).loc main_arg19))

/-! ## An argument buffer at each boundary -/

theorem W0_at (b : Ref sig .tc) : W0 m ρ c (Proc.devRef .tc b) = m ((c : Thread nD τ).loc b) := rfl

/-- After the two linear regions a buffer that is an array of neither holds what was launched. -/
theorem W2_at (b : Ref sig .tc) (h0 : ∀ w, Pipeline.arrRef spec0 w ≠ b) (h1 : ∀ w, Pipeline.arrRef spec1 w ≠ b) :
    W2 m ρ c (Proc.devRef .tc b) = m ((c : Thread nD τ).loc b) :=
  (W2_of_ne m ρ c b h1).trans (W1_of_ne m ρ c b h0)

/-! ## After the two linear regions -/

theorem W2_v0 : W2 m ρ c (Proc.devRef .tc main_v0) = linArr (m ((c : Thread nD τ).loc main_arg0)) (m ((c : Thread nD τ).loc main_arg12)) :=
  (W2_of_ne m ρ c main_v0 (by decide)).trans ((W1_arr m ρ c 2).trans (KVal.arr0 (V0 m ρ) c))

theorem W2_v1 : W2 m ρ c (Proc.devRef .tc main_v1) = linArr (m ((c : Thread nD τ).loc main_arg1)) (m ((c : Thread nD τ).loc main_arg15)) :=
  (W2_arr m ρ c 2).trans ((KVal.arr1 (V1 m ρ) c).trans
    (linArr_congr (W1_of_ne m ρ c main_arg1 (by decide)) (W1_of_ne m ρ c main_arg15 (by decide))))

/-! ## At the filter region's entry -/

theorem V3_0 : V3 m ρ c (Pipeline.arrRef spec2 0)
    = concatenate S1600000x50 0 [⟨S800000x50, (m ((c : Thread nD τ).loc main_arg6))⟩, ⟨S800000x50, (m ((c : Thread nD τ).loc main_arg7))⟩] concatenates_S800000x50_S800000x50_S1600000x50_d0 := by
  show StableHlo.after hostOps2 (W2 m ρ c) (Proc.devRef .tc main_v20) = _
  rw [after2, B_v20, A_arg6, A_arg7, W2_at m ρ c main_arg6 (by decide) (by decide), W2_at m ρ c main_arg7 (by decide) (by decide)]

theorem V3_1 : V3 m ρ c (Pipeline.arrRef spec2 1)
    = concatenate S1600000x64 0 [⟨S800000x64, gathered (F := Ideal) (linArr (m ((c : Thread nD τ).loc main_arg0)) (m ((c : Thread nD τ).loc main_arg12))) (m ((c : Thread nD τ).loc main_arg2))⟩,
        ⟨S800000x64, gathered (F := Ideal) (linArr (m ((c : Thread nD τ).loc main_arg1)) (m ((c : Thread nD τ).loc main_arg15))) (m ((c : Thread nD τ).loc main_arg3))⟩] concatenates_S800000x64_S800000x64_S1600000x64_d0 := by
  show StableHlo.after hostOps2 (W2 m ρ c) (Proc.devRef .tc main_v21) = _
  rw [after2, B_v21, A_v10, A_v19, W2_v0 m ρ c, W2_v1 m ρ c,
    W2_at m ρ c main_arg2 (by decide) (by decide), W2_at m ρ c main_arg3 (by decide) (by decide)]

theorem V3_2 : V3 m ρ c (Pipeline.arrRef spec2 2)
    = colTab (F := Ideal) (concatenate S1600000 0 [⟨S800000, (m ((c : Thread nD τ).loc main_arg4))⟩, ⟨S800000, (m ((c : Thread nD τ).loc main_arg5))⟩] concatenates_S800000_S800000_S1600000_d0) := by
  show StableHlo.after hostOps2 (W2 m ρ c) (Proc.devRef .tc main_v23) = _
  rw [after2, B_v23, A_arg4, A_arg5, W2_at m ρ c main_arg4 (by decide) (by decide), W2_at m ρ c main_arg5 (by decide) (by decide)]

theorem V3_3 : V3 m ρ c (Pipeline.arrRef spec2 3) = (m ((c : Thread nD τ).loc main_arg8)) := by
  show StableHlo.after hostOps2 (W2 m ρ c) (Proc.devRef .tc main_arg8) = _
  rw [after2, B_arg8, A_arg8, W2_at m ρ c main_arg8 (by decide) (by decide)]

theorem V3_4 : V3 m ρ c (Pipeline.arrRef spec2 4) = rowTab (F := Ideal) (m ((c : Thread nD τ).loc main_arg9)) := by
  show StableHlo.after hostOps2 (W2 m ρ c) (Proc.devRef .tc main_v24) = _
  rw [after2, B_v24, A_arg9, W2_at m ρ c main_arg9 (by decide) (by decide)]

theorem V3_5 : V3 m ρ c (Pipeline.arrRef spec2 5) = (m ((c : Thread nD τ).loc main_arg10)) := by
  show StableHlo.after hostOps2 (W2 m ρ c) (Proc.devRef .tc main_arg10) = _
  rw [after2, B_arg10, A_arg10, W2_at m ρ c main_arg10 (by decide) (by decide)]

theorem V3_6 : V3 m ρ c (Pipeline.arrRef spec2 6) = rowTab (F := Ideal) (m ((c : Thread nD τ).loc main_arg11)) := by
  show StableHlo.after hostOps2 (W2 m ρ c) (Proc.devRef .tc main_v25) = _
  rw [after2, B_v25, A_arg11, W2_at m ρ c main_arg11 (by decide) (by decide)]

/-! ## After the filter region -/

theorem W4_v26 : W4 m ρ c (Proc.devRef .tc main_v26) = msgAt m c :=
  (W4_arr m ρ c 7).trans ((KVal2.arr2 (V3 m ρ) c).trans (msgArr_congr (V3_0 m ρ c) (V3_1 m ρ c) (V3_2 m ρ c) (V3_3 m ρ c) (V3_4 m ρ c) (V3_5 m ρ c) (V3_6 m ρ c)))

theorem W4_arg2 : W4 m ρ c (Proc.devRef .tc main_arg2) = (m ((c : Thread nD τ).loc main_arg2)) :=
  (W4_of_ne m ρ c main_arg2 (by decide)).trans (by
    show StableHlo.after hostOps2 (W2 m ρ c) (Proc.devRef .tc main_arg2) = _
    rw [after2, B_arg2, A_arg2, W2_at m ρ c main_arg2 (by decide) (by decide)])
theorem W4_arg3 : W4 m ρ c (Proc.devRef .tc main_arg3) = (m ((c : Thread nD τ).loc main_arg3)) :=
  (W4_of_ne m ρ c main_arg3 (by decide)).trans (by
    show StableHlo.after hostOps2 (W2 m ρ c) (Proc.devRef .tc main_arg3) = _
    rw [after2, B_arg3, A_arg3, W2_at m ρ c main_arg3 (by decide) (by decide)])
theorem W4_arg13 : W4 m ρ c (Proc.devRef .tc main_arg13) = (m ((c : Thread nD τ).loc main_arg13)) :=
  (W4_of_ne m ρ c main_arg13 (by decide)).trans (by
    show StableHlo.after hostOps2 (W2 m ρ c) (Proc.devRef .tc main_arg13) = _
    rw [after2, B_arg13, A_arg13, W2_at m ρ c main_arg13 (by decide) (by decide)])
theorem W4_arg14 : W4 m ρ c (Proc.devRef .tc main_arg14) = (m ((c : Thread nD τ).loc main_arg14)) :=
  (W4_of_ne m ρ c main_arg14 (by decide)).trans (by
    show StableHlo.after hostOps2 (W2 m ρ c) (Proc.devRef .tc main_arg14) = _
    rw [after2, B_arg14, A_arg14, W2_at m ρ c main_arg14 (by decide) (by decide)])
theorem W4_arg16 : W4 m ρ c (Proc.devRef .tc main_arg16) = (m ((c : Thread nD τ).loc main_arg16)) :=
  (W4_of_ne m ρ c main_arg16 (by decide)).trans (by
    show StableHlo.after hostOps2 (W2 m ρ c) (Proc.devRef .tc main_arg16) = _
    rw [after2, B_arg16, A_arg16, W2_at m ρ c main_arg16 (by decide) (by decide)])
theorem W4_arg17 : W4 m ρ c (Proc.devRef .tc main_arg17) = (m ((c : Thread nD τ).loc main_arg17)) :=
  (W4_of_ne m ρ c main_arg17 (by decide)).trans (by
    show StableHlo.after hostOps2 (W2 m ρ c) (Proc.devRef .tc main_arg17) = _
    rw [after2, B_arg17, A_arg17, W2_at m ρ c main_arg17 (by decide) (by decide)])
theorem W4_arg18 : W4 m ρ c (Proc.devRef .tc main_arg18) = (m ((c : Thread nD τ).loc main_arg18)) :=
  (W4_of_ne m ρ c main_arg18 (by decide)).trans (by
    show StableHlo.after hostOps2 (W2 m ρ c) (Proc.devRef .tc main_arg18) = _
    rw [after2, B_arg18, A_arg18, W2_at m ρ c main_arg18 (by decide) (by decide)])
theorem W4_arg19 : W4 m ρ c (Proc.devRef .tc main_arg19) = (m ((c : Thread nD τ).loc main_arg19)) :=
  (W4_of_ne m ρ c main_arg19 (by decide)).trans (by
    show StableHlo.after hostOps2 (W2 m ρ c) (Proc.devRef .tc main_arg19) = _
    rw [after2, B_arg19, A_arg19, W2_at m ρ c main_arg19 (by decide) (by decide)])

/-! ## At the first node region's entry -/

theorem V5_0 : V5 m ρ c (Pipeline.arrRef spec3 0)
    = scattered (F := Ideal) (m ((c : Thread nD τ).loc main_arg2)) (extractStridedSlice S800000x64 ![0, 0] (msgAt m c) slices_S1600000x64_S800000x64_0_0) := by
  show StableHlo.after hostOps3 (W4 m ρ c) (Proc.devRef .tc main_v33) = _
  rw [H3_v33, W4_arg2, W4_v26 m ρ c]

theorem V5_1 : V5 m ρ c (Pipeline.arrRef spec3 1) = (m ((c : Thread nD τ).loc main_arg13)) := by
  show StableHlo.after hostOps3 (W4 m ρ c) (Proc.devRef .tc main_arg13) = _
  rw [H3_arg13, W4_arg13]
theorem V5_2 : V5 m ρ c (Pipeline.arrRef spec3 2) = rowTab (F := Ideal) (m ((c : Thread nD τ).loc main_arg14)) := by
  show StableHlo.after hostOps3 (W4 m ρ c) (Proc.devRef .tc main_v40) = _
  rw [H3_v40, W4_arg14]
theorem V5_3 : V5 m ρ c (Pipeline.arrRef spec3 3) = (m ((c : Thread nD τ).loc main_arg18)) := by
  show StableHlo.after hostOps3 (W4 m ρ c) (Proc.devRef .tc main_arg18) = _
  rw [H3_arg18, W4_arg18]
theorem V5_4 : V5 m ρ c (Pipeline.arrRef spec3 4) = rowTab (F := Ideal) (m ((c : Thread nD τ).loc main_arg19)) := by
  show StableHlo.after hostOps3 (W4 m ρ c) (Proc.devRef .tc main_v39) = _
  rw [H3_v39, W4_arg19]

theorem W5_v38 : W5 m ρ c (Proc.devRef .tc main_v38)
    = scattered (F := Ideal) (m ((c : Thread nD τ).loc main_arg3)) (extractStridedSlice S800000x64 ![800000, 0] (msgAt m c) slices_S1600000x64_S800000x64_800000_0) := by
  show StableHlo.after hostOps3 (W4 m ρ c) (Proc.devRef .tc main_v38) = _
  rw [H3_v38, W4_arg3, W4_v26 m ρ c]
theorem W5_arg16 : W5 m ρ c (Proc.devRef .tc main_arg16) = (m ((c : Thread nD τ).loc main_arg16)) := by
  show StableHlo.after hostOps3 (W4 m ρ c) (Proc.devRef .tc main_arg16) = _
  rw [H3_arg16, W4_arg16]
theorem W5_arg17 : W5 m ρ c (Proc.devRef .tc main_arg17) = (m ((c : Thread nD τ).loc main_arg17)) := by
  show StableHlo.after hostOps3 (W4 m ρ c) (Proc.devRef .tc main_arg17) = _
  rw [H3_arg17, W4_arg17]

/-! ## After the first node region -/

theorem W6_v41 : W6 m ρ c (Proc.devRef .tc main_v41) = out0At m c :=
  (W6_arr m ρ c 5).trans ((KVal.arr3 (V5 m ρ) c).trans (postArr_congr (V5_0 m ρ c) (V5_1 m ρ c) (V5_2 m ρ c) (V5_3 m ρ c) (V5_4 m ρ c)))

theorem W6_v38 : W6 m ρ c (Proc.devRef .tc main_v38)
    = scattered (F := Ideal) (m ((c : Thread nD τ).loc main_arg3)) (extractStridedSlice S800000x64 ![800000, 0] (msgAt m c) slices_S1600000x64_S800000x64_800000_0) :=
  (W6_of_ne m ρ c main_v38 (by decide)).trans (W5_v38 m ρ c)
theorem W6_arg16 : W6 m ρ c (Proc.devRef .tc main_arg16) = (m ((c : Thread nD τ).loc main_arg16)) :=
  (W6_of_ne m ρ c main_arg16 (by decide)).trans (W5_arg16 m ρ c)
theorem W6_arg17 : W6 m ρ c (Proc.devRef .tc main_arg17) = (m ((c : Thread nD τ).loc main_arg17)) :=
  (W6_of_ne m ρ c main_arg17 (by decide)).trans (W5_arg17 m ρ c)
theorem W6_arg18 : W6 m ρ c (Proc.devRef .tc main_arg18) = (m ((c : Thread nD τ).loc main_arg18)) :=
  (W6_arr m ρ c 3).trans (((dat3 (V5 m ρ) c).arrAt_in 3 rfl _).trans ((A_eq3 (V5 m ρ) c 3).trans (V5_3 m ρ c)))
theorem W6_v39 : W6 m ρ c (Proc.devRef .tc main_v39) = rowTab (F := Ideal) (m ((c : Thread nD τ).loc main_arg19)) :=
  (W6_arr m ρ c 4).trans (((dat3 (V5 m ρ) c).arrAt_in 4 rfl _).trans ((A_eq3 (V5 m ρ) c 4).trans (V5_4 m ρ c)))

/-! ## At the second node region's entry, and the results -/

theorem V7_0 : V7 m ρ c (Pipeline.arrRef spec4 0)
    = scattered (F := Ideal) (m ((c : Thread nD τ).loc main_arg3)) (extractStridedSlice S800000x64 ![800000, 0] (msgAt m c) slices_S1600000x64_S800000x64_800000_0) := by
  show StableHlo.after hostOps4 (W6 m ρ c) (Proc.devRef .tc main_v38) = _
  rw [H4_v38, W6_v38 m ρ c]
theorem V7_1 : V7 m ρ c (Pipeline.arrRef spec4 1) = (m ((c : Thread nD τ).loc main_arg16)) := by
  show StableHlo.after hostOps4 (W6 m ρ c) (Proc.devRef .tc main_arg16) = _
  rw [H4_arg16, W6_arg16]
theorem V7_2 : V7 m ρ c (Pipeline.arrRef spec4 2) = rowTab (F := Ideal) (m ((c : Thread nD τ).loc main_arg17)) := by
  show StableHlo.after hostOps4 (W6 m ρ c) (Proc.devRef .tc main_v42) = _
  rw [H4_v42, W6_arg17]
theorem V7_3 : V7 m ρ c (Pipeline.arrRef spec4 3) = (m ((c : Thread nD τ).loc main_arg18)) := by
  show StableHlo.after hostOps4 (W6 m ρ c) (Proc.devRef .tc main_arg18) = _
  rw [H4_arg18, W6_arg18]
theorem V7_4 : V7 m ρ c (Pipeline.arrRef spec4 4) = rowTab (F := Ideal) (m ((c : Thread nD τ).loc main_arg19)) := by
  show StableHlo.after hostOps4 (W6 m ρ c) (Proc.devRef .tc main_v39) = _
  rw [H4_v39, W6_v39]

/-- The first result buffer at the last boundary. -/
theorem W8_v41 : W8 m ρ c (Proc.devRef .tc main_v41) = out0At m c :=
  (W8_of_ne m ρ c main_v41 (by decide)).trans (by
    show StableHlo.after hostOps4 (W6 m ρ c) (Proc.devRef .tc main_v41) = _
    rw [H4_v41, W6_v41 m ρ c])

/-- The second result buffer at the last boundary. -/
theorem W8_v43 : W8 m ρ c (Proc.devRef .tc main_v43) = out1At m c :=
  (W8_arr m ρ c 5).trans ((KVal.arr4 (V7 m ρ) c).trans (postArr_congr (V7_0 m ρ c) (V7_1 m ρ c) (V7_2 m ρ c) (V7_3 m ρ c) (V7_4 m ρ c)))

end Cert.KernelIdeal.KChain

end
-- ==== Proof.HostLayout.lean ====
/-
  The layout operations of the host program, read at an index.

  The host program concatenates the two edge types' arrays along the edge axis (800 000 + 800 000 rows), reshapes a
  flat vector into a column or a row, and slices the 1 600 000-row result back into its two halves. Each lemma here
  reads one such operation at one index: row `e` of a concatenation is row `e` of the first piece, row
  `800000 + e` is row `e` of the second piece; the column reshape of a flat vector reads `(e, 0)` at `e`; the row
  reshape reads `(0, f)` at `f`; a slice at row offset `o` reads row `e` at row `o + e`.

  Every lemma is over a variable array of any element type and over ANY proof of the operation's shape relation, so
  it applies whichever proof of that relation a program cites.
-/
import proofs.«116981_j2877628088816_2_alg».proof.KernelIdeal
import Idealize.ShloMosaic.Lib.Pipeline.Value
import Idealize.ShloMosaic.Lib.ValueIdx

noncomputable section

namespace Cert.KernelIdeal.HostLayout

open Cert.KernelIdeal Idealize.ShloMosaic Idealize.ShloMosaic.ValueIdx

variable {α : Type}

/-! ## Concatenation of two equal pieces along the leading axis, at any sizes -/

/-- Rank 2, a row of the first piece. -/
theorem cat2_lo {n m w : Nat} (a b : (⟨2, ![n, w]⟩ : Shape).Idx → α)
    (h : Shape.Concatenates [(⟨2, ![n, w]⟩ : Shape), ⟨2, ![n, w]⟩] ⟨2, ![m, w]⟩ 0)
    (e : Fin n) (g : Fin w) (he : e.val < m) :
    concatenate (⟨2, ![m, w]⟩ : Shape) 0 [⟨⟨2, ![n, w]⟩, a⟩, ⟨⟨2, ![n, w]⟩, b⟩] h (ix2 (⟨e.val, he⟩ : Fin m) g)
      = a (ix2 e g) := by
  refine concatenate_pair_apply_left (t := ⟨2, ![m, w]⟩) (s₁ := ⟨2, ![n, w]⟩) (s₂ := ⟨2, ![n, w]⟩) 0 a b h _ rfl (ix2 e g) fun c => ?_
  match c with
  | ⟨0, _⟩ => rfl
  | ⟨1, _⟩ => rfl

/-- Rank 2, a row of the second piece. -/
theorem cat2_hi {n m w : Nat} (a b : (⟨2, ![n, w]⟩ : Shape).Idx → α)
    (h : Shape.Concatenates [(⟨2, ![n, w]⟩ : Shape), ⟨2, ![n, w]⟩] ⟨2, ![m, w]⟩ 0)
    (e : Fin n) (g : Fin w) (he : n + e.val < m) :
    concatenate (⟨2, ![m, w]⟩ : Shape) 0 [⟨⟨2, ![n, w]⟩, a⟩, ⟨⟨2, ![n, w]⟩, b⟩] h (ix2 (⟨n + e.val, he⟩ : Fin m) g)
      = b (ix2 e g) := by
  refine concatenate_pair_apply_right (t := ⟨2, ![m, w]⟩) (s₁ := ⟨2, ![n, w]⟩) (s₂ := ⟨2, ![n, w]⟩) 0 a b h _ rfl rfl (ix2 e g) (fun c hc => ?_) ?_
  · match c with
    | ⟨0, _⟩ => exact absurd rfl hc
    | ⟨1, _⟩ => rfl
  · show e.val + n = n + e.val
    omega

/-- Rank 1, a position of the first piece. -/
theorem cat1_lo {n m : Nat} (a b : (⟨1, ![n]⟩ : Shape).Idx → α)
    (h : Shape.Concatenates [(⟨1, ![n]⟩ : Shape), ⟨1, ![n]⟩] ⟨1, ![m]⟩ 0)
    (e : Fin n) (he : e.val < m) :
    concatenate (⟨1, ![m]⟩ : Shape) 0 [⟨⟨1, ![n]⟩, a⟩, ⟨⟨1, ![n]⟩, b⟩] h (ix1 (⟨e.val, he⟩ : Fin m)) = a (ix1 e) := by
  refine concatenate_pair_apply_left (t := ⟨1, ![m]⟩) (s₁ := ⟨1, ![n]⟩) (s₂ := ⟨1, ![n]⟩) 0 a b h _ rfl (ix1 e) fun c => ?_
  match c with
  | ⟨0, _⟩ => rfl

/-- Rank 1, a position of the second piece. -/
theorem cat1_hi {n m : Nat} (a b : (⟨1, ![n]⟩ : Shape).Idx → α)
    (h : Shape.Concatenates [(⟨1, ![n]⟩ : Shape), ⟨1, ![n]⟩] ⟨1, ![m]⟩ 0)
    (e : Fin n) (he : n + e.val < m) :
    concatenate (⟨1, ![m]⟩ : Shape) 0 [⟨⟨1, ![n]⟩, a⟩, ⟨⟨1, ![n]⟩, b⟩] h (ix1 (⟨n + e.val, he⟩ : Fin m)) = b (ix1 e) := by
  refine concatenate_pair_apply_right (t := ⟨1, ![m]⟩) (s₁ := ⟨1, ![n]⟩) (s₂ := ⟨1, ![n]⟩) 0 a b h _ rfl rfl (ix1 e) (fun c hc => ?_) ?_
  · match c with
    | ⟨0, _⟩ => exact absurd rfl hc
  · show e.val + n = n + e.val
    omega

/-! ## The host program's three concatenations -/

/-- The edge attributes `[800000, 50] ++ [800000, 50]`: a row of the first edge type. -/
theorem cat_ea_lo (a b : S800000x50.Idx → α) (h : Shape.Concatenates [S800000x50, S800000x50] S1600000x50 0)
    (e : Fin 800000) (g : Fin 50) :
    concatenate S1600000x50 0 [⟨S800000x50, a⟩, ⟨S800000x50, b⟩] h
      (ix2 (⟨e.val, Nat.lt_of_lt_of_le e.isLt (by decide)⟩ : Fin 1600000) g) = a (ix2 e g) :=
  cat2_lo a b h e g _

/-- The edge attributes: a row of the second edge type. -/
theorem cat_ea_hi (a b : S800000x50.Idx → α) (h : Shape.Concatenates [S800000x50, S800000x50] S1600000x50 0)
    (e : Fin 800000) (g : Fin 50) :
    concatenate S1600000x50 0 [⟨S800000x50, a⟩, ⟨S800000x50, b⟩] h
      (ix2 (⟨800000 + e.val, by have := e.isLt; omega⟩ : Fin 1600000) g) = b (ix2 e g) :=
  cat2_hi a b h e g _

/-- The gathered source rows `[800000, 64] ++ [800000, 64]`: a row of the first edge type. -/
theorem cat_xs_lo (a b : S800000x64.Idx → α) (h : Shape.Concatenates [S800000x64, S800000x64] S1600000x64 0)
    (e : Fin 800000) (f : Fin 64) :
    concatenate S1600000x64 0 [⟨S800000x64, a⟩, ⟨S800000x64, b⟩] h
      (ix2 (⟨e.val, Nat.lt_of_lt_of_le e.isLt (by decide)⟩ : Fin 1600000) f) = a (ix2 e f) :=
  cat2_lo a b h e f _

/-- The gathered source rows: a row of the second edge type. -/
theorem cat_xs_hi (a b : S800000x64.Idx → α) (h : Shape.Concatenates [S800000x64, S800000x64] S1600000x64 0)
    (e : Fin 800000) (f : Fin 64) :
    concatenate S1600000x64 0 [⟨S800000x64, a⟩, ⟨S800000x64, b⟩] h
      (ix2 (⟨800000 + e.val, by have := e.isLt; omega⟩ : Fin 1600000) f) = b (ix2 e f) :=
  cat2_hi a b h e f _

/-- The edge lengths `[800000] ++ [800000]`: an edge of the first edge type. -/
theorem cat_ew_lo (a b : S800000.Idx → α) (h : Shape.Concatenates [S800000, S800000] S1600000 0) (e : Fin 800000) :
    concatenate S1600000 0 [⟨S800000, a⟩, ⟨S800000, b⟩] h
      (ix1 (⟨e.val, Nat.lt_of_lt_of_le e.isLt (by decide)⟩ : Fin 1600000)) = a (ix1 e) :=
  cat1_lo a b h e _

/-- The edge lengths: an edge of the second edge type. -/
theorem cat_ew_hi (a b : S800000.Idx → α) (h : Shape.Concatenates [S800000, S800000] S1600000 0) (e : Fin 800000) :
    concatenate S1600000 0 [⟨S800000, a⟩, ⟨S800000, b⟩] h
      (ix1 (⟨800000 + e.val, by have := e.isLt; omega⟩ : Fin 1600000)) = b (ix1 e) :=
  cat1_hi a b h e _

/-! ## Reshapes of a flat vector -/

/-- A flat vector viewed as a column: `(e, 0)` reads position `e`. -/
theorem col_of_flat {n : Nat} (x : (⟨1, ![n]⟩ : Shape).Idx → α) (h : (⟨1, ![n]⟩ : Shape).ShapeCasts ⟨2, ![n, 1]⟩) (e : Fin n) :
    shapeCast (⟨2, ![n, 1]⟩ : Shape) x h (ix2 e (0 : Fin 1)) = x (ix1 e) := by
  refine shapeCast_apply x h _ (ix1 e) ?_
  rw [Shape.rowMajor_val_one, Shape.rowMajor_val_two]
  show e.val = e.val * 1 + 0
  omega

/-- A flat vector viewed as a row: `(0, f)` reads position `f`. -/
theorem row_of_flat {n : Nat} (x : (⟨1, ![n]⟩ : Shape).Idx → α) (h : (⟨1, ![n]⟩ : Shape).ShapeCasts ⟨2, ![1, n]⟩) (f : Fin n) :
    shapeCast (⟨2, ![1, n]⟩ : Shape) x h (ix2 (0 : Fin 1) f) = x (ix1 f) := by
  refine shapeCast_apply x h _ (ix1 f) ?_
  rw [Shape.rowMajor_val_one, Shape.rowMajor_val_two]
  show f.val = 0 * n + f.val
  omega

/-- The edge lengths as a column `[1600000] → [1600000, 1]`. -/
theorem col_ew (x : S1600000.Idx → α) (h : S1600000.ShapeCasts S1600000x1) (e : Fin 1600000) :
    shapeCast S1600000x1 x h (ix2 e (0 : Fin 1)) = x (ix1 e) :=
  col_of_flat x h e

/-- A bias as a row `[64] → [1, 64]`. -/
theorem row_bias (x : S64.Idx → α) (h : S64.ShapeCasts S1x64) (f : Fin 64) :
    shapeCast S1x64 x h (ix2 (0 : Fin 1) f) = x (ix1 f) :=
  row_of_flat x h f

/-! ## The two halves of the result -/

/-- A block of rows `[o, o + n)` of an `[m, w]` array, all columns: row `e` reads row `o + e`. -/
theorem slice_rows {n m w o : Nat} (x : (⟨2, ![m, w]⟩ : Shape).Idx → α)
    (h : (⟨2, ![m, w]⟩ : Shape).Slices ![o, 0] ⟨2, ![n, w]⟩) (e : Fin n) (f : Fin w) (he : o + e.val < m) :
    extractStridedSlice (⟨2, ![n, w]⟩ : Shape) ![o, 0] x h (ix2 e f) = x (ix2 (⟨o + e.val, he⟩ : Fin m) f) := by
  refine extractStridedSlice_apply (s := ⟨2, ![m, w]⟩) (t := ⟨2, ![n, w]⟩) ![o, 0] x h (ix2 e f) _ fun c => ?_
  match c with
  | ⟨0, _⟩ => rfl
  | ⟨1, _⟩ =>
    show f.val = 0 + f.val
    omega

/-- The first edge type's half `[0 : 800000, 0 : 64]` of the `[1600000, 64]` result. -/
theorem slice_lo (x : S1600000x64.Idx → α) (h : S1600000x64.Slices ![0, 0] S800000x64) (e : Fin 800000) (f : Fin 64) :
    extractStridedSlice S800000x64 ![0, 0] x h (ix2 e f)
      = x (ix2 (⟨e.val, Nat.lt_of_lt_of_le e.isLt (by decide)⟩ : Fin 1600000) f) := by
  refine (slice_rows x h e f (by have := e.isLt; omega)).trans (congrArg x ?_)
  exact congrArg (fun r : Fin 1600000 => ix2 r f) (Fin.ext (Nat.zero_add _))

/-- The second edge type's half `[800000 : 1600000, 0 : 64]`. -/
theorem slice_hi (x : S1600000x64.Idx → α) (h : S1600000x64.Slices ![800000, 0] S800000x64) (e : Fin 800000) (f : Fin 64) :
    extractStridedSlice S800000x64 ![800000, 0] x h (ix2 e f)
      = x (ix2 (⟨800000 + e.val, by have := e.isLt; omega⟩ : Fin 1600000) f) :=
  slice_rows x h e f _

end Cert.KernelIdeal.HostLayout
-- ==== Proof.LibGatherFormat.lean ====
/-
  A host gather does not look at the values of the table it reads.

  `stablehlo.gather` picks, for each result index, ONE index of its operand (computed from the start indices and the
  dimension numbers alone) and returns the operand's element there. So two tables that agree element by element
  gather to results that agree element by element, whatever the tables' element types are called. At the ideal
  instance a bf16 table and an f32 table are both families of extended reals: a gather from one equals the gather
  from the other as soon as the tables are equal as extended reals.
-/
import Idealize.ShloMosaic.PureOps.Ideal

noncomputable section

namespace Cert.GatherFormat

open Idealize.ShloMosaic

/-- A gather read at a result index: the operand at the operand index the dimension numbers name. -/
theorem gather_apply {s si t : Shape} {α : Type} {w : Nat} (d : GatherDims s si t) (x : s.Idx → α) (i : IVec si w)
    (k : t.Idx) : Host.gather d x i k = x (d.operandIdx k i) := rfl

/-- Tables equal element by element gather to results equal element by element. -/
theorem gather_congr {s si t : Shape} {α : Type} {w : Nat} (d : GatherDims s si t) (x x' : s.Idx → α) (i : IVec si w)
    (h : ∀ j, x j = x' j) (k : t.Idx) : Host.gather d x i k = Host.gather d x' i k :=
  h (d.operandIdx k i)

/-- Two records of dimension numbers with the same lists are the same record (the well-formedness field is a proof). -/
theorem gatherDims_ext {s si t : Shape} (d d' : GatherDims s si t)
    (h1 : d.offsetDims = d'.offsetDims) (h2 : d.collapsedSliceDims = d'.collapsedSliceDims)
    (h3 : d.operandBatchingDims = d'.operandBatchingDims) (h4 : d.startIndicesBatchingDims = d'.startIndicesBatchingDims)
    (h5 : d.startIndexMap = d'.startIndexMap) (h6 : d.indexVectorDim = d'.indexVectorDim)
    (h7 : d.sliceSizes = d'.sliceSizes) : d = d' := by
  cases d
  cases d'
  cases h1
  cases h2
  cases h3
  cases h4
  cases h5
  cases h6
  cases h7
  rfl

/-- At the ideal instance a gather from a bf16 table equals the gather from an f32 table holding the same extended
    reals. -/
theorem gather_format {s si t : Shape} (d : GatherDims s si t)
    (x : (⟨s, .bf16⟩ : BufTy).Contents (Elt Ideal)) (x' : (⟨s, .f32⟩ : BufTy).Contents (Elt Ideal))
    (i : (⟨si, .i32⟩ : BufTy).Contents (Elt Ideal)) (h : ∀ j, (x j : EReal) = x' j) (k : t.Idx) :
    (Host.gather d x i k : EReal) = Host.gather d x' i k :=
  h (d.operandIdx k i)

/-- The same for two records of dimension numbers that are equal. -/
theorem gather_format' {s si t : Shape} (d d' : GatherDims s si t) (hd : d = d')
    (x : (⟨s, .bf16⟩ : BufTy).Contents (Elt Ideal)) (x' : (⟨s, .f32⟩ : BufTy).Contents (Elt Ideal))
    (i : (⟨si, .i32⟩ : BufTy).Contents (Elt Ideal)) (h : ∀ j, (x j : EReal) = x' j) (k : t.Idx) :
    (Host.gather d x i k : EReal) = Host.gather d' x' i k := by
  subst hd
  exact h (d.operandIdx k i)

end Cert.GatherFormat
-- ==== Proof.RefLin.lean ====
/-
  The reference program read at an index, part one.

  The shifted softplus as the reference spells it at a point equals the specification's `ssp`, and the node features
  through the first linear map of each edge type are the specification's `linArr`: entry `(n, f)` of the product is
  `∑ k, x (n, k) * w (k, f)`.
-/
import proofs.«116981_j2877628088816_2_alg».proof.Proof.Gen.ReferenceIdeal.Read
import proofs.«116981_j2877628088816_2_alg».proof.Proof.Spec

noncomputable section

open scoped BigOperators

namespace Cert.ReferenceIdeal.RefVal

open Cert.ReferenceIdeal Cert.ReferenceIdeal.Gen Cert.ReferenceIdeal.Read Cert.CFConv Idealize.ShloMosaic Idealize.ShloMosaic.ValueIdx

/-- An extended real never differs from itself, so comparing a value with itself for "unordered or not equal" gives
    the bit 0. -/
theorem cmp_une_self (a : EReal) : Ideal.cmp .une a a = 0#1 := by
  simp [Ideal.cmp]

/-- The shifted softplus as the reference spells it at a point: a select on "the input differs from itself" (never
    true here) between `x + 0` and `max x 0 + log1p (exp (-|x - 0|))`, then `- log 2`. The specification writes the
    exponent as `0 - |x - 0|`; the word of `0.0` is `0` and `0 - a = -a`. -/
theorem ssp_ref (x : EReal) :
    Scalar.select (Ideal.cmp .une (x - Ideal.ofBits .f32 0x00000000#32) (x - Ideal.ofBits .f32 0x00000000#32))
      (x + Ideal.ofBits .f32 0x00000000#32)
      (max x (Ideal.ofBits .f32 0x00000000#32)
        + Ideal.log1p (Ideal.exp (-(max (x - Ideal.ofBits .f32 0x00000000#32) (-(x - Ideal.ofBits .f32 0x00000000#32))))))
      - Ideal.ofBits .f32 0x3F317218#32 = ssp x := by
  rw [cmp_une_self, select_zero]
  unfold ssp wZero wLog2
  rw [Ideal.ofBits_zero_f32, zero_sub]

/-- The left index of the product's term `k` at entry `(n, f)` is `(n, k)`. -/
theorem lidx_v21 (n : Fin 50000) (f k : Fin 64) : lidx_main_v21 (ix2 n f) k = ix2 n k := by
  funext a; match a with | ⟨0, _⟩ => rfl | ⟨1, _⟩ => rfl
/-- The right index of the product's term `k` at entry `(n, f)` is `(k, f)`. -/
theorem ridx_v21 (n : Fin 50000) (f k : Fin 64) : ridx_main_v21 (ix2 n f) k = ix2 k f := by
  funext a; match a with | ⟨0, _⟩ => rfl | ⟨1, _⟩ => rfl

/-- Edge type 0: the node features through the first linear map are `linArr`. -/
theorem xs0_eq (x0 : (⟨S50000x64, .f32⟩ : BufTy).Contents (Elt Ideal)) (x12 : (⟨S64x64, .f32⟩ : BufTy).Contents (Elt Ideal)) :
    val_main_v21 (F := Ideal) x0 x12 = linArr x0 x12 := by
  funext i
  obtain ⟨n, f, rfl⟩ : ∃ (n : Fin 50000) (f : Fin 64), i = ix2 n f := ⟨i 0, i 1, eq_ix2 i⟩
  rw [val_main_v21_apply]
  simp only [lidx_v21, ridx_v21]
  rfl

/-- The left index of the product's term `k` at entry `(n, f)` is `(n, k)`. -/
theorem lidx_v62 (n : Fin 50000) (f k : Fin 64) : lidx_main_v62 (ix2 n f) k = ix2 n k := by
  funext a; match a with | ⟨0, _⟩ => rfl | ⟨1, _⟩ => rfl
/-- The right index of the product's term `k` at entry `(n, f)` is `(k, f)`. -/
theorem ridx_v62 (n : Fin 50000) (f k : Fin 64) : ridx_main_v62 (ix2 n f) k = ix2 k f := by
  funext a; match a with | ⟨0, _⟩ => rfl | ⟨1, _⟩ => rfl

/-- Edge type 1: the node features through the first linear map are `linArr`. -/
theorem xs1_eq (x1 : (⟨S50000x64, .f32⟩ : BufTy).Contents (Elt Ideal)) (x15 : (⟨S64x64, .f32⟩ : BufTy).Contents (Elt Ideal)) :
    val_main_v62 (F := Ideal) x1 x15 = linArr x1 x15 := by
  funext i
  obtain ⟨n, f, rfl⟩ : ∃ (n : Fin 50000) (f : Fin 64), i = ix2 n f := ⟨i 0, i 1, eq_ix2 i⟩
  rw [val_main_v62_apply]
  simp only [lidx_v62, ridx_v62]
  rfl

end Cert.ReferenceIdeal.RefVal

end
-- ==== Proof.RefMsg.lean ====
/-
  The reference program read at an index, part two: the message of an edge.

  For each edge type, entry `(e, f)` of the message array is the specification's `msg` of row `e` of the gathered
  source features, row `e` of the edge attributes and the edge's length. The chain is: the first filter layer is
  `aff`; its activation is `ssp` entry by entry; the second layer on top gives `filt`; the cutoff of the length is
  `cut`, broadcast along the features; the reference multiplies the source by (filter · cutoff), and `msg_assoc`
  reassociates that product to the specification's (source · filter) · cutoff. The gather stays closed.
-/
import proofs.«116981_j2877628088816_2_alg».proof.Proof.Gen.ReferenceIdeal.Read
import proofs.«116981_j2877628088816_2_alg».proof.Proof.Spec
import proofs.«116981_j2877628088816_2_alg».proof.Proof.RefLin

noncomputable section

open scoped BigOperators

namespace Cert.ReferenceIdeal.RefVal

open Cert.ReferenceIdeal Cert.ReferenceIdeal.Gen Cert.ReferenceIdeal.Read Cert.CFConv Idealize.ShloMosaic Idealize.ShloMosaic.ValueIdx

/-! ## Edge type 0: the message of an edge -/

/-- The first layer's product at entry `(e, j)`: term `k` reads the attributes at `(e, k)`. -/
theorem lidx_v7 (e : Fin 800000) (j : Fin 64) (k : Fin 50) : lidx_main_v7 (ix2 e j) k = ix2 e k := by
  funext a; match a with | ⟨0, _⟩ => rfl | ⟨1, _⟩ => rfl
/-- ... and the weights at `(k, j)`. -/
theorem ridx_v7 (e : Fin 800000) (j : Fin 64) (k : Fin 50) : ridx_main_v7 (ix2 e j) k = ix2 k j := by
  funext a; match a with | ⟨0, _⟩ => rfl | ⟨1, _⟩ => rfl
/-- The first bias, broadcast from `[64]` through `[1, 64]`, is read at `j`. -/
theorem idx_v9 (e : Fin 800000) (j : Fin 64) : idx_main_v8 (idx_main_v9 (ix2 e j)) = ix1 j := by
  funext a; match a with | ⟨0, _⟩ => rfl

/-- The first layer before its activation: `ea · W₁ + b₁` at entry `(e, j)`. -/
theorem v10_apply (x6 : (⟨S800000x50, .f32⟩ : BufTy).Contents (Elt Ideal)) (x8 : (⟨S50x64, .f32⟩ : BufTy).Contents (Elt Ideal)) (x9 : (⟨S64, .f32⟩ : BufTy).Contents (Elt Ideal)) (e : Fin 800000) (j : Fin 64) :
    val_main_v10 (F := Ideal) x6 x8 x9 (ix2 e j) = aff (rowOf x6 e) (matOf x8) (vecOf x9) j := by
  rw [val_main_v10_apply, val_main_v7_apply, val_main_v9_apply, val_main_v8_apply]
  simp only [lidx_v7, ridx_v7, idx_v9, Ideal.addf_def]
  rfl

/-- The activation: every entry of the first layer goes through the shifted softplus. -/
theorem v13_apply (x6 : (⟨S800000x50, .f32⟩ : BufTy).Contents (Elt Ideal)) (x8 : (⟨S50x64, .f32⟩ : BufTy).Contents (Elt Ideal)) (x9 : (⟨S64, .f32⟩ : BufTy).Contents (Elt Ideal)) (i : S800000x64.Idx) :
    val_main_v13 (F := Ideal) x6 x8 x9 i = ssp (val_main_v10 (F := Ideal) x6 x8 x9 i) := by
  rw [val_main_v13_apply, val_main_v11_apply, val_main_call0_v4_apply, val_main_call0_v6_apply, val_main_call0_v11_apply,
    val_main_call0_v1_apply, val_main_call0_v10_apply, val_main_call0_v9_apply, val_main_call0_v8_apply, val_main_call0_v7_apply, val_main_call0_v3_apply,
    val_main_call0_v0_apply, val_main_call0_v2_apply, val_main_call0_v5_apply, val_main_v12_apply]
  simp only [val_main_call0_cst_apply, val_main_cst_2_apply]
  generalize val_main_v10 (F := Ideal) x6 x8 x9 i = y
  exact ssp_ref y

/-- The second layer's product at entry `(e, f)`: term `k` reads the activations at `(e, k)`. -/
theorem lidx_v14 (e : Fin 800000) (f k : Fin 64) : lidx_main_v14 (ix2 e f) k = ix2 e k := by
  funext a; match a with | ⟨0, _⟩ => rfl | ⟨1, _⟩ => rfl
/-- ... and the weights at `(k, f)`. -/
theorem ridx_v14 (e : Fin 800000) (f k : Fin 64) : ridx_main_v14 (ix2 e f) k = ix2 k f := by
  funext a; match a with | ⟨0, _⟩ => rfl | ⟨1, _⟩ => rfl
/-- The second bias, broadcast from `[64]` through `[1, 64]`, is read at `f`. -/
theorem idx_v16 (e : Fin 800000) (f : Fin 64) : idx_main_v15 (idx_main_v16 (ix2 e f)) = ix1 f := by
  funext a; match a with | ⟨0, _⟩ => rfl

/-- The filter of edge `e` at feature `f`. -/
theorem v17_apply (x6 : (⟨S800000x50, .f32⟩ : BufTy).Contents (Elt Ideal)) (x8 : (⟨S50x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (e : Fin 800000) (f : Fin 64) :
    val_main_v17 (F := Ideal) x6 x8 x9 x10 x11 (ix2 e f) = filt (rowOf x6 e) (matOf x8) (vecOf x9) (matOf x10) (vecOf x11) f := by
  rw [val_main_v17_apply, val_main_v14_apply, val_main_v16_apply, val_main_v15_apply]
  simp only [lidx_v14, ridx_v14, idx_v16, Ideal.addf_def, v13_apply, v10_apply]
  rfl

/-- The cosine cutoff of a length, entry by entry. -/
theorem v6_apply (x4 : (⟨S800000, .f32⟩ : BufTy).Contents (Elt Ideal)) (i : S800000.Idx) :
    val_main_v6 (F := Ideal) x4 i = cut (x4 i) := by
  rw [val_main_v6_apply, val_main_v5_apply, val_main_v4_apply, val_main_v2_apply, val_main_v3_apply, val_main_v1_apply, val_main_v0_apply]
  simp only [val_main_cst_apply, val_main_cst_0_apply, val_main_cst_1_apply]
  rfl

/-- The cutoff, broadcast from `[800000]` through `[800000, 1]`, is read at the edge `e`. -/
theorem idx_v19 (e : Fin 800000) (f : Fin 64) : idx_main_v18 (idx_main_v19 (ix2 e f)) = ix1 e := by
  funext a; match a with | ⟨0, _⟩ => rfl

/-- The filter times the cutoff. -/
theorem v20_apply (x4 : (⟨S800000, .f32⟩ : BufTy).Contents (Elt Ideal)) (x6 : (⟨S800000x50, .f32⟩ : BufTy).Contents (Elt Ideal)) (x8 : (⟨S50x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (e : Fin 800000) (f : Fin 64) :
    val_main_v20 (F := Ideal) x4 x6 x8 x9 x10 x11 (ix2 e f) = filt (rowOf x6 e) (matOf x8) (vecOf x9) (matOf x10) (vecOf x11) f * cut (x4 (ix1 e)) := by
  rw [val_main_v20_apply, val_main_v19_apply, val_main_v18_apply, v17_apply, v6_apply, idx_v19]
  rfl

/-- Edge type 0: the message of edge `e` at feature `f` is the gathered source row times the filter times the
    cutoff; the reference multiplies the source by (filter · cutoff), which `msg_assoc` reassociates. -/
theorem msg0_apply (x0 : (⟨S50000x64, .f32⟩ : BufTy).Contents (Elt Ideal)) (x2 : (⟨S2x800000, .i32⟩ : BufTy).Contents (Elt Ideal)) (x4 : (⟨S800000, .f32⟩ : BufTy).Contents (Elt Ideal)) (x6 : (⟨S800000x50, .f32⟩ : BufTy).Contents (Elt Ideal)) (x8 : (⟨S50x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (e : Fin 800000) (f : Fin 64) :
    val_main_v31 (F := Ideal) x0 x2 x4 x6 x8 x9 x10 x11 x12 (ix2 e f)
      = msg (rowOf (val_main_v30 (F := Ideal) x0 x2 x12) e) (rowOf x6 e) (x4 (ix1 e)) (matOf x8) (vecOf x9) (matOf x10) (vecOf x11) f := by
  rw [val_main_v31_apply, v20_apply]
  exact msg_assoc (rowOf (val_main_v30 (F := Ideal) x0 x2 x12) e) (rowOf x6 e) (x4 (ix1 e)) (matOf x8) (vecOf x9) (matOf x10) (vecOf x11) f

/-! ## Edge type 1: the message of an edge -/

/-- The first layer's product at entry `(e, j)`: term `k` reads the attributes at `(e, k)`. -/
theorem lidx_v48 (e : Fin 800000) (j : Fin 64) (k : Fin 50) : lidx_main_v48 (ix2 e j) k = ix2 e k := by
  funext a; match a with | ⟨0, _⟩ => rfl | ⟨1, _⟩ => rfl
/-- ... and the weights at `(k, j)`. -/
theorem ridx_v48 (e : Fin 800000) (j : Fin 64) (k : Fin 50) : ridx_main_v48 (ix2 e j) k = ix2 k j := by
  funext a; match a with | ⟨0, _⟩ => rfl | ⟨1, _⟩ => rfl
/-- The first bias, broadcast from `[64]` through `[1, 64]`, is read at `j`. -/
theorem idx_v50 (e : Fin 800000) (j : Fin 64) : idx_main_v49 (idx_main_v50 (ix2 e j)) = ix1 j := by
  funext a; match a with | ⟨0, _⟩ => rfl

/-- The first layer before its activation: `ea · W₁ + b₁` at entry `(e, j)`. -/
theorem v51_apply (x7 : (⟨S800000x50, .f32⟩ : BufTy).Contents (Elt Ideal)) (x8 : (⟨S50x64, .f32⟩ : BufTy).Contents (Elt Ideal)) (x9 : (⟨S64, .f32⟩ : BufTy).Contents (Elt Ideal)) (e : Fin 800000) (j : Fin 64) :
    val_main_v51 (F := Ideal) x7 x8 x9 (ix2 e j) = aff (rowOf x7 e) (matOf x8) (vecOf x9) j := by
  rw [val_main_v51_apply, val_main_v48_apply, val_main_v50_apply, val_main_v49_apply]
  simp only [lidx_v48, ridx_v48, idx_v50, Ideal.addf_def]
  rfl

/-- The activation: every entry of the first layer goes through the shifted softplus. -/
theorem v54_apply (x7 : (⟨S800000x50, .f32⟩ : BufTy).Contents (Elt Ideal)) (x8 : (⟨S50x64, .f32⟩ : BufTy).Contents (Elt Ideal)) (x9 : (⟨S64, .f32⟩ : BufTy).Contents (Elt Ideal)) (i : S800000x64.Idx) :
    val_main_v54 (F := Ideal) x7 x8 x9 i = ssp (val_main_v51 (F := Ideal) x7 x8 x9 i) := by
  rw [val_main_v54_apply, val_main_v52_apply, val_main_call1_v4_apply, val_main_call1_v6_apply, val_main_call1_v11_apply,
    val_main_call1_v1_apply, val_main_call1_v10_apply, val_main_call1_v9_apply, val_main_call1_v8_apply, val_main_call1_v7_apply, val_main_call1_v3_apply,
    val_main_call1_v0_apply, val_main_call1_v2_apply, val_main_call1_v5_apply, val_main_v53_apply]
  simp only [val_main_call1_cst_apply, val_main_cst_8_apply]
  generalize val_main_v51 (F := Ideal) x7 x8 x9 i = y
  exact ssp_ref y

/-- The second layer's product at entry `(e, f)`: term `k` reads the activations at `(e, k)`. -/
theorem lidx_v55 (e : Fin 800000) (f k : Fin 64) : lidx_main_v55 (ix2 e f) k = ix2 e k := by
  funext a; match a with | ⟨0, _⟩ => rfl | ⟨1, _⟩ => rfl
/-- ... and the weights at `(k, f)`. -/
theorem ridx_v55 (e : Fin 800000) (f k : Fin 64) : ridx_main_v55 (ix2 e f) k = ix2 k f := by
  funext a; match a with | ⟨0, _⟩ => rfl | ⟨1, _⟩ => rfl
/-- The second bias, broadcast from `[64]` through `[1, 64]`, is read at `f`. -/
theorem idx_v57 (e : Fin 800000) (f : Fin 64) : idx_main_v56 (idx_main_v57 (ix2 e f)) = ix1 f := by
  funext a; match a with | ⟨0, _⟩ => rfl

/-- The filter of edge `e` at feature `f`. -/
theorem v58_apply (x7 : (⟨S800000x50, .f32⟩ : BufTy).Contents (Elt Ideal)) (x8 : (⟨S50x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (e : Fin 800000) (f : Fin 64) :
    val_main_v58 (F := Ideal) x7 x8 x9 x10 x11 (ix2 e f) = filt (rowOf x7 e) (matOf x8) (vecOf x9) (matOf x10) (vecOf x11) f := by
  rw [val_main_v58_apply, val_main_v55_apply, val_main_v57_apply, val_main_v56_apply]
  simp only [lidx_v55, ridx_v55, idx_v57, Ideal.addf_def, v54_apply, v51_apply]
  rfl

/-- The cosine cutoff of a length, entry by entry. -/
theorem v47_apply (x5 : (⟨S800000, .f32⟩ : BufTy).Contents (Elt Ideal)) (i : S800000.Idx) :
    val_main_v47 (F := Ideal) x5 i = cut (x5 i) := by
  rw [val_main_v47_apply, val_main_v46_apply, val_main_v45_apply, val_main_v43_apply, val_main_v44_apply, val_main_v42_apply, val_main_v41_apply]
  simp only [val_main_cst_5_apply, val_main_cst_6_apply, val_main_cst_7_apply]
  rfl

/-- The cutoff, broadcast from `[800000]` through `[800000, 1]`, is read at the edge `e`. -/
theorem idx_v60 (e : Fin 800000) (f : Fin 64) : idx_main_v59 (idx_main_v60 (ix2 e f)) = ix1 e := by
  funext a; match a with | ⟨0, _⟩ => rfl

/-- The filter times the cutoff. -/
theorem v61_apply (x5 : (⟨S800000, .f32⟩ : BufTy).Contents (Elt Ideal)) (x7 : (⟨S800000x50, .f32⟩ : BufTy).Contents (Elt Ideal)) (x8 : (⟨S50x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (e : Fin 800000) (f : Fin 64) :
    val_main_v61 (F := Ideal) x5 x7 x8 x9 x10 x11 (ix2 e f) = filt (rowOf x7 e) (matOf x8) (vecOf x9) (matOf x10) (vecOf x11) f * cut (x5 (ix1 e)) := by
  rw [val_main_v61_apply, val_main_v60_apply, val_main_v59_apply, v58_apply, v47_apply, idx_v60]
  rfl

/-- Edge type 1: the message of edge `e` at feature `f` is the gathered source row times the filter times the
    cutoff; the reference multiplies the source by (filter · cutoff), which `msg_assoc` reassociates. -/
theorem msg1_apply (x1 : (⟨S50000x64, .f32⟩ : BufTy).Contents (Elt Ideal)) (x3 : (⟨S2x800000, .i32⟩ : BufTy).Contents (Elt Ideal)) (x5 : (⟨S800000, .f32⟩ : BufTy).Contents (Elt Ideal)) (x7 : (⟨S800000x50, .f32⟩ : BufTy).Contents (Elt Ideal)) (x8 : (⟨S50x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x15 : (⟨S64x64, .f32⟩ : BufTy).Contents (Elt Ideal)) (e : Fin 800000) (f : Fin 64) :
    val_main_v72 (F := Ideal) x1 x3 x5 x7 x8 x9 x10 x11 x15 (ix2 e f)
      = msg (rowOf (val_main_v71 (F := Ideal) x1 x3 x15) e) (rowOf x7 e) (x5 (ix1 e)) (matOf x8) (vecOf x9) (matOf x10) (vecOf x11) f := by
  rw [val_main_v72_apply, v61_apply]
  exact msg_assoc (rowOf (val_main_v71 (F := Ideal) x1 x3 x15) e) (rowOf x7 e) (x5 (ix1 e)) (matOf x8) (vecOf x9) (matOf x10) (vecOf x11) f

end Cert.ReferenceIdeal.RefVal

end
-- ==== Proof.RefPost.lean ====
/-
  The reference program read at an index, part three: the output layers.

  For each edge type, entry `(n, f)` of the output is the specification's `post` of row `n` of the aggregated messages:
  a linear map with bias (`aff`), the shifted softplus entry by entry, and a second linear map with bias. The
  scatter-add that aggregates the messages stays closed.
-/
import proofs.«116981_j2877628088816_2_alg».proof.Proof.Gen.ReferenceIdeal.Read
import proofs.«116981_j2877628088816_2_alg».proof.Proof.Spec
import proofs.«116981_j2877628088816_2_alg».proof.Proof.RefLin

noncomputable section

open scoped BigOperators

namespace Cert.ReferenceIdeal.RefVal

open Cert.ReferenceIdeal Cert.ReferenceIdeal.Gen Cert.ReferenceIdeal.Read Cert.CFConv Idealize.ShloMosaic Idealize.ShloMosaic.ValueIdx

/-! ## Edge type 0: a node's aggregated row through the output layers -/

/-- The product at entry `(n, j)`: term `k` reads the aggregated messages at `(n, k)`. -/
theorem lidx_v37 (n : Fin 50000) (j k : Fin 64) : lidx_main_v37 (ix2 n j) k = ix2 n k := by
  funext a; match a with | ⟨0, _⟩ => rfl | ⟨1, _⟩ => rfl
/-- ... and the weights at `(k, j)`. -/
theorem ridx_v37 (n : Fin 50000) (j k : Fin 64) : ridx_main_v37 (ix2 n j) k = ix2 k j := by
  funext a; match a with | ⟨0, _⟩ => rfl | ⟨1, _⟩ => rfl
/-- The bias, broadcast from `[64]` through `[1, 64]`, is read at `j`. -/
theorem idx_v39 (n : Fin 50000) (j : Fin 64) : idx_main_v38 (idx_main_v39 (ix2 n j)) = ix1 j := by
  funext a; match a with | ⟨0, _⟩ => rfl

/-- The aggregated messages through the first output layer, before its activation. -/
theorem v40_apply (x0 : (⟨S50000x64, .f32⟩ : BufTy).Contents (Elt Ideal)) (x2 : (⟨S2x800000, .i32⟩ : BufTy).Contents (Elt Ideal)) (x4 : (⟨S800000, .f32⟩ : BufTy).Contents (Elt Ideal)) (x6 : (⟨S800000x50, .f32⟩ : BufTy).Contents (Elt Ideal)) (x8 : (⟨S50x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64x64, .f32⟩ : BufTy).Contents (Elt Ideal)) (x14 : (⟨S64, .f32⟩ : BufTy).Contents (Elt Ideal)) (n : Fin 50000) (j : Fin 64) :
    val_main_v40 (F := Ideal) x0 x2 x4 x6 x8 x9 x10 x11 x12 x13 x14 (ix2 n j) = aff (rowOf (val_main_v36 (F := Ideal) x0 x2 x4 x6 x8 x9 x10 x11 x12) n) (matOf x13) (vecOf x14) j := by
  rw [val_main_v40_apply, val_main_v37_apply, val_main_v39_apply, val_main_v38_apply]
  simp only [lidx_v37, ridx_v37, idx_v39, Ideal.addf_def]
  generalize val_main_v36 (F := Ideal) x0 x2 x4 x6 x8 x9 x10 x11 x12 = agg
  rfl

/-- The activation: every entry goes through the shifted softplus. -/
theorem v84_apply (x0 : (⟨S50000x64, .f32⟩ : BufTy).Contents (Elt Ideal)) (x2 : (⟨S2x800000, .i32⟩ : BufTy).Contents (Elt Ideal)) (x4 : (⟨S800000, .f32⟩ : BufTy).Contents (Elt Ideal)) (x6 : (⟨S800000x50, .f32⟩ : BufTy).Contents (Elt Ideal)) (x8 : (⟨S50x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64x64, .f32⟩ : BufTy).Contents (Elt Ideal)) (x14 : (⟨S64, .f32⟩ : BufTy).Contents (Elt Ideal)) (i : S50000x64.Idx) :
    val_main_v84 (F := Ideal) x0 x2 x4 x6 x8 x9 x10 x11 x12 x13 x14 i = ssp (val_main_v40 (F := Ideal) x0 x2 x4 x6 x8 x9 x10 x11 x12 x13 x14 i) := by
  rw [val_main_v84_apply, val_main_v82_apply, val_main_call2_v4_apply, val_main_call2_v6_apply, val_main_call2_v11_apply,
    val_main_call2_v1_apply, val_main_call2_v10_apply, val_main_call2_v9_apply, val_main_call2_v8_apply, val_main_call2_v7_apply, val_main_call2_v3_apply,
    val_main_call2_v0_apply, val_main_call2_v2_apply, val_main_call2_v5_apply, val_main_v83_apply]
  simp only [val_main_call2_cst_apply, val_main_cst_12_apply]
  generalize val_main_v40 (F := Ideal) x0 x2 x4 x6 x8 x9 x10 x11 x12 x13 x14 i = y
  exact ssp_ref y

/-- The last product at entry `(n, f)`: term `k` reads the activations at `(n, k)`. -/
theorem lidx_v85 (n : Fin 50000) (f k : Fin 64) : lidx_main_v85 (ix2 n f) k = ix2 n k := by
  funext a; match a with | ⟨0, _⟩ => rfl | ⟨1, _⟩ => rfl
/-- ... and the weights at `(k, f)`. -/
theorem ridx_v85 (n : Fin 50000) (f k : Fin 64) : ridx_main_v85 (ix2 n f) k = ix2 k f := by
  funext a; match a with | ⟨0, _⟩ => rfl | ⟨1, _⟩ => rfl
/-- The last bias, broadcast from `[64]` through `[1, 64]`, is read at `f`. -/
theorem idx_v87 (n : Fin 50000) (f : Fin 64) : idx_main_v86 (idx_main_v87 (ix2 n f)) = ix1 f := by
  funext a; match a with | ⟨0, _⟩ => rfl

/-- Edge type 0: the output at node `n`, feature `f`, is `post` of the node's aggregated row. -/
theorem out0_apply (x0 : (⟨S50000x64, .f32⟩ : BufTy).Contents (Elt Ideal)) (x2 : (⟨S2x800000, .i32⟩ : BufTy).Contents (Elt Ideal)) (x4 : (⟨S800000, .f32⟩ : BufTy).Contents (Elt Ideal)) (x6 : (⟨S800000x50, .f32⟩ : BufTy).Contents (Elt Ideal)) (x8 : (⟨S50x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64x64, .f32⟩ : BufTy).Contents (Elt Ideal)) (x14 : (⟨S64, .f32⟩ : BufTy).Contents (Elt Ideal)) (x18 : (⟨S64x64, .f32⟩ : BufTy).Contents (Elt Ideal)) (x19 : (⟨S64, .f32⟩ : BufTy).Contents (Elt Ideal)) (n : Fin 50000) (f : Fin 64) :
    val_main_v88 (F := Ideal) x0 x2 x4 x6 x8 x9 x10 x11 x12 x13 x14 x18 x19 (ix2 n f)
      = post (rowOf (val_main_v36 (F := Ideal) x0 x2 x4 x6 x8 x9 x10 x11 x12) n) (matOf x13) (vecOf x14) (matOf x18) (vecOf x19) f := by
  rw [val_main_v88_apply, val_main_v85_apply, val_main_v87_apply, val_main_v86_apply]
  simp only [lidx_v85, ridx_v85, idx_v87, Ideal.addf_def, v84_apply, v40_apply]
  rfl

/-! ## Edge type 1: a node's aggregated row through the output layers -/

/-- The product at entry `(n, j)`: term `k` reads the aggregated messages at `(n, k)`. -/
theorem lidx_v78 (n : Fin 50000) (j k : Fin 64) : lidx_main_v78 (ix2 n j) k = ix2 n k := by
  funext a; match a with | ⟨0, _⟩ => rfl | ⟨1, _⟩ => rfl
/-- ... and the weights at `(k, j)`. -/
theorem ridx_v78 (n : Fin 50000) (j k : Fin 64) : ridx_main_v78 (ix2 n j) k = ix2 k j := by
  funext a; match a with | ⟨0, _⟩ => rfl | ⟨1, _⟩ => rfl
/-- The bias, broadcast from `[64]` through `[1, 64]`, is read at `j`. -/
theorem idx_v80 (n : Fin 50000) (j : Fin 64) : idx_main_v79 (idx_main_v80 (ix2 n j)) = ix1 j := by
  funext a; match a with | ⟨0, _⟩ => rfl

/-- The aggregated messages through the first output layer, before its activation. -/
theorem v81_apply (x1 : (⟨S50000x64, .f32⟩ : BufTy).Contents (Elt Ideal)) (x3 : (⟨S2x800000, .i32⟩ : BufTy).Contents (Elt Ideal)) (x5 : (⟨S800000, .f32⟩ : BufTy).Contents (Elt Ideal)) (x7 : (⟨S800000x50, .f32⟩ : BufTy).Contents (Elt Ideal)) (x8 : (⟨S50x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x15 : (⟨S64x64, .f32⟩ : BufTy).Contents (Elt Ideal)) (x16 : (⟨S64x64, .f32⟩ : BufTy).Contents (Elt Ideal)) (x17 : (⟨S64, .f32⟩ : BufTy).Contents (Elt Ideal)) (n : Fin 50000) (j : Fin 64) :
    val_main_v81 (F := Ideal) x1 x3 x5 x7 x8 x9 x10 x11 x15 x16 x17 (ix2 n j) = aff (rowOf (val_main_v77 (F := Ideal) x1 x3 x5 x7 x8 x9 x10 x11 x15) n) (matOf x16) (vecOf x17) j := by
  rw [val_main_v81_apply, val_main_v78_apply, val_main_v80_apply, val_main_v79_apply]
  simp only [lidx_v78, ridx_v78, idx_v80, Ideal.addf_def]
  generalize val_main_v77 (F := Ideal) x1 x3 x5 x7 x8 x9 x10 x11 x15 = agg
  rfl

/-- The activation: every entry goes through the shifted softplus. -/
theorem v91_apply (x1 : (⟨S50000x64, .f32⟩ : BufTy).Contents (Elt Ideal)) (x3 : (⟨S2x800000, .i32⟩ : BufTy).Contents (Elt Ideal)) (x5 : (⟨S800000, .f32⟩ : BufTy).Contents (Elt Ideal)) (x7 : (⟨S800000x50, .f32⟩ : BufTy).Contents (Elt Ideal)) (x8 : (⟨S50x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x15 : (⟨S64x64, .f32⟩ : BufTy).Contents (Elt Ideal)) (x16 : (⟨S64x64, .f32⟩ : BufTy).Contents (Elt Ideal)) (x17 : (⟨S64, .f32⟩ : BufTy).Contents (Elt Ideal)) (i : S50000x64.Idx) :
    val_main_v91 (F := Ideal) x1 x3 x5 x7 x8 x9 x10 x11 x15 x16 x17 i = ssp (val_main_v81 (F := Ideal) x1 x3 x5 x7 x8 x9 x10 x11 x15 x16 x17 i) := by
  rw [val_main_v91_apply, val_main_v89_apply, val_main_call3_v4_apply, val_main_call3_v6_apply, val_main_call3_v11_apply,
    val_main_call3_v1_apply, val_main_call3_v10_apply, val_main_call3_v9_apply, val_main_call3_v8_apply, val_main_call3_v7_apply, val_main_call3_v3_apply,
    val_main_call3_v0_apply, val_main_call3_v2_apply, val_main_call3_v5_apply, val_main_v90_apply]
  simp only [val_main_call3_cst_apply, val_main_cst_13_apply]
  generalize val_main_v81 (F := Ideal) x1 x3 x5 x7 x8 x9 x10 x11 x15 x16 x17 i = y
  exact ssp_ref y

/-- The last product at entry `(n, f)`: term `k` reads the activations at `(n, k)`. -/
theorem lidx_v92 (n : Fin 50000) (f k : Fin 64) : lidx_main_v92 (ix2 n f) k = ix2 n k := by
  funext a; match a with | ⟨0, _⟩ => rfl | ⟨1, _⟩ => rfl
/-- ... and the weights at `(k, f)`. -/
theorem ridx_v92 (n : Fin 50000) (f k : Fin 64) : ridx_main_v92 (ix2 n f) k = ix2 k f := by
  funext a; match a with | ⟨0, _⟩ => rfl | ⟨1, _⟩ => rfl
/-- The last bias, broadcast from `[64]` through `[1, 64]`, is read at `f`. -/
theorem idx_v94 (n : Fin 50000) (f : Fin 64) : idx_main_v93 (idx_main_v94 (ix2 n f)) = ix1 f := by
  funext a; match a with | ⟨0, _⟩ => rfl

/-- Edge type 1: the output at node `n`, feature `f`, is `post` of the node's aggregated row. -/
theorem out1_apply (x1 : (⟨S50000x64, .f32⟩ : BufTy).Contents (Elt Ideal)) (x3 : (⟨S2x800000, .i32⟩ : BufTy).Contents (Elt Ideal)) (x5 : (⟨S800000, .f32⟩ : BufTy).Contents (Elt Ideal)) (x7 : (⟨S800000x50, .f32⟩ : BufTy).Contents (Elt Ideal)) (x8 : (⟨S50x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x15 : (⟨S64x64, .f32⟩ : BufTy).Contents (Elt Ideal)) (x16 : (⟨S64x64, .f32⟩ : BufTy).Contents (Elt Ideal)) (x17 : (⟨S64, .f32⟩ : BufTy).Contents (Elt Ideal)) (x18 : (⟨S64x64, .f32⟩ : BufTy).Contents (Elt Ideal)) (x19 : (⟨S64, .f32⟩ : BufTy).Contents (Elt Ideal)) (n : Fin 50000) (f : Fin 64) :
    val_main_v95 (F := Ideal) x1 x3 x5 x7 x8 x9 x10 x11 x15 x16 x17 x18 x19 (ix2 n f)
      = post (rowOf (val_main_v77 (F := Ideal) x1 x3 x5 x7 x8 x9 x10 x11 x15) n) (matOf x16) (vecOf x17) (matOf x18) (vecOf x19) f := by
  rw [val_main_v95_apply, val_main_v92_apply, val_main_v94_apply, val_main_v93_apply]
  simp only [lidx_v92, ridx_v92, idx_v94, Ideal.addf_def, v91_apply, v81_apply]
  rfl

end Cert.ReferenceIdeal.RefVal

end
-- ==== Proof.Bridge.lean ====
/-
  The kernel's closed forms are the reference's stages.

  Edge by edge and node by node both programs compute the same extended reals. The kernel runs its filter over the two
  edge types' arrays laid one after the other and cuts the result back in two; row `e` of the first half depends on
  row `e` of edge type 0's arrays only, row `e` of the second half on row `e` of edge type 1's, and there it is the
  reference's message — with `(source · filter) · cutoff` where the reference has `source · (filter · cutoff)`. The
  gathered source rows agree because the two linear maps do, and a gather does not see the float format of the table
  it reads. The destination-wise sums of equal message arrays over equal index columns are equal, and the node map
  is the reference's.
-/
import proofs.«116981_j2877628088816_2_alg».proof.Proof.KClosed
import proofs.«116981_j2877628088816_2_alg».proof.Proof.HostLayout
import proofs.«116981_j2877628088816_2_alg».proof.Proof.LibGatherFormat
import proofs.«116981_j2877628088816_2_alg».proof.Proof.RefLin
import proofs.«116981_j2877628088816_2_alg».proof.Proof.RefMsg
import proofs.«116981_j2877628088816_2_alg».proof.Proof.RefPost

noncomputable section

namespace Cert.Bridge

open Cert.KernelIdeal Cert.KernelIdeal.KHost Cert.KernelIdeal.KClosed Cert.CFConv
open Idealize.ShloMosaic Idealize.ShloMosaic.TcCoe Idealize.ShloMosaic.ValueIdx
open Cert.KernelIdeal.Facts₀ Cert.KernelIdeal.Facts

variable (a0 a1 : (⟨S50000x64, .f32⟩ : BufTy).Contents (Elt Ideal)) (a2 a3 : (⟨S2x800000, .i32⟩ : BufTy).Contents (Elt Ideal)) (a4 a5 : (⟨S800000, .f32⟩ : BufTy).Contents (Elt Ideal))
    (a6 a7 : (⟨S800000x50, .f32⟩ : BufTy).Contents (Elt Ideal)) (a8 : (⟨S50x64, .f32⟩ : BufTy).Contents (Elt Ideal)) (a9 : (⟨S64, .f32⟩ : BufTy).Contents (Elt Ideal))
    (a10 : (⟨S64x64, .f32⟩ : BufTy).Contents (Elt Ideal)) (a11 : (⟨S64, .f32⟩ : BufTy).Contents (Elt Ideal)) (a12 a15 : (⟨S64x64, .f32⟩ : BufTy).Contents (Elt Ideal))
  (a13 a16 a18 : (⟨S64x64, .f32⟩ : BufTy).Contents (Elt Ideal)) (a14 a17 a19 : (⟨S64, .f32⟩ : BufTy).Contents (Elt Ideal))

/-! ## The index columns and the zero table are the reference's -/

theorem srcCol0 : Cert.ReferenceIdeal.Read.val_main_v29 (F := Ideal) a2 = srcCol (F := Ideal) a2 := rfl
theorem srcCol1 : Cert.ReferenceIdeal.Read.val_main_v70 (F := Ideal) a3 = srcCol (F := Ideal) a3 := rfl
theorem dstCol0 : Cert.ReferenceIdeal.Read.val_main_v35 (F := Ideal) a2 = dstCol (F := Ideal) a2 := rfl
theorem dstCol1 : Cert.ReferenceIdeal.Read.val_main_v76 (F := Ideal) a3 = dstCol (F := Ideal) a3 := rfl

/-! ## A bias laid as a one-row table, read back -/

theorem row0_rowTab (b : (⟨S64, .f32⟩ : BufTy).Contents (Elt Ideal)) : row0Of (rowTab (F := Ideal) b) = vecOf b := by
  funext k
  exact Cert.KernelIdeal.HostLayout.row_bias b _ k

/-! ## The gathered source rows -/

theorem gathered0 (e : Fin 800000) (k : Fin 64) :
    (gathered (F := Ideal) (linArr a0 a12) a2 (ix2 e k) : EReal) = Cert.ReferenceIdeal.Read.val_main_v30 (F := Ideal) a0 a2 a12 (ix2 e k) :=
  Cert.GatherFormat.gather_format' _ _ rfl (linArr a0 a12) (Cert.ReferenceIdeal.Read.val_main_v21 (F := Ideal) a0 a12) (srcCol (F := Ideal) a2)
    (fun j => (congrFun (Cert.ReferenceIdeal.RefVal.xs0_eq a0 a12) j).symm) (ix2 e k)

theorem gathered1 (e : Fin 800000) (k : Fin 64) :
    (gathered (F := Ideal) (linArr a1 a15) a3 (ix2 e k) : EReal) = Cert.ReferenceIdeal.Read.val_main_v71 (F := Ideal) a1 a3 a15 (ix2 e k) :=
  Cert.GatherFormat.gather_format' _ _ rfl (linArr a1 a15) (Cert.ReferenceIdeal.Read.val_main_v62 (F := Ideal) a1 a15) (srcCol (F := Ideal) a3)
    (fun j => (congrFun (Cert.ReferenceIdeal.RefVal.xs1_eq a1 a15) j).symm) (ix2 e k)

/-! ## Each half of the concatenated messages is the reference's message array -/

theorem half0 (e : Fin 800000) (f : Fin 64) :
    extractStridedSlice S800000x64 ![0, 0] (msgCat a0 a1 a2 a3 a4 a5 a6 a7 a8 a9 a10 a11 a12 a15) slices_S1600000x64_S800000x64_0_0 (ix2 e f)
      = Cert.ReferenceIdeal.Read.val_main_v31 (F := Ideal) a0 a2 a4 a6 a8 a9 a10 a11 a12 (ix2 e f) := by
  rw [Cert.KernelIdeal.HostLayout.slice_lo _ _ e f, Cert.ReferenceIdeal.RefVal.msg0_apply]
  show msg (rowOf _ _) (rowOf _ _) _ (matOf a8) (row0Of _) (matOf a10) (row0Of _) f = _
  rw [row0_rowTab, row0_rowTab]
  congr 1
  · funext k; exact (Cert.KernelIdeal.HostLayout.cat_xs_lo _ _ _ e k).trans (gathered0 a0 a2 a12 e k)
  · funext g; exact Cert.KernelIdeal.HostLayout.cat_ea_lo _ _ _ e g
  · exact (Cert.KernelIdeal.HostLayout.col_ew _ _ _).trans (Cert.KernelIdeal.HostLayout.cat_ew_lo _ _ _ e)

theorem half1 (e : Fin 800000) (f : Fin 64) :
    extractStridedSlice S800000x64 ![800000, 0] (msgCat a0 a1 a2 a3 a4 a5 a6 a7 a8 a9 a10 a11 a12 a15) slices_S1600000x64_S800000x64_800000_0 (ix2 e f)
      = Cert.ReferenceIdeal.Read.val_main_v72 (F := Ideal) a1 a3 a5 a7 a8 a9 a10 a11 a15 (ix2 e f) := by
  rw [Cert.KernelIdeal.HostLayout.slice_hi _ _ e f, Cert.ReferenceIdeal.RefVal.msg1_apply]
  show msg (rowOf _ _) (rowOf _ _) _ (matOf a8) (row0Of _) (matOf a10) (row0Of _) f = _
  rw [row0_rowTab, row0_rowTab]
  congr 1
  · funext k; exact (Cert.KernelIdeal.HostLayout.cat_xs_hi _ _ _ e k).trans (gathered1 a1 a3 a15 e k)
  · funext g; exact Cert.KernelIdeal.HostLayout.cat_ea_hi _ _ _ e g
  · exact (Cert.KernelIdeal.HostLayout.col_ew _ _ _).trans (Cert.KernelIdeal.HostLayout.cat_ew_hi _ _ _ e)

/-! ## The sums into the destination nodes -/

theorem agg0 :
    scattered (F := Ideal) a2 (extractStridedSlice S800000x64 ![0, 0] (msgCat a0 a1 a2 a3 a4 a5 a6 a7 a8 a9 a10 a11 a12 a15) slices_S1600000x64_S800000x64_0_0)
      = Cert.ReferenceIdeal.Read.val_main_v36 (F := Ideal) a0 a2 a4 a6 a8 a9 a10 a11 a12 := by
  have hu : extractStridedSlice S800000x64 ![0, 0] (msgCat a0 a1 a2 a3 a4 a5 a6 a7 a8 a9 a10 a11 a12 a15) slices_S1600000x64_S800000x64_0_0
      = Cert.ReferenceIdeal.Read.val_main_v31 (F := Ideal) a0 a2 a4 a6 a8 a9 a10 a11 a12 := by
    funext j
    obtain ⟨e, f, rfl⟩ : ∃ (e : Fin 800000) (f : Fin 64), j = ix2 e f := ⟨j 0, j 1, eq_ix2 j⟩
    exact half0 a0 a1 a2 a3 a4 a5 a6 a7 a8 a9 a10 a11 a12 a15 e f
  rw [hu]; rfl

theorem agg1 :
    scattered (F := Ideal) a3 (extractStridedSlice S800000x64 ![800000, 0] (msgCat a0 a1 a2 a3 a4 a5 a6 a7 a8 a9 a10 a11 a12 a15) slices_S1600000x64_S800000x64_800000_0)
      = Cert.ReferenceIdeal.Read.val_main_v77 (F := Ideal) a1 a3 a5 a7 a8 a9 a10 a11 a15 := by
  have hu : extractStridedSlice S800000x64 ![800000, 0] (msgCat a0 a1 a2 a3 a4 a5 a6 a7 a8 a9 a10 a11 a12 a15) slices_S1600000x64_S800000x64_800000_0
      = Cert.ReferenceIdeal.Read.val_main_v72 (F := Ideal) a1 a3 a5 a7 a8 a9 a10 a11 a15 := by
    funext j
    obtain ⟨e, f, rfl⟩ : ∃ (e : Fin 800000) (f : Fin 64), j = ix2 e f := ⟨j 0, j 1, eq_ix2 j⟩
    exact half1 a0 a1 a2 a3 a4 a5 a6 a7 a8 a9 a10 a11 a12 a15 e f
  rw [hu]; rfl

/-! ## The results -/

/-- Edge type 0's result of the kernel is the reference's first result. -/
theorem out0 : out0K a0 a1 a2 a3 a4 a5 a6 a7 a8 a9 a10 a11 a12 a15 a13 a14 a18 a19 = Cert.ReferenceIdeal.Read.val_main_v88 (F := Ideal) a0 a2 a4 a6 a8 a9 a10 a11 a12 a13 a14 a18 a19 := by
  funext i
  obtain ⟨n, f, rfl⟩ : ∃ (n : Fin 50000) (f : Fin 64), i = ix2 n f := ⟨i 0, i 1, eq_ix2 i⟩
  rw [Cert.ReferenceIdeal.RefVal.out0_apply]
  show post (rowOf _ n) (matOf a13) (row0Of _) (matOf a18) (row0Of _) f = _
  rw [row0_rowTab, row0_rowTab, agg0 a0 a1 a2 a3 a4 a5 a6 a7 a8 a9 a10 a11 a12 a15]

/-- Edge type 1's result of the kernel is the reference's second result. -/
theorem out1 : out1K a0 a1 a2 a3 a4 a5 a6 a7 a8 a9 a10 a11 a12 a15 a16 a17 a18 a19 = Cert.ReferenceIdeal.Read.val_main_v95 (F := Ideal) a1 a3 a5 a7 a8 a9 a10 a11 a15 a16 a17 a18 a19 := by
  funext i
  obtain ⟨n, f, rfl⟩ : ∃ (n : Fin 50000) (f : Fin 64), i = ix2 n f := ⟨i 0, i 1, eq_ix2 i⟩
  rw [Cert.ReferenceIdeal.RefVal.out1_apply]
  show post (rowOf _ n) (matOf a16) (row0Of _) (matOf a18) (row0Of _) f = _
  rw [row0_rowTab, row0_rowTab, agg1 a0 a1 a2 a3 a4 a5 a6 a7 a8 a9 a10 a11 a12 a15]

end Cert.Bridge

end
-- ==== Proof.lean ====
/-
  The kernel — a continuous-filter convolution block over two edge types: two linear maps of the node features, a
  filter perceptron with a cosine cutoff applied to the gathered source rows of all edges at once, a sum of each
  edge type's messages into their destination nodes, and a node map — against the plain array program.

  The three programs run: the two kernel programs by their frame certificates, the reference by its run read back.
  Nothing was rewritten by the idealization. At the extended reals the kernel's two results, walked back through the
  regions and the host operations to the argument arrays (`KChain`), are the functions `out0K`, `out1K` of the
  arguments, and these are the reference's two result stages (`Bridge`): the messages agree edge by edge up to the
  association of a product of three factors, the sums into nodes are sums of equal arrays, the node maps agree row
  by row. No law used needs finiteness, so the precondition is not opened.
-/
import proofs.«116981_j2877628088816_2_alg».proof.Defs
import proofs.«116981_j2877628088816_2_alg».proof.Proof.Gen.Kernel
import proofs.«116981_j2877628088816_2_alg».proof.Proof.Gen.Kernel.Frame
import proofs.«116981_j2877628088816_2_alg».proof.Proof.Gen.KernelIdeal
import proofs.«116981_j2877628088816_2_alg».proof.Proof.Gen.KernelIdeal.Frame
import proofs.«116981_j2877628088816_2_alg».proof.Proof.Gen.ReferenceIdeal
import proofs.«116981_j2877628088816_2_alg».proof.Proof.Gen.Pre_finite_inputs
import proofs.«116981_j2877628088816_2_alg».proof.Proof.Gen.ReferenceIdeal.Run
import proofs.«116981_j2877628088816_2_alg».proof.Proof.Gen.ReferenceIdeal.Read
import proofs.«116981_j2877628088816_2_alg».proof.Proof.KRun
import proofs.«116981_j2877628088816_2_alg».proof.Proof.KChain
import proofs.«116981_j2877628088816_2_alg».proof.Proof.Bridge
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the same two result arrays: the kernel's are
    `out0K`, `out1K` of its arguments, and those are the reference's last stages of the same arguments. -/
theorem algebraic : Cert.algebraic_KernelIdeal_ReferenceIdeal := by
  intro m ρ m' ρ' _ hagree
  refine ⟨fun c => Cert.KernelIdeal.KChain.out0At m c, fun c => Cert.KernelIdeal.KChain.out1At m c, ?_, ?_⟩
  · refine (θ_run (Cert.KernelIdeal.defs (F := Ideal)) _ _).mono (fun r h c => ?_) (Cert.KernelIdeal.KRun.run_named (F := Ideal) m ρ)
    exact ⟨(h c).1.trans (Cert.KernelIdeal.KChain.W8_v41 m ρ c), (h c).2.1.trans (Cert.KernelIdeal.KChain.W8_v43 m ρ c), (h c).2.2⟩
  · refine (θ_run (Cert.ReferenceIdeal.defs (F := Ideal)) _ _).mono (fun r h c => ?_) (Cert.ReferenceIdeal.Value.run (F := Ideal) m' ρ')
    obtain ⟨e0, e1, e2, e3, e4, e5, e6, e7, e8, e9, e10, e11, e12, e13, e14, e15, e16, e17, e18, e19⟩ := hagree c
    refine ⟨(h c).1.trans ?_, (h c).2.1.trans ?_, (h c).2.2⟩
    · rw [Cert.ReferenceIdeal.Read.val_main_v88_eq, e0, e2, e4, e6, e8, e9, e10, e11, e12, e13, e14, e18, e19]
      exact (Cert.Bridge.out0 _ _ _ _ _ _ _ _ _ _ _ _ _ _ _ _ _ _).symm
    · rw [Cert.ReferenceIdeal.Read.val_main_v95_eq, e1, e3, e5, e7, e8, e9, e10, e11, e15, e16, e17, e18, e19]
      exact (Cert.Bridge.out1 _ _ _ _ _ _ _ _ _ _ _ _ _ _ _ _ _ _).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
